-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S50000x128 : Shape := ⟨2, ![50000, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S50000x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 99999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S50000x128 : Shape := ⟨2, ![50000, 128]⟩
abbrev S6400x128 : Shape := ⟨2, ![6400, 128]⟩
abbrev S200x128 : Shape := ⟨2, ![200, 128]⟩
abbrev S_ : Shape := ⟨0, ![]⟩
abbrev S1x16 : Shape := ⟨2, ![1, 16]⟩
abbrev S16 : Shape := ⟨1, ![16]⟩
abbrev S819200 : Shape := ⟨1, ![819200]⟩
abbrev S819200x128 : Shape := ⟨2, ![819200, 128]⟩
abbrev S8192 : Shape := ⟨1, ![8192]⟩
abbrev S8192x128 : Shape := ⟨2, ![8192, 128]⟩
abbrev S50008x128 : Shape := ⟨2, ![50008, 128]⟩
abbrev S8x128 : Shape := ⟨2, ![8, 128]⟩
abbrev S1 : Shape := ⟨1, ![1]⟩
abbrev S1x128 : Shape := ⟨2, ![1, 128]⟩
abbrev S16384x50x128 : Shape := ⟨3, ![16384, 50, 128]⟩

abbrev nBuf : Table → Nat
  | .hbm => 7
  | .local .tc .vmem => 3
  | .local .tc .smem => 2
  | .local .scVector .vmem => 1
  | _ => 0

abbrev bufTy : (tb : Table) → Fin (nBuf tb) → BufTy
  | .hbm, ⟨0, _⟩ => ⟨S16384x50, .i32⟩
  | .hbm, ⟨1, _⟩ => ⟨S50000x128, .f32⟩
  | .hbm, ⟨2, _⟩ => ⟨S6400x128, .i32⟩
  | .hbm, ⟨3, _⟩ => ⟨S6400x128, .i32⟩
  | .hbm, ⟨4, _⟩ => ⟨S819200, .i32⟩
  | .hbm, ⟨5, _⟩ => ⟨S819200x128, .f32⟩
  | .hbm, ⟨6, _⟩ => ⟨S16384x50x128, .f32⟩
  | .local .tc .vmem, ⟨0, _⟩ => ⟨S8192x128, .f32⟩
  | .local .tc .vmem, ⟨1, _⟩ => ⟨S8192x128, .f32⟩
  | .local .tc .vmem, ⟨2, _⟩ => ⟨S50008x128, .f32⟩
  | .local .tc .smem, ⟨0, _⟩ => ⟨S8192, .i32⟩
  | .local .tc .smem, ⟨1, _⟩ => ⟨S8192, .i32⟩
  | .local .scVector .vmem, ⟨0, _⟩ => ⟨S200x128, .i32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v1_scv : Ref sig .scVector := ⟨.hbm, 3, rfl⟩
abbrev cc1_stg1_0 : Ref sig .tc := ⟨.vmem, 0, rfl⟩
abbrev cc1_stg1_1 : Ref sig .tc := ⟨.vmem, 1, rfl⟩
abbrev cc1_scratch0 : Ref sig .tc := ⟨.vmem, 2, rfl⟩
abbrev cc1_stg0_0 : Ref sig .tc := ⟨.smem, 0, rfl⟩
abbrev cc1_stg0_1 : Ref sig .tc := ⟨.smem, 1, rfl⟩
abbrev cc0_scratch0 : Ref sig .scVector := ⟨.vmem, 0, rfl⟩
abbrev cc1_sem0_0 : DmaSem sig := 2
abbrev cc1_sem0_1 : DmaSem sig := 3
abbrev cc1_sem1_0 : DmaSem sig := 4
abbrev cc1_sem1_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v2 : BitVec 32 := Scalar.muli v1 c200_i32
  let c0_i32_3_r0 : BitVec 32 := 0#32
  ![v2.toNat, 0]
@[reducible] def k0_t1_loop : Scf.Loop 32 :=
  let c0_i32_0 : BitVec 32 := 0#32
  let c200_i32_1 : BitVec 32 := 200#32
  let v3 : BitVec 32 := Scalar.addi c0_i32_0 c200_i32_1
  let c1_i32 : BitVec 32 := 1#32
  ⟨c0_i32_0, v3, c1_i32⟩
@[reducible] def k0_t2_loop : Scf.Loop 32 :=
  let c0_i32_4 : BitVec 32 := 0#32
  let c8_i32 : BitVec 32 := 8#32
  let v5 : BitVec 32 := Scalar.addi c0_i32_4 c8_i32
  let c1_i32_5 : BitVec 32 := 1#32
  ⟨c0_i32_4, v5, c1_i32_5⟩
def k0_off2 (k0_t1 : Fin k0_t1_loop.trips) (k0_t2 : Fin k0_t2_loop.trips) : Fin 2 → Nat :=
  let c0_i32_0 : BitVec 32 := 0#32
  let c1_i32 : BitVec 32 := 1#32
  let arg5 : BitVec 32 := Scf.iv c0_i32_0 c1_i32 k0_t1
  let v8 : Index := Scalar.indexCast arg5
  let c0_i32_4 : BitVec 32 := 0#32
  let c1_i32_5 : BitVec 32 := 1#32
  let arg7 : BitVec 32 := Scf.iv c0_i32_4 c1_i32_5 k0_t2
  let c16_i32 : BitVec 32 := 16#32
  let v7 : BitVec 32 := Scalar.muli arg7 c16_i32
  let v9 : Index := Scalar.indexCast v7
  ![v8.toNat, v9.toNat]
abbrev grid1 : Pipeline.Grid := ⟨1, ![100], ![false]⟩

@[reducible] def k1_t1_loop : Scf.Loop 32 :=
  let c0_i32_1 : BitVec 32 := 0#32
  let c512_i32 : BitVec 32 := 512#32
  let v3 : BitVec 32 := Scalar.addi c0_i32_1 c512_i32
  let c1_i32 : BitVec 32 := 1#32
  ⟨c0_i32_1, v3, c1_i32⟩
def k1_off1 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c0_i32_3 : BitVec 32 := 0#32
  let v5 : BitVec 32 := Scalar.addi v4 c0_i32_3
  let v6 : Index := Scalar.indexCast v5
  ![v6.toNat]
def k1_off2 (v7 : BitVec 32) : Fin 2 → Nat :=
  let v8 : Index := Scalar.indexCast v7
  let c0 : Index := 0#32
  ![v8.toNat, 0]

def k1_chk1 (v7 : BitVec 32) : Prop :=
  (∀ a, (k1_off2 v7) a + S1x128.size a ≤ S50008x128.size a)
instance k1_chk1.dec : ∀ (v7 : BitVec 32), Decidable (k1_chk1 v7) := fun v7 => decidable_of_iff' _ (Iff.of_eq (k1_chk1.eq_1 v7))
theorem k1_off2_inb : ∀ (v7 : BitVec 32) (k1_hw1 : k1_chk1 v7), ∀ a, (k1_off2 v7) a + S1x128.size a ≤ S50008x128.size a := fun v7 k1_hw1 => k1_hw1

def k1_off3 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c0_i32_4 : BitVec 32 := 0#32
  let v10 : BitVec 32 := Scalar.addi v4 c0_i32_4
  let v11 : Index := Scalar.indexCast v10
  let c0_5 : Index := 0#32
  ![v11.toNat, 0]
def k1_off4 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c1_i32_6 : BitVec 32 := 1#32
  let v13 : BitVec 32 := Scalar.addi v4 c1_i32_6
  let v14 : Index := Scalar.indexCast v13
  ![v14.toNat]
def k1_off5 (v15 : BitVec 32) : Fin 2 → Nat :=
  let v16 : Index := Scalar.indexCast v15
  let c0_7 : Index := 0#32
  ![v16.toNat, 0]

def k1_chk2 (v15 : BitVec 32) : Prop :=
  (∀ a, (k1_off5 v15) a + S1x128.size a ≤ S50008x128.size a)
instance k1_chk2.dec : ∀ (v15 : BitVec 32), Decidable (k1_chk2 v15) := fun v15 => decidable_of_iff' _ (Iff.of_eq (k1_chk2.eq_1 v15))
theorem k1_off5_inb : ∀ (v15 : BitVec 32) (k1_hw2 : k1_chk2 v15), ∀ a, (k1_off5 v15) a + S1x128.size a ≤ S50008x128.size a := fun v15 k1_hw2 => k1_hw2

def k1_off6 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c1_i32_8 : BitVec 32 := 1#32
  let v18 : BitVec 32 := Scalar.addi v4 c1_i32_8
  let v19 : Index := Scalar.indexCast v18
  let c0_9 : Index := 0#32
  ![v19.toNat, 0]
def k1_off7 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c2_i32 : BitVec 32 := 2#32
  let v21 : BitVec 32 := Scalar.addi v4 c2_i32
  let v22 : Index := Scalar.indexCast v21
  ![v22.toNat]
def k1_off8 (v23 : BitVec 32) : Fin 2 → Nat :=
  let v24 : Index := Scalar.indexCast v23
  let c0_10 : Index := 0#32
  ![v24.toNat, 0]

def k1_chk3 (v23 : BitVec 32) : Prop :=
  (∀ a, (k1_off8 v23) a + S1x128.size a ≤ S50008x128.size a)
instance k1_chk3.dec : ∀ (v23 : BitVec 32), Decidable (k1_chk3 v23) := fun v23 => decidable_of_iff' _ (Iff.of_eq (k1_chk3.eq_1 v23))
theorem k1_off8_inb : ∀ (v23 : BitVec 32) (k1_hw3 : k1_chk3 v23), ∀ a, (k1_off8 v23) a + S1x128.size a ≤ S50008x128.size a := fun v23 k1_hw3 => k1_hw3

def k1_off9 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c2_i32_11 : BitVec 32 := 2#32
  let v26 : BitVec 32 := Scalar.addi v4 c2_i32_11
  let v27 : Index := Scalar.indexCast v26
  let c0_12 : Index := 0#32
  ![v27.toNat, 0]
def k1_off10 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c3_i32 : BitVec 32 := 3#32
  let v29 : BitVec 32 := Scalar.addi v4 c3_i32
  let v30 : Index := Scalar.indexCast v29
  ![v30.toNat]
def k1_off11 (v31 : BitVec 32) : Fin 2 → Nat :=
  let v32 : Index := Scalar.indexCast v31
  let c0_13 : Index := 0#32
  ![v32.toNat, 0]

def k1_chk4 (v31 : BitVec 32) : Prop :=
  (∀ a, (k1_off11 v31) a + S1x128.size a ≤ S50008x128.size a)
instance k1_chk4.dec : ∀ (v31 : BitVec 32), Decidable (k1_chk4 v31) := fun v31 => decidable_of_iff' _ (Iff.of_eq (k1_chk4.eq_1 v31))
theorem k1_off11_inb : ∀ (v31 : BitVec 32) (k1_hw4 : k1_chk4 v31), ∀ a, (k1_off11 v31) a + S1x128.size a ≤ S50008x128.size a := fun v31 k1_hw4 => k1_hw4

def k1_off12 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c3_i32_14 : BitVec 32 := 3#32
  let v34 : BitVec 32 := Scalar.addi v4 c3_i32_14
  let v35 : Index := Scalar.indexCast v34
  let c0_15 : Index := 0#32
  ![v35.toNat, 0]
def k1_off13 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c4_i32 : BitVec 32 := 4#32
  let v37 : BitVec 32 := Scalar.addi v4 c4_i32
  let v38 : Index := Scalar.indexCast v37
  ![v38.toNat]
def k1_off14 (v39 : BitVec 32) : Fin 2 → Nat :=
  let v40 : Index := Scalar.indexCast v39
  let c0_16 : Index := 0#32
  ![v40.toNat, 0]

def k1_chk5 (v39 : BitVec 32) : Prop :=
  (∀ a, (k1_off14 v39) a + S1x128.size a ≤ S50008x128.size a)
instance k1_chk5.dec : ∀ (v39 : BitVec 32), Decidable (k1_chk5 v39) := fun v39 => decidable_of_iff' _ (Iff.of_eq (k1_chk5.eq_1 v39))
theorem k1_off14_inb : ∀ (v39 : BitVec 32) (k1_hw5 : k1_chk5 v39), ∀ a, (k1_off14 v39) a + S1x128.size a ≤ S50008x128.size a := fun v39 k1_hw5 => k1_hw5

def k1_off15 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c4_i32_17 : BitVec 32 := 4#32
  let v42 : BitVec 32 := Scalar.addi v4 c4_i32_17
  let v43 : Index := Scalar.indexCast v42
  let c0_18 : Index := 0#32
  ![v43.toNat, 0]
def k1_off16 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c5_i32 : BitVec 32 := 5#32
  let v45 : BitVec 32 := Scalar.addi v4 c5_i32
  let v46 : Index := Scalar.indexCast v45
  ![v46.toNat]
def k1_off17 (v47 : BitVec 32) : Fin 2 → Nat :=
  let v48 : Index := Scalar.indexCast v47
  let c0_19 : Index := 0#32
  ![v48.toNat, 0]

def k1_chk6 (v47 : BitVec 32) : Prop :=
  (∀ a, (k1_off17 v47) a + S1x128.size a ≤ S50008x128.size a)
instance k1_chk6.dec : ∀ (v47 : BitVec 32), Decidable (k1_chk6 v47) := fun v47 => decidable_of_iff' _ (Iff.of_eq (k1_chk6.eq_1 v47))
theorem k1_off17_inb : ∀ (v47 : BitVec 32) (k1_hw6 : k1_chk6 v47), ∀ a, (k1_off17 v47) a + S1x128.size a ≤ S50008x128.size a := fun v47 k1_hw6 => k1_hw6

def k1_off18 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c5_i32_20 : BitVec 32 := 5#32
  let v50 : BitVec 32 := Scalar.addi v4 c5_i32_20
  let v51 : Index := Scalar.indexCast v50
  let c0_21 : Index := 0#32
  ![v51.toNat, 0]
def k1_off19 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c6_i32 : BitVec 32 := 6#32
  let v53 : BitVec 32 := Scalar.addi v4 c6_i32
  let v54 : Index := Scalar.indexCast v53
  ![v54.toNat]
def k1_off20 (v55 : BitVec 32) : Fin 2 → Nat :=
  let v56 : Index := Scalar.indexCast v55
  let c0_22 : Index := 0#32
  ![v56.toNat, 0]

def k1_chk7 (v55 : BitVec 32) : Prop :=
  (∀ a, (k1_off20 v55) a + S1x128.size a ≤ S50008x128.size a)
instance k1_chk7.dec : ∀ (v55 : BitVec 32), Decidable (k1_chk7 v55) := fun v55 => decidable_of_iff' _ (Iff.of_eq (k1_chk7.eq_1 v55))
theorem k1_off20_inb : ∀ (v55 : BitVec 32) (k1_hw7 : k1_chk7 v55), ∀ a, (k1_off20 v55) a + S1x128.size a ≤ S50008x128.size a := fun v55 k1_hw7 => k1_hw7

def k1_off21 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c6_i32_23 : BitVec 32 := 6#32
  let v58 : BitVec 32 := Scalar.addi v4 c6_i32_23
  let v59 : Index := Scalar.indexCast v58
  let c0_24 : Index := 0#32
  ![v59.toNat, 0]
def k1_off22 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c7_i32 : BitVec 32 := 7#32
  let v61 : BitVec 32 := Scalar.addi v4 c7_i32
  let v62 : Index := Scalar.indexCast v61
  ![v62.toNat]
def k1_off23 (v63 : BitVec 32) : Fin 2 → Nat :=
  let v64 : Index := Scalar.indexCast v63
  let c0_25 : Index := 0#32
  ![v64.toNat, 0]

def k1_chk8 (v63 : BitVec 32) : Prop :=
  (∀ a, (k1_off23 v63) a + S1x128.size a ≤ S50008x128.size a)
instance k1_chk8.dec : ∀ (v63 : BitVec 32), Decidable (k1_chk8 v63) := fun v63 => decidable_of_iff' _ (Iff.of_eq (k1_chk8.eq_1 v63))
theorem k1_off23_inb : ∀ (v63 : BitVec 32) (k1_hw8 : k1_chk8 v63), ∀ a, (k1_off23 v63) a + S1x128.size a ≤ S50008x128.size a := fun v63 k1_hw8 => k1_hw8

def k1_off24 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c7_i32_26 : BitVec 32 := 7#32
  let v66 : BitVec 32 := Scalar.addi v4 c7_i32_26
  let v67 : Index := Scalar.indexCast v66
  let c0_27 : Index := 0#32
  ![v67.toNat, 0]
def k1_off25 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c8_i32 : BitVec 32 := 8#32
  let v69 : BitVec 32 := Scalar.addi v4 c8_i32
  let v70 : Index := Scalar.indexCast v69
  ![v70.toNat]
def k1_off26 (v71 : BitVec 32) : Fin 2 → Nat :=
  let v72 : Index := Scalar.indexCast v71
  let c0_28 : Index := 0#32
  ![v72.toNat, 0]

def k1_chk9 (v71 : BitVec 32) : Prop :=
  (∀ a, (k1_off26 v71) a + S1x128.size a ≤ S50008x128.size a)
instance k1_chk9.dec : ∀ (v71 : BitVec 32), Decidable (k1_chk9 v71) := fun v71 => decidable_of_iff' _ (Iff.of_eq (k1_chk9.eq_1 v71))
theorem k1_off26_inb : ∀ (v71 : BitVec 32) (k1_hw9 : k1_chk9 v71), ∀ a, (k1_off26 v71) a + S1x128.size a ≤ S50008x128.size a := fun v71 k1_hw9 => k1_hw9

def k1_off27 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c8_i32_29 : BitVec 32 := 8#32
  let v74 : BitVec 32 := Scalar.addi v4 c8_i32_29
  let v75 : Index := Scalar.indexCast v74
  let c0_30 : Index := 0#32
  ![v75.toNat, 0]
def k1_off28 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c9_i32 : BitVec 32 := 9#32
  let v77 : BitVec 32 := Scalar.addi v4 c9_i32
  let v78 : Index := Scalar.indexCast v77
  ![v78.toNat]
def k1_off29 (v79 : BitVec 32) : Fin 2 → Nat :=
  let v80 : Index := Scalar.indexCast v79
  let c0_31 : Index := 0#32
  ![v80.toNat, 0]

def k1_chk10 (v79 : BitVec 32) : Prop :=
  (∀ a, (k1_off29 v79) a + S1x128.size a ≤ S50008x128.size a)
instance k1_chk10.dec : ∀ (v79 : BitVec 32), Decidable (k1_chk10 v79) := fun v79 => decidable_of_iff' _ (Iff.of_eq (k1_chk10.eq_1 v79))
theorem k1_off29_inb : ∀ (v79 : BitVec 32) (k1_hw10 : k1_chk10 v79), ∀ a, (k1_off29 v79) a + S1x128.size a ≤ S50008x128.size a := fun v79 k1_hw10 => k1_hw10

def k1_off30 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c9_i32_32 : BitVec 32 := 9#32
  let v82 : BitVec 32 := Scalar.addi v4 c9_i32_32
  let v83 : Index := Scalar.indexCast v82
  let c0_33 : Index := 0#32
  ![v83.toNat, 0]
def k1_off31 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c10_i32 : BitVec 32 := 10#32
  let v85 : BitVec 32 := Scalar.addi v4 c10_i32
  let v86 : Index := Scalar.indexCast v85
  ![v86.toNat]
def k1_off32 (v87 : BitVec 32) : Fin 2 → Nat :=
  let v88 : Index := Scalar.indexCast v87
  let c0_34 : Index := 0#32
  ![v88.toNat, 0]

def k1_chk11 (v87 : BitVec 32) : Prop :=
  (∀ a, (k1_off32 v87) a + S1x128.size a ≤ S50008x128.size a)
instance k1_chk11.dec : ∀ (v87 : BitVec 32), Decidable (k1_chk11 v87) := fun v87 => decidable_of_iff' _ (Iff.of_eq (k1_chk11.eq_1 v87))
theorem k1_off32_inb : ∀ (v87 : BitVec 32) (k1_hw11 : k1_chk11 v87), ∀ a, (k1_off32 v87) a + S1x128.size a ≤ S50008x128.size a := fun v87 k1_hw11 => k1_hw11

def k1_off33 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c10_i32_35 : BitVec 32 := 10#32
  let v90 : BitVec 32 := Scalar.addi v4 c10_i32_35
  let v91 : Index := Scalar.indexCast v90
  let c0_36 : Index := 0#32
  ![v91.toNat, 0]
def k1_off34 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c11_i32 : BitVec 32 := 11#32
  let v93 : BitVec 32 := Scalar.addi v4 c11_i32
  let v94 : Index := Scalar.indexCast v93
  ![v94.toNat]
def k1_off35 (v95 : BitVec 32) : Fin 2 → Nat :=
  let v96 : Index := Scalar.indexCast v95
  let c0_37 : Index := 0#32
  ![v96.toNat, 0]

def k1_chk12 (v95 : BitVec 32) : Prop :=
  (∀ a, (k1_off35 v95) a + S1x128.size a ≤ S50008x128.size a)
instance k1_chk12.dec : ∀ (v95 : BitVec 32), Decidable (k1_chk12 v95) := fun v95 => decidable_of_iff' _ (Iff.of_eq (k1_chk12.eq_1 v95))
theorem k1_off35_inb : ∀ (v95 : BitVec 32) (k1_hw12 : k1_chk12 v95), ∀ a, (k1_off35 v95) a + S1x128.size a ≤ S50008x128.size a := fun v95 k1_hw12 => k1_hw12

def k1_off36 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c11_i32_38 : BitVec 32 := 11#32
  let v98 : BitVec 32 := Scalar.addi v4 c11_i32_38
  let v99 : Index := Scalar.indexCast v98
  let c0_39 : Index := 0#32
  ![v99.toNat, 0]
def k1_off37 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c12_i32 : BitVec 32 := 12#32
  let v101 : BitVec 32 := Scalar.addi v4 c12_i32
  let v102 : Index := Scalar.indexCast v101
  ![v102.toNat]
def k1_off38 (v103 : BitVec 32) : Fin 2 → Nat :=
  let v104 : Index := Scalar.indexCast v103
  let c0_40 : Index := 0#32
  ![v104.toNat, 0]

def k1_chk13 (v103 : BitVec 32) : Prop :=
  (∀ a, (k1_off38 v103) a + S1x128.size a ≤ S50008x128.size a)
instance k1_chk13.dec : ∀ (v103 : BitVec 32), Decidable (k1_chk13 v103) := fun v103 => decidable_of_iff' _ (Iff.of_eq (k1_chk13.eq_1 v103))
theorem k1_off38_inb : ∀ (v103 : BitVec 32) (k1_hw13 : k1_chk13 v103), ∀ a, (k1_off38 v103) a + S1x128.size a ≤ S50008x128.size a := fun v103 k1_hw13 => k1_hw13

def k1_off39 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c12_i32_41 : BitVec 32 := 12#32
  let v106 : BitVec 32 := Scalar.addi v4 c12_i32_41
  let v107 : Index := Scalar.indexCast v106
  let c0_42 : Index := 0#32
  ![v107.toNat, 0]
def k1_off40 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c13_i32 : BitVec 32 := 13#32
  let v109 : BitVec 32 := Scalar.addi v4 c13_i32
  let v110 : Index := Scalar.indexCast v109
  ![v110.toNat]
def k1_off41 (v111 : BitVec 32) : Fin 2 → Nat :=
  let v112 : Index := Scalar.indexCast v111
  let c0_43 : Index := 0#32
  ![v112.toNat, 0]

def k1_chk14 (v111 : BitVec 32) : Prop :=
  (∀ a, (k1_off41 v111) a + S1x128.size a ≤ S50008x128.size a)
instance k1_chk14.dec : ∀ (v111 : BitVec 32), Decidable (k1_chk14 v111) := fun v111 => decidable_of_iff' _ (Iff.of_eq (k1_chk14.eq_1 v111))
theorem k1_off41_inb : ∀ (v111 : BitVec 32) (k1_hw14 : k1_chk14 v111), ∀ a, (k1_off41 v111) a + S1x128.size a ≤ S50008x128.size a := fun v111 k1_hw14 => k1_hw14

def k1_off42 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c13_i32_44 : BitVec 32 := 13#32
  let v114 : BitVec 32 := Scalar.addi v4 c13_i32_44
  let v115 : Index := Scalar.indexCast v114
  let c0_45 : Index := 0#32
  ![v115.toNat, 0]
def k1_off43 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c14_i32 : BitVec 32 := 14#32
  let v117 : BitVec 32 := Scalar.addi v4 c14_i32
  let v118 : Index := Scalar.indexCast v117
  ![v118.toNat]
def k1_off44 (v119 : BitVec 32) : Fin 2 → Nat :=
  let v120 : Index := Scalar.indexCast v119
  let c0_46 : Index := 0#32
  ![v120.toNat, 0]

def k1_chk15 (v119 : BitVec 32) : Prop :=
  (∀ a, (k1_off44 v119) a + S1x128.size a ≤ S50008x128.size a)
instance k1_chk15.dec : ∀ (v119 : BitVec 32), Decidable (k1_chk15 v119) := fun v119 => decidable_of_iff' _ (Iff.of_eq (k1_chk15.eq_1 v119))
theorem k1_off44_inb : ∀ (v119 : BitVec 32) (k1_hw15 : k1_chk15 v119), ∀ a, (k1_off44 v119) a + S1x128.size a ≤ S50008x128.size a := fun v119 k1_hw15 => k1_hw15

def k1_off45 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c14_i32_47 : BitVec 32 := 14#32
  let v122 : BitVec 32 := Scalar.addi v4 c14_i32_47
  let v123 : Index := Scalar.indexCast v122
  let c0_48 : Index := 0#32
  ![v123.toNat, 0]
def k1_off46 (k1_t1 : Fin k1_t1_loop.trips) : Fin 1 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c15_i32 : BitVec 32 := 15#32
  let v125 : BitVec 32 := Scalar.addi v4 c15_i32
  let v126 : Index := Scalar.indexCast v125
  ![v126.toNat]
def k1_off47 (v127 : BitVec 32) : Fin 2 → Nat :=
  let v128 : Index := Scalar.indexCast v127
  let c0_49 : Index := 0#32
  ![v128.toNat, 0]

def k1_chk16 (v127 : BitVec 32) : Prop :=
  (∀ a, (k1_off47 v127) a + S1x128.size a ≤ S50008x128.size a)
instance k1_chk16.dec : ∀ (v127 : BitVec 32), Decidable (k1_chk16 v127) := fun v127 => decidable_of_iff' _ (Iff.of_eq (k1_chk16.eq_1 v127))
theorem k1_off47_inb : ∀ (v127 : BitVec 32) (k1_hw16 : k1_chk16 v127), ∀ a, (k1_off47 v127) a + S1x128.size a ≤ S50008x128.size a := fun v127 k1_hw16 => k1_hw16

def k1_off48 (k1_t1 : Fin k1_t1_loop.trips) : Fin 2 → Nat :=
  let c0_i32_1 : BitVec 32 := 0#32
  let c1_i32 : BitVec 32 := 1#32
  let arg6 : BitVec 32 := Scf.iv c0_i32_1 c1_i32 k1_t1
  let c16_i32 : BitVec 32 := 16#32
  let v4 : BitVec 32 := Scalar.muli arg6 c16_i32
  let c15_i32_50 : BitVec 32 := 15#32
  let v130 : BitVec 32 := Scalar.addi v4 c15_i32_50
  let v131 : Index := Scalar.indexCast v130
  let c0_51 : Index := 0#32
  ![v131.toNat, 0]
def cc1_transform_0 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .smem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x50_S6400x128 : S16384x50.ShapeCasts S6400x128
  h_S1x16 : 0 < S1x16.numel
  shapeCasts_S1x16_S16 : S1x16.ShapeCasts S16
  shapeCasts_S16_S1x16 : S16.ShapeCasts S1x16
  shapeCasts_S6400x128_S819200 : S6400x128.ShapeCasts S819200
  inb_S50008x128_S50000x128_0_0 : ∀ a, (![0, 0] : Fin 2 → Nat) a + S50000x128.size a ≤ S50008x128.size a
  inb_S50008x128_S8x128_50000_0 : ∀ a, (![50000, 0] : Fin 2 → Nat) a + S8x128.size a ≤ S50008x128.size a
  h_S8x128 : 0 < S8x128.numel
  shapeCasts_S8x128_S8x128 : S8x128.ShapeCasts S8x128
  numel1_S1 : S1.numel = 1
  h_S1x128 : 0 < S1x128.numel
  shapeCasts_S819200x128_S16384x50x128 : S819200x128.ShapeCasts S16384x50x128
  hcc0_scoped0 : 0 + S_.numel ≤ 7
  hcc0_scoped1 : 1 + S_.numel ≤ 7
  hcc1_scratch1 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S6400x128.size a
  k0_t1_ok : k0_t1_loop.OK
  k0_t2_ok : k0_t2_loop.OK
  k0_off2_inb : ∀ (k0_t1 : Fin k0_t1_loop.trips) (k0_t2 : Fin k0_t2_loop.trips), ∀ a, (k0_off2 k0_t1 k0_t2) a + S1x16.size a ≤ S200x128.size a
  hrank1 : 0 < grid1.rank
  k1_t1_ok : k1_t1_loop.OK
  k1_off1_inb : ∀ k1_t1 : Fin k1_t1_loop.trips, ∀ a, (k1_off1 k1_t1) a + S1.size a ≤ S8192.size a
  k1_off3_inb : ∀ k1_t1 : Fin k1_t1_loop.trips, ∀ a, (k1_off3 k1_t1) a + S1x128.size a ≤ S8192x128.size a
  k1_off4_inb : ∀ k1_t1 : Fin k1_t1_loop.trips, ∀ a, (k1_off4 k1_t1) a + S1.size a ≤ S8192.size a
  k1_off6_inb : ∀ k1_t1 : Fin k1_t1_loop.trips, ∀ a, (k1_off6 k1_t1) a + S1x128.size a ≤ S8192x128.size a
  k1_off7_inb : ∀ k1_t1 : Fin k1_t1_loop.trips, ∀ a, (k1_off7 k1_t1) a + S1.size a ≤ S8192.size a
  k1_off9_inb : ∀ k1_t1 : Fin k1_t1_loop.trips, ∀ a, (k1_off9 k1_t1) a + S1x128.size a ≤ S8192x128.size a
  k1_off10_inb : ∀ k1_t1 : Fin k1_t1_loop.trips, ∀ a, (k1_off10 k1_t1) a + S1.size a ≤ S8192.size a
  k1_off12_inb : ∀ k1_t1 : Fin k1_t1_loop.trips, ∀ a, (k1_off12 k1_t1) a + S1x128.size a ≤ S8192x128.size a
  k1_off13_inb : ∀ k1_t1 : Fin k1_t1_loop.trips, ∀ a, (k1_off13 k1_t1) a + S1.size a ≤ S8192.size a
  k1_off15_inb : ∀ k1_t1 : Fin k1_t1_loop.trips, ∀ a, (k1_off15 k1_t1) a + S1x128.size a ≤ S8192x128.size a
  k1_off16_inb : ∀ k1_t1 : Fin k1_t1_loop.trips, ∀ a, (k1_off16 k1_t1) a + S1.size a ≤ S8192.size a
  k1_off18_inb : ∀ k1_t1 : Fin k1_t1_loop.trips, ∀ a, (k1_off18 k1_t1) a + S1x128.size a ≤ S8192x128.size a
  k1_off19_inb : ∀ k1_t1 : Fin k1_t1_loop.trips, ∀ a, (k1_off19 k1_t1) a + S1.size a ≤ S8192.size a
  k1_off21_inb : ∀ k1_t1 : Fin k1_t1_loop.trips, ∀ a, (k1_off21 k1_t1) a + S1x128.size a ≤ S8192x128.size a
  k1_off22_inb : ∀ k1_t1 : Fin k1_t1_loop.trips, ∀ a, (k1_off22 k1_t1) a + S1.size a ≤ S8192.size a
  k1_off24_inb : ∀ k1_t1 : Fin k1_t1_loop.trips, ∀ a, (k1_off24 k1_t1) a + S1x128.size a ≤ S8192x128.size a
  k1_off25_inb : ∀ k1_t1 : Fin k1_t1_loop.trips, ∀ a, (k1_off25 k1_t1) a + S1.size a ≤ S8192.size a
  k1_off27_inb : ∀ k1_t1 : Fin k1_t1_loop.trips, ∀ a, (k1_off27 k1_t1) a + S1x128.size a ≤ S8192x128.size a
  k1_off28_inb : ∀ k1_t1 : Fin k1_t1_loop.trips, ∀ a, (k1_off28 k1_t1) a + S1.size a ≤ S8192.size a
  k1_off30_inb : ∀ k1_t1 : Fin k1_t1_loop.trips, ∀ a, (k1_off30 k1_t1) a + S1x128.size a ≤ S8192x128.size a
  k1_off31_inb : ∀ k1_t1 : Fin k1_t1_loop.trips, ∀ a, (k1_off31 k1_t1) a + S1.size a ≤ S8192.size a
  k1_off33_inb : ∀ k1_t1 : Fin k1_t1_loop.trips, ∀ a, (k1_off33 k1_t1) a + S1x128.size a ≤ S8192x128.size a
  k1_off34_inb : ∀ k1_t1 : Fin k1_t1_loop.trips, ∀ a, (k1_off34 k1_t1) a + S1.size a ≤ S8192.size a
  k1_off36_inb : ∀ k1_t1 : Fin k1_t1_loop.trips, ∀ a, (k1_off36 k1_t1) a + S1x128.size a ≤ S8192x128.size a
  k1_off37_inb : ∀ k1_t1 : Fin k1_t1_loop.trips, ∀ a, (k1_off37 k1_t1) a + S1.size a ≤ S8192.size a
  k1_off39_inb : ∀ k1_t1 : Fin k1_t1_loop.trips, ∀ a, (k1_off39 k1_t1) a + S1x128.size a ≤ S8192x128.size a
  k1_off40_inb : ∀ k1_t1 : Fin k1_t1_loop.trips, ∀ a, (k1_off40 k1_t1) a + S1.size a ≤ S8192.size a
  k1_off42_inb : ∀ k1_t1 : Fin k1_t1_loop.trips, ∀ a, (k1_off42 k1_t1) a + S1x128.size a ≤ S8192x128.size a
  k1_off43_inb : ∀ k1_t1 : Fin k1_t1_loop.trips, ∀ a, (k1_off43 k1_t1) a + S1.size a ≤ S8192.size a
  k1_off45_inb : ∀ k1_t1 : Fin k1_t1_loop.trips, ∀ a, (k1_off45 k1_t1) a + S1x128.size a ≤ S8192x128.size a
  k1_off46_inb : ∀ k1_t1 : Fin k1_t1_loop.trips, ∀ a, (k1_off46 k1_t1) a + S1.size a ≤ S8192.size a
  k1_off48_inb : ∀ k1_t1 : Fin k1_t1_loop.trips, ∀ a, (k1_off48 k1_t1) a + S1x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S819200.size a
  hwx1_0 : ∀ i : grid1.Coords, EltTy.bits .i32 = 32 ∨ (Rect.block (s := S819200) S8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S8192x128.size a ≤ S819200x128.size a
  hwx1_1 : ∀ i : grid1.Coords, EltTy.bits .f32 = 32 ∨ (Rect.block (s := S819200x128) S8192x128.size (cc1_transform_2 i) (hinb1_1 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc1_scratch1 : DmaSems sig S_ := SemArray.consecutive 6 S_ hcc1_scratch1

abbrev win1_0 : Pipeline.Window sig grid1 :=
  Pipeline.Window.ofSpec (Memref.whole main_v2) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x128.size cc1_transform_2 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16384x50 : Shape := ⟨2, ![16384, 50]⟩
abbrev S50000x128 : Shape := ⟨2, ![50000, 128]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x128 : Shape := ⟨3, ![16384, 50, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S50000x128, .f32⟩
  | .hbm, ⟨2, _⟩ => ⟨S_, .i32⟩
  | .hbm, ⟨3, _⟩ => ⟨S16384x50, .i32⟩
  | .hbm, ⟨4, _⟩ => ⟨S16384x50, .i32⟩
  | .hbm, ⟨5, _⟩ => ⟨S_, .i32⟩
  | .hbm, ⟨6, _⟩ => ⟨S16384x50, .i32⟩
  | .hbm, ⟨7, _⟩ => ⟨S16384x50, .i1⟩
  | .hbm, ⟨8, _⟩ => ⟨S_, .i32⟩
  | .hbm, ⟨9, _⟩ => ⟨S16384x50, .i32⟩
  | .hbm, ⟨10, _⟩ => ⟨S16384x50, .i1⟩
  | .hbm, ⟨11, _⟩ => ⟨S16384x50, .i1⟩
  | .hbm, ⟨12, _⟩ => ⟨S_, .i32⟩
  | .hbm, ⟨13, _⟩ => ⟨S_, .i32⟩
  | .hbm, ⟨14, _⟩ => ⟨S16384x50, .i32⟩
  | .hbm, ⟨15, _⟩ => ⟨S16384x50, .i32⟩
  | .hbm, ⟨16, _⟩ => ⟨S_, .i32⟩
  | .hbm, ⟨17, _⟩ => ⟨S16384x50, .i32⟩
  | .hbm, ⟨18, _⟩ => ⟨S16384x50, .i1⟩
  | .hbm, ⟨19, _⟩ => ⟨S_, .i32⟩
  | .hbm, ⟨20, _⟩ => ⟨S16384x50, .i32⟩
  | .hbm, ⟨21, _⟩ => ⟨S16384x50, .i32⟩
  | .hbm, ⟨22, _⟩ => ⟨S16384x50, .i32⟩
  | .hbm, ⟨23, _⟩ => ⟨S16384x50x1, .i32⟩
  | .hbm, ⟨24, _⟩ => ⟨S1, .i32⟩
  | .hbm, ⟨25, _⟩ => ⟨S_, .i32⟩
  | .hbm, ⟨26, _⟩ => ⟨S16384x50x1, .i32⟩
  | .hbm, ⟨27, _⟩ => ⟨S16384x50x1, .i1⟩
  | .hbm, ⟨28, _⟩ => ⟨S1x1x1, .i32⟩
  | .hbm, ⟨29, _⟩ => ⟨S16384x50x1, .i32⟩
  | .hbm, ⟨30, _⟩ => ⟨S16384x50x1, .i1⟩
  | .hbm, ⟨31, _⟩ => ⟨S16384x50x1, .i1⟩
  | .hbm, ⟨32, _⟩ => ⟨S_, .i1⟩
  | .hbm, ⟨33, _⟩ => ⟨S16384x50, .i1⟩
  | .hbm, ⟨34, _⟩ => ⟨S16384x50x128, .f32⟩
  | .hbm, ⟨35, _⟩ => ⟨S16384x50x128, .i1⟩
  | .hbm, ⟨36, _⟩ => ⟨S_, .f32⟩
  | .hbm, ⟨37, _⟩ => ⟨S16384x50x128, .f32⟩
  | .hbm, ⟨38, _⟩ => ⟨S16384x50x128, .f32⟩
  | .hbm, ⟨39, _⟩ => ⟨S16384x50x1, .i1⟩
  | .hbm, ⟨40, _⟩ => ⟨S_, .f32⟩
  | .hbm, ⟨41, _⟩ => ⟨S16384x50x128, .f32⟩
  | .hbm, ⟨42, _⟩ => ⟨S16384x50x128, .i1⟩
  | .hbm, ⟨43, _⟩ => ⟨S16384x50x128, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_call2_v0 : Ref sig .tc := ⟨.hbm, 42, rfl⟩
abbrev main_v11 : Ref sig .tc := ⟨.hbm, 43, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x128_0_1 : S16384x50.BroadcastsInDim S16384x50x128 (![0, 1] : Fin 2 → Fin S16384x50x128.rank)
  bcast_S_S16384x50x128 : S_.BroadcastsInDim S16384x50x128 (![] : Fin 0 → Fin S16384x50x128.rank)
  bcast_S16384x50x1_S16384x50x128_0_1_2 : S16384x50x1.BroadcastsInDim S16384x50x128 (![0, 1, 2] : Fin 3 → Fin S16384x50x128.rank)
  gather_S50000x128_S16384x50x1_S16384x50x128_2_0_n_n_0_2_1128_wf : GatherDims.WF S50000x128 S16384x50x1 S16384x50x128 [2] [0] [] [0] [] 2 ![1, 128]

variable [Facts₀]

def gather_S50000x128_S16384x50x1_S16384x50x128_2_0_n_n_0_2_1128 : GatherDims S50000x128 S16384x50x1 S16384x50x128 where
  offsetDims := [2]
  collapsedSliceDims := [0]
  operandBatchingDims := []
  startIndicesBatchingDims := []
  startIndexMap := [0]
  indexVectorDim := 2
  sliceSizes := ![1, 128]
  wf := gather_S50000x128_S16384x50x1_S16384x50x128_2_0_n_n_0_2_1128_wf

class Facts : Prop extends Facts₀ where

variable [Facts]
-- ==== Proof.Spec.lean ====
/-
  The lookup, as one function of the two argument arrays.

  The table has 50000 rows of 128 entries. An index array of shape [16384, 50] picks, for every
  position, one row: the table's row when the index (read as an unsigned number) is below 50000,
  and a row of zeros otherwise. Reading the index as unsigned makes "nonnegative and below 50000"
  (the signed comparison pair) a single comparison: a 32-bit word whose unsigned value is below
  50000 has its top bit clear, so its signed value is the same number.
-/
import Idealize.ShloMosaic.PureOps
import Idealize.ShloMosaic.Lib.ValueIdx

noncomputable section

namespace Cert.Spec

open Idealize.ShloMosaic Idealize.ShloMosaic.ValueIdx

abbrev SIn : Shape := ⟨2, ![16384, 50]⟩
abbrev STab : Shape := ⟨2, ![50000, 128]⟩
abbrev SOut : Shape := ⟨3, ![16384, 50, 128]⟩

variable {F : FTy → Type} [FloatOps F]

/-- Row `r` of the table, continued by rows of zeros past its last row. -/
def rowAt (w : FVec F STab .f32) (r : Nat) (d : Fin 128) : F .f32 :=
  if h : r < 50000 then w (ix2 (n0 := 50000) (n1 := 128) ⟨r, h⟩ d) else FloatOps.ofBits .f32 0x00000000#32

theorem rowAt_lt (w : FVec F STab .f32) {r : Nat} (h : r < 50000) (d : Fin 128) :
    rowAt w r d = w (ix2 (n0 := 50000) (n1 := 128) ⟨r, h⟩ d) := dif_pos h

theorem rowAt_ge (w : FVec F STab .f32) {r : Nat} (h : 50000 ≤ r) (d : Fin 128) :
    rowAt w r d = FloatOps.ofBits .f32 0x00000000#32 := dif_neg (Nat.not_lt.mpr h)

/-- The lookup: position `(a, b)` of the result holds the row the index at `(a, b)` names. -/
def lookup (idx : IVec SIn 32) (w : FVec F STab .f32) : FVec F SOut .f32 :=
  fun j => rowAt w (idx (ix2 (n0 := 16384) (n1 := 50) (j 0) (j 1))).toNat (j 2)

/-- The same lookup after every index has been capped at 50000 (signed minimum): what a program
    computes that first caps the indices and then reads row `min(index, 50000)` of the table
    continued by zero rows. -/
def lookupCapped (idx : IVec SIn 32) (w : FVec F STab .f32) : FVec F SOut .f32 :=
  fun j => rowAt w (IntOp.minsi (idx (ix2 (n0 := 16384) (n1 := 50) (j 0) (j 1))) 50000#32).toNat (j 2)

/-- Capping changes nothing for a nonnegative index: below 50000 the cap leaves it, and from 50000
    on both the index and the cap name a row of zeros. -/
theorem lookupCapped_eq (idx : IVec SIn 32) (w : FVec F STab .f32)
    (hnn : ∀ i, (idx i).toNat < 2 ^ 31) : lookupCapped idx w = lookup idx w := by
  funext j
  unfold lookupCapped lookup
  have hx := hnn (ix2 (n0 := 16384) (n1 := 50) (j 0) (j 1))
  generalize idx (ix2 (n0 := 16384) (n1 := 50) (j 0) (j 1)) = x at hx ⊢
  unfold IntOp.minsi
  by_cases h : x.slt 50000#32 = true
  · rw [if_pos h]
  · rw [if_neg h]
    have h1 : (50000#32 : BitVec 32).toInt = 50000 := by decide
    have h2 : x.toInt = (x.toNat : Int) := by
      rw [BitVec.toInt_eq_toNat_cond, if_pos (by omega)]
    have hge : 50000 ≤ x.toNat := by
      simp only [BitVec.slt, decide_eq_true_eq, not_lt, h1, h2] at h
      omega
    exact (rowAt_ge w (show 50000 ≤ (50000#32 : BitVec 32).toNat by decide) _).trans (rowAt_ge w hge _).symm

end Cert.Spec

end
-- ==== Proof.KernelHand.Common.lean ====
/-
  Shared definitions for the kernel's proof (the program as printed, read at the word-level instance).

  The program: the index array [16384, 50] is re-laid as [6400, 128]; a first kernel, run on the
  32 vector subcores (2 cores of 16), caps every index at 50000, each subcore working on its own
  block of 200 consecutive rows — subcore `s` of core `c` on block `2 s + c`; the capped indices
  are re-laid as a flat array of 819200 words; a second kernel, a pipeline of 100 grid points on the
  main core, reads 8192 indices per point and copies, for each, row `index` of a 50008-row table
  held in a scratch buffer into the output block; the table is the weight array's 50000 rows
  followed by 8 rows of zeros, built at the first grid point and kept for the later ones; the
  output [819200, 128] is re-laid as [16384, 50, 128].

  Stated here: the program as the launch theorem reads it, the resource algebra (the launch
  handshakes' rounds, the pipeline cells' rounds, the local transfers' counters), each stage's value
  as a function of the two argument arrays, the row blocks, what the launch handshakes carry, and
  the pipeline's proof data.
-/
import proofs.«206731_g35192962023934_cont_8to1_b_663_28_alg».proof.Kernel
import proofs.«206731_g35192962023934_cont_8to1_b_663_28_alg».proof.Proof.Gen.Kernel
import proofs.«206731_g35192962023934_cont_8to1_b_663_28_alg».proof.Proof.Gen.Kernel.Skeleton
import proofs.«206731_g35192962023934_cont_8to1_b_663_28_alg».proof.Proof.Gen.Kernel.Launch
import proofs.«206731_g35192962023934_cont_8to1_b_663_28_alg».proof.Proof.Gen.Kernel.Points
import proofs.«206731_g35192962023934_cont_8to1_b_663_28_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch handshakes' rounds: the left factor. -/
abbrev EH : Emb UH (MT nD τ sig (HIx 1) (Elt F) ℕ UU ℕ) := embL
/-- The pipeline cells' rounds: the left factor of the right factor. The transfers' counters are found by instance. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory, the buffers and the stages' values -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

variable [FloatOps F]
open Facts₀ Facts

/-- The indices re-laid as [6400, 128]. -/
def val0 (d : Dev nD) : Buf (Elt F) (v0Loc d) :=
  shapeCast S6400x128 (m (a0Loc d) : S16384x50.Idx → BitVec 32) Facts₀.shapeCasts_S16384x50_S6400x128
/-- Every index capped at 50000 (signed minimum). -/
def val1 (d : Dev nD) : Buf (Elt F) (v1Loc d) :=
  fun j => IntOp.minsi (val0 m d j : BitVec 32) 50000#32
/-- The capped indices re-laid flat. -/
def val2 (d : Dev nD) : Buf (Elt F) (v2Loc d) :=
  shapeCast S819200 (val1 m d : S6400x128.Idx → BitVec 32) Facts₀.shapeCasts_S6400x128_S819200
/-- The table the second kernel keeps: the weight array's rows, then rows of zeros. -/
def tabV (d : Dev nD) : S50008x128.Idx → F .f32 :=
  fun j => Cert.Spec.rowAt (m (a1Loc d) : Cert.Spec.STab.Idx → F .f32) (j 0).val (j 1)
/-- Output row `n` is the table's row at the `n`-th capped index. -/
def val3 (d : Dev nD) : Buf (Elt F) (v3Loc d) :=
  fun j => Cert.Spec.rowAt (m (a1Loc d) : Cert.Spec.STab.Idx → F .f32) ((val2 m d : S819200.Idx → BitVec 32) (ValueIdx.ix1 (n := 819200) (j 0))).toNat (j 1)
/-- The output re-laid as [16384, 50, 128]. -/
def val4 (d : Dev nD) : Buf (Elt F) (v4Loc d) :=
  shapeCast S16384x50x128 (val3 m d : S819200x128.Idx → F .f32) Facts₀.shapeCasts_S819200x128_S16384x50x128

/-- What the proof asks of the launch memory: every index is nonnegative as a signed word. -/
def PreOK : Prop := ∀ (d : Dev nD) (i : S16384x50.Idx), ((m (a0Loc d) : S16384x50.Idx → BitVec 32) i).toNat < 2 ^ 31

/-! ## The 32 blocks of 200 rows -/

theorem hdiv32 : 32 ∣ S6400x128.size 0 := ⟨200, rfl⟩
abbrev blkRect (i : Fin 32) : Rect S6400x128 := Rect.part (s := S6400x128) (a₀ := 0) hdiv32 i
abbrev blkSet (i : Fin 32) : Finset S6400x128.Idx := (blkRect i).set
/-- Subcore `s` of core `c` works on block `2 s + c`. -/
def wid (c : Fin 2) (s : Fin 16) : Fin 32 := ⟨2 * s.val + c.val, by omega⟩

/-! ## What the launch handshakes carry -/

/-- A subcore's task: its block of the re-laid indices, at their values, and its block of the capped array, at any contents; -/
abbrev goRes (d : Dev nD) (i : Fin 32) : sProp 𝕄 :=
  iprop((v0Loc d ↦[blkSet i]{fullShare} (val0 m d)) ∗ ∃ f, v1Loc d ↦[blkSet i]{fullShare} f)
/-- and what it hands back: the capped block at the capped values. -/
abbrev tdRes (d : Dev nD) (i : Fin 32) : sProp 𝕄 :=
  iprop((v0Loc d ↦[blkSet i]{fullShare} (val0 m d)) ∗ (v1Loc d ↦[blkSet i]{fullShare} (val1 m d)))

def P : (K (F := F)).Pay (nD := nD) (Val := Elt F) (Name := ℕ) (U := UU) where
  st := fun q d c => match q with
    | 0 => bigSep Finset.univ fun s : Fin 16 => goRes m d (wid (Fin.cast nCore_zero c) s)
  dn := fun q d c => match q with
    | 0 => bigSep Finset.univ fun s : Fin 16 => tdRes m d (wid (Fin.cast nCore_zero c) s)
  go := fun q d c i => match q with
    | 0 => goRes m d (wid (Fin.cast nCore_zero c) (Fin.cast nSub_zero i))
  td := fun q d c i => match q with
    | 0 => tdRes m d (wid (Fin.cast nCore_zero c) (Fin.cast nSub_zero i))
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## A vector subcore's task, at symbolic grid coordinates -/

abbrev cV (L : grid0.Coords) : Fin τ.nSC := (L 0).castLE Facts₀.hcore0
abbrev jV (L : grid0.Coords) : Fin τ.nSub := (L 1).castLE Facts₀.hsub0
theorem bound_zero : grid0.bound 0 = 2 := rfl
theorem bound_one : grid0.bound 1 = 16 := rfl
/-- The block of the subcore at grid coordinates `L`. -/
abbrev widL (L : grid0.Coords) : Fin 32 := wid (Fin.cast bound_zero (L 0)) (Fin.cast bound_one (L 1))

/-- The first kernel's memrefs, as the body table passes them: the two arrays whole, and a subcore's scratch. -/
abbrev v0W : Memref sig .scVector .hbm S6400x128 .i32 := Memref.whole main_v0_scv
abbrev v1W : Memref sig .scVector .hbm S6400x128 .i32 := Memref.whole main_v1_scv
abbrev scrW : Memref sig .scVector .vmem S200x128 .i32 := Memref.whole cc0_scratch0

/-! ## The pipeline's proof data -/

/-- What the main core's arrays hold when the pipeline is entered: the three stages before it at their values,
    every other array as launched. -/
def Vr (d : Dev nD) : (b : Ref sig .tc) → Buf (Elt F) ((SparseCore.T d : Thread nD τ).loc b) :=
  Function.update (Function.update (Function.update (fun b => m ((SparseCore.T d : Thread nD τ).loc b)) main_v0 (val0 m d)) main_v1 (val1 m d)) main_v2 (val2 m d)

/-- Window `w`'s block at point `t`, read off its array as the pipeline finds it. -/
def iblk (d : Dev nD) (w : Fin cfg1.W) (t : Fin cfg1.N) : ((cfg1.win w).xblock (cfg1.grid.coords t)).Idx → Elt F (cfg1.win w).elt :=
  ((cfg1.win w).blk t).view.read (Elt F) (Vr m d (Pipeline.arrRef spec1 w))

/-- What point `t` leaves in the output's staging buffer: row `r` is the table's row at capped index `8192 t + r`. -/
def outBlk (d : Dev nD) (t : Fin cfg1.N) : S8192x128.Idx → F .f32 :=
  fun y => Cert.Spec.rowAt (m (a1Loc d) : Cert.Spec.STab.Idx → F .f32)
    ((val2 m d : S819200.Idx → BitVec 32) (ValueIdx.ix1 (n := 819200)
      ⟨8192 * t.val + (y 0).val, by
        have ht : t.val < 100 := lt_of_lt_of_eq t.isLt N_1
        have hy : (y 0).val < 8192 := (y 0).isLt
        omega⟩)).toNat (y 1)

/-- The scratch buffer holding the table, as the main core names it, and the kernel's own transfer semaphore. -/
abbrev scrLoc (d : Dev nD) : Loc nD τ sig := (SparseCore.T d).loc cc1_scratch0
abbrev tabSem (d : Dev nD) : GSem nD τ sig := (SparseCore.T d, SemLoc.dma cc1_scratch1.sem)

/-- The body's invariant before point `t`: the level facts (for the table transfer's wait), the weight array whole at its
    launch contents (the table transfer's source: no window stages it), the scratch buffer — at any contents before the
    first point, at the table from then on — and the kernel's own semaphore at zero. -/
def PhiT (d : Dev nD) (t : Fin (cfg1.N + 1)) : sProp 𝕄 :=
  iprop(levAts (K (F := F)).L (K (F := F)).lev
    ∗ (a1Loc d ↦{fullShare} m (a1Loc d))
    ∗ (if t.val = 0 then iprop(∃ f, scrLoc d ↦{fullShare} f) else (scrLoc d ↦{fullShare} (tabV m d)))
    ∗ semVal (tabSem d) 0)

/-- The pipeline's proof data on device `d`: the arrays as the pipeline finds them; after the body at point `t` the index
    window's buffer at its block, the output window's at `outBlk`; the table kept in the invariant; nothing owed; the pairs the main core's waits have recorded all
    at or below level 8 (where the first kernel's call left them: the pipeline's own waits sit at level 0). -/
def dat1 (d : Dev nD) : Dat τ (Elt F) (HIx 1) ℕ UU ℕ cfg1 d where
  A w := Vr m d (Pipeline.arrRef spec1 w)
  after w t := match w with
    | ⟨0, _⟩ => iblk m d 0 t
    | ⟨1, _⟩ => outBlk m d t
  Φ t := PhiT m d t
  q _ := fullShare
  owed _ := 0
  recorded _ := {p | (K (F := F)).lev (SparseCore.T d, p.1) p.2 ≤ 8}

theorem A_eq (d : Dev nD) (w : Fin cfg1.W) : (dat1 m d).A w = Vr m d (Pipeline.arrRef spec1 w) := by dsimp only [dat1]
theorem after1_0 (d : Dev nD) (t : Fin cfg1.N) : (dat1 m d).after 0 t = iblk m d 0 t := by dsimp only [dat1]
theorem after1_1 (d : Dev nD) (t : Fin cfg1.N) : (dat1 m d).after 1 t = outBlk m d t := by dsimp only [dat1]
theorem Phi_eq (d : Dev nD) (t : Fin (cfg1.N + 1)) : (dat1 m d).Φ t = PhiT m d t := by dsimp only [dat1]
theorem recorded_eq (d : Dev nD) (t : Fin (cfg1.N + 1)) :
    (dat1 m d).recorded t = {p | (K (F := F)).lev (SparseCore.T d, p.1) p.2 ≤ 8} := by dsimp only [dat1]
/-- A wait at index `none` sits at level 0: within every point's bound. -/
theorem none_mem_bound (d : Dev nD) (t : Fin (cfg1.N + 1)) (sm : SemLoc sig) : (sm, (none : HIx 1)) ∈ (dat1 m d).bound none t :=
  Or.inl (by rw [recorded_eq]; exact Nat.zero_le _)

/-- No pipeline has a prefetched table. -/
abbrev adm : (p : Fin 1) → (pcfgs (F := F) p).Adm := fun p => (cfgs p).toPCfg_adm
/-- The one pipeline's proof data, as a literal match on its index. -/
def pdats : (p : Fin 1) → (d : Dev nD) → Dat τ (Elt F) (HIx 1) ℕ UU ℕ (Pipeline.pin (pcfgs (F := F)) adm p) d
  | ⟨0, _⟩ => fun d => dat1 m d

end Cert.Kernel.Hand

end
-- ==== Proof.KernelHand.Final.lean ====
/-
  The pipeline's arrays at its exit. Point `t` writes back rows `8192 t … 8192 t + 8191` of the output, and what it
  writes is that block of `val3`: row `8192 t + r` is the table's row at the capped index number `8192 t + r`. The hundred
  blocks tile the array (row `i` lies in the block of point `i / 8192`), so the output array ends at `val3`; the index
  array, an input, ends as it was entered.
-/
import proofs.«206731_g35192962023934_cont_8to1_b_663_28_alg».proof.Proof.KernelHand.Common
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- The output window's index map, decided over the grid: point `t` is at block `(t, 0)`. -/
theorem idx_facts : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- What point `t` writes back is block `t` of `val3`. -/
theorem flushed_eq (d : Dev nD) (t : Fin cfg1.N) :
    (dat1 m d).flushed 1 t = ((cfg1.win 1).blk t).view.read (Elt F) (val3 m d) := by
  show (cfg1.win 1).cut (grid1.coords t) ((dat1 m d).after 1 t) = _
  rw [after1_1]
  obtain ⟨e0, e1⟩ := idx_facts t
  funext y
  show outBlk m d t y = val3 m d (((cfg1.win 1).blk t).view.emb y)
  have h0 : ((((cfg1.win 1).blk t).view.emb y) 0).val = 8192 * t.val + (y 0).val := by
    show win1_1.index t (0 : Fin 2) * 8192 + 1 * (y 0).val = 8192 * t.val + (y 0).val
    omega
  have h1 : (((cfg1.win 1).blk t).view.emb y) 1 = y 1 := by
    apply Fin.ext
    show win1_1.index t (1 : Fin 2) * 128 + 1 * (y 1).val = (y 1).val
    omega
  unfold outBlk val3
  rw [h1]
  congr 3
  exact congrArg _ (Fin.ext h0.symm)

/-- An index of the output array is in point `t`'s block iff each coordinate is in the block's range on its axis. -/
theorem mem_blk (t : Fin cfg1.N) (i : S819200x128.Idx) :
    i ∈ ((cfg1.win 1).blk t).view.set ↔ ∀ a : Fin 2, win1_1.index t a * S8192x128.size a ≤ (i a).val ∧ (i a).val < win1_1.index t a * S8192x128.size a + S8192x128.size a := by
  show i ∈ ((View.whole main_v3).slice (win1_1.rect t)).set ↔ _
  rw [View.set_slice_whole, Rect.mem_set_unit]
  exact Iff.rfl

/-- Every row of the output lies in some point's block. -/
theorem cover (i : S819200x128.Idx) : ∃ t : Fin cfg1.N, (cfg1.win 1).flush t = true ∧ i ∈ ((cfg1.win 1).blk t).view.set := by
  have hi0 : (i 0).val < 819200 := (i 0).isLt
  have hi1 : (i 1).val < 128 := (i 1).isLt
  have hN : cfg1.N = 100 := N_1
  refine ⟨⟨(i 0).val / 8192, by rw [hN]; omega⟩, flush1_1 _, ?_⟩
  rw [mem_blk]
  obtain ⟨e0, e1⟩ := idx_facts ⟨(i 0).val / 8192, by rw [hN]; omega⟩
  intro a
  match a with
  | ⟨0, _⟩ =>
    show win1_1.index _ (0 : Fin 2) * 8192 ≤ (i 0).val ∧ (i 0).val < win1_1.index _ (0 : Fin 2) * 8192 + 8192
    rw [e0]; dsimp only; omega
  | ⟨1, _⟩ =>
    show win1_1.index _ (1 : Fin 2) * 128 ≤ (i 1).val ∧ (i 1).val < win1_1.index _ (1 : Fin 2) * 128 + 128
    rw [e1]; omega

/-- The output array after the pipeline. -/
theorem final_out (d : Dev nD) : (dat1 m d).arrAt 1 cfg1.N = val3 m d :=
  (dat1 m d).arrAt_eq_of_cover 1 (val3 m d) (fun t _ => flushed_eq m d t) (cover)

/-- The index array after the pipeline: as entered. -/
theorem final_in (d : Dev nD) : (dat1 m d).arrAt 0 cfg1.N = Vr m d (Pipeline.arrRef spec1 0) :=
  ((dat1 m d).arrAt_in 0 rfl _).trans (A_eq m d 0)

end Cert.Kernel.Hand

end
-- ==== Proof.KernelHand.Vals.lean ====
/-
  The main core's buffers at each step of @main, as valuations: the launch memory; after the first re-laying; after
  the first kernel's call (the capped array at its values); after the second re-laying — what the pipeline is entered
  from —; at the pipeline's exit (its two arrays at what the proof data compute); after the last re-laying.
-/
import proofs.«206731_g35192962023934_cont_8to1_b_663_28_alg».proof.Proof.KernelHand.Final
import Idealize.ShloMosaic.Lib.Pipeline.Frame
import Idealize.ShloMosaic.Lib.Pipeline.FrameSuffix

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

abbrev op0 : HloOp τ sig (Elt F) := StableHlo.reshape main_arg0 main_v0 rfl Facts₀.shapeCasts_S16384x50_S6400x128
abbrev op2 : HloOp τ sig (Elt F) := StableHlo.reshape main_v1 main_v2 rfl Facts₀.shapeCasts_S6400x128_S819200
abbrev op4 : HloOp τ sig (Elt F) := StableHlo.reshape main_v3 main_v4 rfl Facts₀.shapeCasts_S819200x128_S16384x50x128

abbrev r0 : DevRef τ sig := Proc.devRef .tc (main_arg0 : Ref sig .tc)
abbrev r1 : DevRef τ sig := Proc.devRef .tc (main_arg1 : Ref sig .tc)
abbrev rv0 : DevRef τ sig := Proc.devRef .tc (main_v0 : Ref sig .tc)
abbrev rv1 : DevRef τ sig := Proc.devRef .tc (main_v1 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)

def W0 (d : Dev nD) : Valuation τ sig (Elt F) := fun b => m (d, b)
def W1 (d : Dev nD) : Valuation τ sig (Elt F) := (op0 (F := F)).result (W0 m d)
def W2 (d : Dev nD) : Valuation τ sig (Elt F) := Function.update (W1 m d) rv1 (val1 m d)
def W3 (d : Dev nD) : Valuation τ sig (Elt F) := (op2 (F := F)).result (W2 m d)
def W4 (d : Dev nD) : Valuation τ sig (Elt F) := Pipeline.withArrays spec1 d (W3 m d) fun w => (dat1 m d).arrAt w cfg1.N
def W5 (d : Dev nD) : Valuation τ sig (Elt F) := (op4 (F := F)).result (W4 m d)

theorem W1_v0 (d : Dev nD) : W1 m d rv0 = val0 m d := by
  unfold W1; rw [StableHlo.reshape_result]; rfl
theorem W1_of_ne (d : Dev nD) (b : DevRef τ sig) (hb : b ≠ rv0) : W1 m d b = W0 m d b :=
  (op0 (F := F)).result_of_not_mem (W0 m d) (fun h => hb (Finset.mem_singleton.mp h))
theorem W2_v1 (d : Dev nD) : W2 m d rv1 = val1 m d := Function.update_self _ _ _
theorem W2_of_ne (d : Dev nD) (b : DevRef τ sig) (hb : b ≠ rv1) : W2 m d b = W1 m d b := Function.update_of_ne hb _ _
theorem W3_v2 (d : Dev nD) : W3 m d rv2 = val2 m d := by
  unfold W3; rw [StableHlo.reshape_result, W2_v1]; rfl
theorem W3_of_ne (d : Dev nD) (b : DevRef τ sig) (hb : b ≠ rv2) : W3 m d b = W2 m d b :=
  (op2 (F := F)).result_of_not_mem (W2 m d) (fun h => hb (Finset.mem_singleton.mp h))

/-- The pipeline's entry contents, read at the main core's references, are `Vr`. -/
theorem W3_eq (d : Dev nD) (b : Ref sig .tc) : W3 m d (Proc.devRef .tc b) = Vr m d b := by
  unfold Vr
  by_cases h2 : b = main_v2
  · subst h2; rw [Function.update_self]; exact W3_v2 m d
  rw [Function.update_of_ne h2, W3_of_ne m d _ (fun e => h2 (Proc.devRef_injective _ e))]
  by_cases h1 : b = main_v1
  · subst h1; rw [Function.update_self]; exact W2_v1 m d
  rw [Function.update_of_ne h1, W2_of_ne m d _ (fun e => h1 (Proc.devRef_injective _ e))]
  by_cases h0 : b = main_v0
  · subst h0; rw [Function.update_self]; exact W1_v0 m d
  rw [Function.update_of_ne h0, W1_of_ne m d _ (fun e => h0 (Proc.devRef_injective _ e))]
  rfl

theorem W4_arr (d : Dev nD) (w : Fin cfg1.W) :
    W4 m d (Proc.devRef .tc (Pipeline.arrRef spec1 w)) = (dat1 m d).arrAt w cfg1.N := by
  unfold W4; exact Pipeline.withArrays_arr spec1 launch1.win.arr_inj d _ _ w
theorem W4_of_ne (d : Dev nD) (b : Ref sig .tc) (hb : ∀ w, Pipeline.arrRef spec1 w ≠ b) :
    W4 m d (Proc.devRef .tc b) = W3 m d (Proc.devRef .tc b) := by
  unfold W4; exact Pipeline.withArrays_of_ne spec1 d _ _ b hb

/-- The valuations read at the main core's references. -/
abbrev V3 (d : Dev nD) : (b : Ref sig .tc) → Buf (Elt F) ((d : Thread nD τ).loc b) := fun b => W3 m d (Proc.devRef .tc b)
abbrev V4 (d : Dev nD) : (b : Ref sig .tc) → Buf (Elt F) ((d : Thread nD τ).loc b) := fun b => W4 m d (Proc.devRef .tc b)

theorem V3_eq (d : Dev nD) : V3 m d = Vr m d := funext (W3_eq m d)

theorem hF (d : Dev nD) (w : Fin cfg1.W) : (dat1 m d).arrAt w cfg1.N = V4 m d (Pipeline.arrRef spec1 w) := (W4_arr m d w).symm
theorem hrest (d : Dev nD) : ∀ b, b ∉ Finset.univ.image (Pipeline.arrRef spec1) → V4 m d b = V3 m d b :=
  fun b hb => W4_of_ne m d b fun w e => hb (Finset.mem_image.mpr ⟨w, Finset.mem_univ _, e⟩)

/-- After the pipeline the output array holds `val3`; -/
theorem W4_v3 (d : Dev nD) : W4 m d rv3 = val3 m d := (W4_arr m d 1).trans (final_out m d)
/-- after the last re-laying the result array holds `val4`; -/
theorem W5_v4 (d : Dev nD) : W5 m d rv4 = val4 m d := by
  unfold W5; rw [StableHlo.reshape_result, W4_v3]; rfl
/-- and the two arguments are as launched: no step writes them. -/
theorem W5_arg (d : Dev nD) (b : Ref sig .tc) (h4 : b ≠ main_v4) (hw : ∀ w, Pipeline.arrRef spec1 w ≠ b) (h2 : b ≠ main_v2) (h1 : b ≠ main_v1) (h0 : b ≠ main_v0) :
    W5 m d (Proc.devRef .tc b) = m ((SparseCore.T d : Thread nD τ).loc b) := by
  unfold W5
  rw [(op4 (F := F)).result_of_not_mem (W4 m d) (fun h => h4 (Proc.devRef_injective _ (Finset.mem_singleton.mp h))),
    W4_of_ne m d b hw, W3_eq]
  unfold Vr
  rw [Function.update_of_ne h2, Function.update_of_ne h1, Function.update_of_ne h0]

end Cert.Kernel.Hand

end
-- ==== Proof.KernelHand.TcLoop.lean ====
/-
  The second kernel's counted loop, one trip at a symbolic trip number.

  A trip reads sixteen consecutive words of the index block; each word is at most 50000, so it names a row of the
  50008-row table; the trip loads that row and stores it at the matching row of the output block. What the loop
  maintains is stated by rows: before trip `k` the first `16 k` rows of the output block hold, each, the table's row at
  the word of the index block with the same position. One store extends the rows done by one (the stored row reads
  back, the rows below are untouched), and sixteen of them make the trip.

  The table and the index block enter as functions: `R r c` is entry `c` of table row `r`, `W n` is word `n` of the
  block.
-/
import proofs.«206731_g35192962023934_cont_8to1_b_663_28_alg».proof.Proof.KernelHand.Common
import Idealize.ShloMosaic.Lib.Exec
import Idealize.ShloMosaic.Lib.Tactic
import Idealize.ShloMosaic.Lib.Writes
import Idealize.ShloMosaic.Lib.Pipeline.FrameBody

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Facts₀ Facts

variable {F : FTy → Type} [FloatOps F]

local notation "𝕄" => MT nD τ sig (HIx 1) (Elt F) ℕ UU ℕ

/-! ## Words -/

/-- A nonnegative signed word capped at 50000 is at most 50000 as a number. -/
theorem minsi_toNat_le (x : BitVec 32) (h : x.toNat < 2 ^ 31) : (IntOp.minsi x 50000#32).toNat ≤ 50000 := by
  unfold IntOp.minsi
  split
  · rename_i hs
    have h1 : x.toInt < (50000#32 : BitVec 32).toInt := by simpa [BitVec.slt] using hs
    have h2 : x.toInt = x.toNat := by
      rw [BitVec.toInt_eq_toNat_cond]; simp; omega
    have h3 : (50000#32 : BitVec 32).toInt = 50000 := by decide
    omega
  · decide

/-- A word at most 50000 names a row of the 50008-row table. -/
theorem row_inb (w : BitVec 32) (h : w.toNat ≤ 50000) : ∀ a, (![(Scalar.indexCast w).toNat, 0] : Fin 2 → ℕ) a + S1x128.size a ≤ S50008x128.size a := by
  refine Fin.forall_fin_two.2 ⟨?_, ?_⟩
  · show (Scalar.indexCast w).toNat + 1 ≤ 50008
    unfold Scalar.indexCast; omega
  · show 0 + 128 ≤ 128
    omega

/-- The loop runs 512 trips. -/
theorem trips_eq : k1_t1_loop.trips = 512 := by decide

/-! ## The index block's words -/

section Words

variable (arg1 : Memref sig .tc .smem S8192 .i32) (harg1 : arg1.IsWhole) (x1 : Vec F S8192 .i32) (W : ℕ → BitVec 32)

/-- The word a trip reads at an offset of the index block: the one element of the one-word rectangle there. -/
abbrev wordAt (off : Fin 1 → Nat) (inb : ∀ a, off a + S1.size a ≤ S8192.size a) : BitVec 32 :=
  arg1.view.readAt (Elt F) (Rect.unit (s := S8192) off S1.size inb).toLoadRect (harg1.unread x1) (Shape.Idx.first (Facts₀.numel1_S1.symm ▸ Nat.one_pos))

/-- Reading one word at position `n` of a block whose `j`-th word is `W j` gives `W n`. -/
theorem wordAt_eq (hx1 : ∀ j : S8192.Idx, x1 j = W (j 0).val) (off : Fin 1 → Nat) (inb : ∀ a, off a + S1.size a ≤ S8192.size a)
    (n : ℕ) (hoff : off = ![n]) : wordAt (F := F) arg1 harg1 x1 off inb = W n := by
  subst hoff
  show arg1.view.readAt (Elt F) (Rect.unit (s := S8192) ![n] S1.size inb).toLoadRect (harg1.unread x1) _ = W n
  generalize Shape.Idx.first (Facts₀.numel1_S1.symm ▸ Nat.one_pos) = x
  rw [View.readAt_apply, harg1.read_unread, hx1]
  refine congrArg W ?_
  have hx : (x 0).val = 0 := by have : (x 0).val < 1 := (x 0).isLt; omega
  show n + 1 * (x 0).val = n
  rw [hx, Nat.mul_zero, Nat.add_zero]

end Words

/-! ## Rows of the output block -/

section Rows

variable (arg3 : Memref sig .tc .vmem S8192x128 .f32) (arg4 : Memref sig .tc .vmem S50008x128 .f32) (harg4 : arg4.IsWhole)
  (x4 : Vec F S50008x128 .f32) (R : ℕ → Fin 128 → F .f32) (W : ℕ → BitVec 32)

/-- Rows below `n` of the output block hold the table's rows at the block's words. -/
def RowsDone (n : ℕ) (g : BufTy.Contents (Elt F) arg3.view.ty) : Prop :=
  ∀ y : S8192x128.Idx, (y 0).val < n → arg3.view.read (Elt F) g y = R (W (y 0).val).toNat (y 1)

/-- Storing, at row `n`, the table's row at word `W n` extends the rows done by one: the stored row reads back the
    table's row, and the rows below are untouched. -/
theorem rowsDone_store (hx4 : ∀ j : S50008x128.Idx, x4 j = R (j 0).val (j 1)) (n : ℕ) (f : BufTy.Contents (Elt F) arg3.view.ty)
    (L : List (View.Piece (Elt F) S8192x128 .f32))
    (off : Fin 2 → ℕ) (inb : ∀ a, off a + S1x128.size a ≤ S8192x128.size a) (hoff : off = ![n, 0])
    (w : BitVec 32) (hw : w = W n)
    (offw : Fin 2 → ℕ) (inbw : ∀ a, offw a + S1x128.size a ≤ S50008x128.size a) (hoffw : offw = ![w.toNat, 0])
    (h : RowsDone (F := F) arg3 R W n (arg3.view.writes (Elt F) f L)) :
    RowsDone (F := F) arg3 R W (n + 1) (arg3.view.writes (Elt F) f (⟨Rect.unit (s := S8192x128) off S1x128.size inb,
      arg4.view.readAt (Elt F) (Rect.unit (s := S50008x128) offw S1x128.size inbw).toLoadRect (harg4.unread x4)⟩ :: L)) := by
  subst hoff hoffw hw
  intro y hy
  by_cases hyn : (y 0).val = n
  · have hmem : y ∈ (Rect.unit (s := S8192x128) ![n, 0] S1x128.size inb).set := by
      rw [Rect.mem_set_unit]
      refine Fin.forall_fin_two.2 ⟨?_, ?_⟩
      · show n ≤ (y 0).val ∧ (y 0).val < n + 1
        omega
      · show 0 ≤ (y 1).val ∧ (y 1).val < 0 + 128
        have : (y 1).val < 128 := (y 1).isLt
        exact ⟨Nat.zero_le _, by omega⟩
    obtain ⟨x, rfl⟩ := (Rect.unit (s := S8192x128) ![n, 0] S1x128.size inb).exists_idx_of_mem hmem
    rw [show (Rect.unit (s := S8192x128) ![n, 0] S1x128.size inb).toLoadRect.idx x = (Rect.unit (s := S8192x128) ![n, 0] S1x128.size inb).emb x from rfl,
      View.read_writes_cons_emb, View.readAt_apply, harg4.read_unread, hx4]
    have hx0 : (x 0).val = 0 := by have : (x 0).val < 1 := (x 0).isLt; omega
    refine congrArg₂ R ?_ ?_
    · show (W n).toNat + 1 * (x 0).val = (W (n + 1 * (x 0).val)).toNat
      rw [hx0, Nat.mul_zero, Nat.add_zero, Nat.add_zero]
    · exact Fin.ext (by show 0 + 1 * (x 1).val = 0 + 1 * (x 1).val; rfl)
  · have hlt : (y 0).val < n := by omega
    rw [View.writes_cons, View.read_slice_write_of_not_mem _ _ _ _ (by
      rw [Rect.map_emb_univ, Rect.mem_set_unit]; intro hh
      have h2 : n ≤ (y 0).val := (hh 0).1
      omega)]
    exact h y hlt

end Rows

/-! ## The loop -/

section Loop

variable (𝒱 : Variants) (c : Dev nD) (bd : Option 𝒱.V) (E : Set ℕ) (i : grid1.Coords)
  (arg1 : Memref sig .tc .smem S8192 .i32) (harg1 : arg1.IsWhole) (arg2 : Memref sig .tc .hbm S50000x128 .f32) (harg2 : arg2.IsWhole)
  (arg3 : Memref sig .tc .vmem S8192x128 .f32) (harg3 : arg3.IsWhole) (arg4 : Memref sig .tc .vmem S50008x128 .f32) (harg4 : arg4.IsWhole)
  (arg5 : DmaSems sig S_) (x1 : Vec F S8192 .i32) (x4 : Vec F S50008x128 .f32) (R : ℕ → Fin 128 → F .f32) (W : ℕ → BitVec 32)

/-- The loop's invariant before trip `k`: the index block and the table as they were, and the output block with its first
    `16 k` rows done. -/
def loopInv (k : ℕ) (_ : Unit) : sProp 𝕄 :=
  iprop((arg1.view.loc (c : Thread nD τ) ↦[arg1.view.set]{fullShare} harg1.unread x1)
    ∗ (arg4.view.loc (c : Thread nD τ) ↦[arg4.view.set]{fullShare} harg4.unread x4)
    ∗ ∃ f, (arg3.view.loc (c : Thread nD τ) ↦[arg3.view.set]{fullShare} f) ∗ ⌜RowsDone (F := F) arg3 R W (16 * k) f⌝)

/-- Each check the trip assumes of a word it read holds of a word at most 50000. -/
theorem chk_of_le (w : BitVec 32) (h : w.toNat ≤ 50000) : ∀ a, (![(Scalar.indexCast w).toNat, 0] : Fin 2 → ℕ) a + S1x128.size a ≤ S50008x128.size a :=
  row_inb w h

set_option maxHeartbeats 1000000 in
/-- ONE TRIP at a symbolic `k`: sixteen times a word of the index block is read, the table's row it names is loaded and
    stored at the next row of the output block. -/
theorem trip (hx1 : ∀ j : S8192.Idx, x1 j = W (j 0).val) (hle : ∀ n, (W n).toNat ≤ 50000)
    (hx4 : ∀ j : S50008x128.Idx, x4 j = R (j 0).val (j 1)) (k : Fin k1_t1_loop.trips) (acc : Unit) :
    loopInv (F := F) c arg1 harg1 arg3 arg4 harg4 x1 x4 R W k.val acc
      ⊢ wp (M := 𝕄) frame (wpE (defs₀ (F := F)) 𝒱 (c : Thread nD τ) bd) E (k1_t1_body (F := F) i arg1 harg1 arg2 harg2 arg3 harg3 arg4 harg4 arg5 k acc)
          (loopInv (F := F) c arg1 harg1 arg3 arg4 harg4 x1 x4 R W (k.val + 1)) := by
  have hk : k.val < 512 := Nat.lt_of_lt_of_le k.isLt k1_t1_abs.2.1
  have hc1 : k1_chk1 (wordAt (F := F) arg1 harg1 x1 (k1_off1 k) (Facts₀.k1_off1_inb k)) :=
    chk_of_le _ (by rw [wordAt_eq arg1 harg1 x1 W hx1 _ _ _ (Gen.k1_off1_eq k)]; exact hle _)
  have hc2 : k1_chk2 (wordAt (F := F) arg1 harg1 x1 (k1_off4 k) (Facts₀.k1_off4_inb k)) :=
    chk_of_le _ (by rw [wordAt_eq arg1 harg1 x1 W hx1 _ _ _ (Gen.k1_off4_eq k)]; exact hle _)
  have hc3 : k1_chk3 (wordAt (F := F) arg1 harg1 x1 (k1_off7 k) (Facts₀.k1_off7_inb k)) :=
    chk_of_le _ (by rw [wordAt_eq arg1 harg1 x1 W hx1 _ _ _ (Gen.k1_off7_eq k)]; exact hle _)
  have hc4 : k1_chk4 (wordAt (F := F) arg1 harg1 x1 (k1_off10 k) (Facts₀.k1_off10_inb k)) :=
    chk_of_le _ (by rw [wordAt_eq arg1 harg1 x1 W hx1 _ _ _ (Gen.k1_off10_eq k)]; exact hle _)
  have hc5 : k1_chk5 (wordAt (F := F) arg1 harg1 x1 (k1_off13 k) (Facts₀.k1_off13_inb k)) :=
    chk_of_le _ (by rw [wordAt_eq arg1 harg1 x1 W hx1 _ _ _ (Gen.k1_off13_eq k)]; exact hle _)
  have hc6 : k1_chk6 (wordAt (F := F) arg1 harg1 x1 (k1_off16 k) (Facts₀.k1_off16_inb k)) :=
    chk_of_le _ (by rw [wordAt_eq arg1 harg1 x1 W hx1 _ _ _ (Gen.k1_off16_eq k)]; exact hle _)
  have hc7 : k1_chk7 (wordAt (F := F) arg1 harg1 x1 (k1_off19 k) (Facts₀.k1_off19_inb k)) :=
    chk_of_le _ (by rw [wordAt_eq arg1 harg1 x1 W hx1 _ _ _ (Gen.k1_off19_eq k)]; exact hle _)
  have hc8 : k1_chk8 (wordAt (F := F) arg1 harg1 x1 (k1_off22 k) (Facts₀.k1_off22_inb k)) :=
    chk_of_le _ (by rw [wordAt_eq arg1 harg1 x1 W hx1 _ _ _ (Gen.k1_off22_eq k)]; exact hle _)
  have hc9 : k1_chk9 (wordAt (F := F) arg1 harg1 x1 (k1_off25 k) (Facts₀.k1_off25_inb k)) :=
    chk_of_le _ (by rw [wordAt_eq arg1 harg1 x1 W hx1 _ _ _ (Gen.k1_off25_eq k)]; exact hle _)
  have hc10 : k1_chk10 (wordAt (F := F) arg1 harg1 x1 (k1_off28 k) (Facts₀.k1_off28_inb k)) :=
    chk_of_le _ (by rw [wordAt_eq arg1 harg1 x1 W hx1 _ _ _ (Gen.k1_off28_eq k)]; exact hle _)
  have hc11 : k1_chk11 (wordAt (F := F) arg1 harg1 x1 (k1_off31 k) (Facts₀.k1_off31_inb k)) :=
    chk_of_le _ (by rw [wordAt_eq arg1 harg1 x1 W hx1 _ _ _ (Gen.k1_off31_eq k)]; exact hle _)
  have hc12 : k1_chk12 (wordAt (F := F) arg1 harg1 x1 (k1_off34 k) (Facts₀.k1_off34_inb k)) :=
    chk_of_le _ (by rw [wordAt_eq arg1 harg1 x1 W hx1 _ _ _ (Gen.k1_off34_eq k)]; exact hle _)
  have hc13 : k1_chk13 (wordAt (F := F) arg1 harg1 x1 (k1_off37 k) (Facts₀.k1_off37_inb k)) :=
    chk_of_le _ (by rw [wordAt_eq arg1 harg1 x1 W hx1 _ _ _ (Gen.k1_off37_eq k)]; exact hle _)
  have hc14 : k1_chk14 (wordAt (F := F) arg1 harg1 x1 (k1_off40 k) (Facts₀.k1_off40_inb k)) :=
    chk_of_le _ (by rw [wordAt_eq arg1 harg1 x1 W hx1 _ _ _ (Gen.k1_off40_eq k)]; exact hle _)
  have hc15 : k1_chk15 (wordAt (F := F) arg1 harg1 x1 (k1_off43 k) (Facts₀.k1_off43_inb k)) :=
    chk_of_le _ (by rw [wordAt_eq arg1 harg1 x1 W hx1 _ _ _ (Gen.k1_off43_eq k)]; exact hle _)
  have hc16 : k1_chk16 (wordAt (F := F) arg1 harg1 x1 (k1_off46 k) (Facts₀.k1_off46_inb k)) :=
    chk_of_le _ (by rw [wordAt_eq arg1 harg1 x1 W hx1 _ _ _ (Gen.k1_off46_eq k)]; exact hle _)
  unfold loopInv k1_t1_body
  iintro ⟨HR_arg1, HR_arg4, ⟨%f, HW_arg3, %hf⟩⟩
  have hf0 : RowsDone (F := F) arg3 R W (16 * k.val + 0) (arg3.view.writes (Elt F) f []) := hf
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16)
  sl_step
  isplitl [HR_arg1]; · iexact HR_arg1
  isplitl [HR_arg4]; · iexact HR_arg4
  iexists _; isplitl [HW_arg3]; · iexact HW_arg3
  ipureintro
  suffices hall : RowsDone (F := F) arg3 R W (16 * k.val + 15 + 1) _ from fun y hy => hall y (by omega)
  exact (rowsDone_store arg3 arg4 harg4 x4 R W hx4 (16 * k.val + 15) f _ _ _ (Gen.k1_off48_eq k) _
      (wordAt_eq arg1 harg1 x1 W hx1 _ (Facts₀.k1_off46_inb k) _ (Gen.k1_off46_eq k)) _ _ rfl
      (rowsDone_store arg3 arg4 harg4 x4 R W hx4 (16 * k.val + 14) f _ _ _ (Gen.k1_off45_eq k) _
      (wordAt_eq arg1 harg1 x1 W hx1 _ (Facts₀.k1_off43_inb k) _ (Gen.k1_off43_eq k)) _ _ rfl
      (rowsDone_store arg3 arg4 harg4 x4 R W hx4 (16 * k.val + 13) f _ _ _ (Gen.k1_off42_eq k) _
      (wordAt_eq arg1 harg1 x1 W hx1 _ (Facts₀.k1_off40_inb k) _ (Gen.k1_off40_eq k)) _ _ rfl
      (rowsDone_store arg3 arg4 harg4 x4 R W hx4 (16 * k.val + 12) f _ _ _ (Gen.k1_off39_eq k) _
      (wordAt_eq arg1 harg1 x1 W hx1 _ (Facts₀.k1_off37_inb k) _ (Gen.k1_off37_eq k)) _ _ rfl
      (rowsDone_store arg3 arg4 harg4 x4 R W hx4 (16 * k.val + 11) f _ _ _ (Gen.k1_off36_eq k) _
      (wordAt_eq arg1 harg1 x1 W hx1 _ (Facts₀.k1_off34_inb k) _ (Gen.k1_off34_eq k)) _ _ rfl
      (rowsDone_store arg3 arg4 harg4 x4 R W hx4 (16 * k.val + 10) f _ _ _ (Gen.k1_off33_eq k) _
      (wordAt_eq arg1 harg1 x1 W hx1 _ (Facts₀.k1_off31_inb k) _ (Gen.k1_off31_eq k)) _ _ rfl
      (rowsDone_store arg3 arg4 harg4 x4 R W hx4 (16 * k.val + 9) f _ _ _ (Gen.k1_off30_eq k) _
      (wordAt_eq arg1 harg1 x1 W hx1 _ (Facts₀.k1_off28_inb k) _ (Gen.k1_off28_eq k)) _ _ rfl
      (rowsDone_store arg3 arg4 harg4 x4 R W hx4 (16 * k.val + 8) f _ _ _ (Gen.k1_off27_eq k) _
      (wordAt_eq arg1 harg1 x1 W hx1 _ (Facts₀.k1_off25_inb k) _ (Gen.k1_off25_eq k)) _ _ rfl
      (rowsDone_store arg3 arg4 harg4 x4 R W hx4 (16 * k.val + 7) f _ _ _ (Gen.k1_off24_eq k) _
      (wordAt_eq arg1 harg1 x1 W hx1 _ (Facts₀.k1_off22_inb k) _ (Gen.k1_off22_eq k)) _ _ rfl
      (rowsDone_store arg3 arg4 harg4 x4 R W hx4 (16 * k.val + 6) f _ _ _ (Gen.k1_off21_eq k) _
      (wordAt_eq arg1 harg1 x1 W hx1 _ (Facts₀.k1_off19_inb k) _ (Gen.k1_off19_eq k)) _ _ rfl
      (rowsDone_store arg3 arg4 harg4 x4 R W hx4 (16 * k.val + 5) f _ _ _ (Gen.k1_off18_eq k) _
      (wordAt_eq arg1 harg1 x1 W hx1 _ (Facts₀.k1_off16_inb k) _ (Gen.k1_off16_eq k)) _ _ rfl
      (rowsDone_store arg3 arg4 harg4 x4 R W hx4 (16 * k.val + 4) f _ _ _ (Gen.k1_off15_eq k) _
      (wordAt_eq arg1 harg1 x1 W hx1 _ (Facts₀.k1_off13_inb k) _ (Gen.k1_off13_eq k)) _ _ rfl
      (rowsDone_store arg3 arg4 harg4 x4 R W hx4 (16 * k.val + 3) f _ _ _ (Gen.k1_off12_eq k) _
      (wordAt_eq arg1 harg1 x1 W hx1 _ (Facts₀.k1_off10_inb k) _ (Gen.k1_off10_eq k)) _ _ rfl
      (rowsDone_store arg3 arg4 harg4 x4 R W hx4 (16 * k.val + 2) f _ _ _ (Gen.k1_off9_eq k) _
      (wordAt_eq arg1 harg1 x1 W hx1 _ (Facts₀.k1_off7_inb k) _ (Gen.k1_off7_eq k)) _ _ rfl
      (rowsDone_store arg3 arg4 harg4 x4 R W hx4 (16 * k.val + 1) f _ _ _ (Gen.k1_off6_eq k) _
      (wordAt_eq arg1 harg1 x1 W hx1 _ (Facts₀.k1_off4_inb k) _ (Gen.k1_off4_eq k)) _ _ rfl
      (rowsDone_store arg3 arg4 harg4 x4 R W hx4 (16 * k.val + 0) f _ _ _ (Gen.k1_off3_eq k) _
      (wordAt_eq arg1 harg1 x1 W hx1 _ (Facts₀.k1_off1_inb k) _ (Gen.k1_off1_eq k)) _ _ rfl
      hf0))))))))))))))))

end Loop

end Cert.Kernel.Hand
end
-- ==== Proof.KernelHand.TcBody.lean ====
/-
  The second kernel's body at a generic grid point, and the pipeline's body obligation.

  At the first point the body builds the table in its scratch buffer: the weight array's 50000 rows are copied into
  rows [0, 50000) and eight rows of zeros are stored at rows [50000, 50008); the two parts are disjoint and together
  are the whole buffer, so after the copy has landed the buffer reads, index by index, as the table (row `r` is the
  weight row below 50000 and zeros from there on). At every later point the table is what the first point left. Then,
  at every point, the loop gathers: row `r` of the output block becomes the table's row at word `r` of the index
  block, and word `r` of the block at point `t` is capped index `8192 t + r` of the flat array, at most 50000 because
  the launch indices are nonnegative.
-/
import proofs.«206731_g35192962023934_cont_8to1_b_663_28_alg».proof.Proof.KernelHand.Common
import proofs.«206731_g35192962023934_cont_8to1_b_663_28_alg».proof.Proof.KernelHand.TcLoop
import Idealize.ShloMosaic.Lib.Exec
import Idealize.ShloMosaic.Lib.Pipeline.Value
import Idealize.ShloMosaic.Lib.Pipeline.FrameBody
import Idealize.ShloMosaic.Lib.Memref
import Idealize.ShloMosaic.Lib.Tactic
import Idealize.ShloMosaic.Lib.Writes
import Idealize.ShloMosaic.Lib.Pipeline.FrameBody

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Facts₀ Facts

variable {F : FTy → Type} [FloatOps F]

local notation "𝕄" => MT nD τ sig (HIx 1) (Elt F) ℕ UU ℕ

variable (m : (ℓ : Loc nD τ sig) → Buf (Elt F) ℓ)

/-! ## Which case a point is in -/

/-- The body's branch condition, from the grid coordinate. -/
abbrev cond1 (i : grid1.Coords) : Prop :=
  (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val = 0 :=
  (by decide +kernel : ∀ t : Fin grid1.N, cond1 (grid1.coords t) ↔ t.val = 0)

/-! ## The later points: the loop alone -/

section Later

variable (c : Dev nD) (E : Set ℕ) (i : grid1.Coords)
  (arg1 : Memref sig .tc .smem S8192 .i32) (harg1 : arg1.IsWhole) (arg2 : Memref sig .tc .hbm S50000x128 .f32) (harg2 : arg2.IsWhole)
  (arg3 : Memref sig .tc .vmem S8192x128 .f32) (harg3 : arg3.IsWhole) (arg4 : Memref sig .tc .vmem S50008x128 .f32) (harg4 : arg4.IsWhole)
  (arg5 : DmaSems sig S_) (x1 : Vec F S8192 .i32) (x4 : Vec F S50008x128 .f32) (R : ℕ → Fin 128 → F .f32) (W : ℕ → BitVec 32)

set_option maxHeartbeats 1000000 in
/-- The body at a point that is not the first, on any staging memrefs: the branch is not taken, the loop gathers the
    rows, and the index block and the table come back as they were. -/
theorem run_later (hc : ¬ cond1 i) (hx1 : ∀ j : S8192.Idx, x1 j = W (j 0).val) (hle : ∀ n, (W n).toNat ≤ 50000)
    (hx4 : ∀ j : S50008x128.Idx, x4 j = R (j 0).val (j 1)) (K : PUnit → sProp 𝕄) :
    iprop(owns (c : Thread nD τ) arg1 fullShare x1 ∗ owns (c : Thread nD τ) arg4 fullShare x4 ∗ (∃ e, owns (c : Thread nD τ) arg3 fullShare e)
        ∗ (iprop(owns (c : Thread nD τ) arg1 fullShare x1 ∗ owns (c : Thread nD τ) arg4 fullShare x4
            ∗ owns (c : Thread nD τ) arg3 fullShare (fun y : S8192x128.Idx => R (W (y 0).val).toNat (y 1))) -∗ K ⟨⟩))
      ⊢ wp (M := 𝕄) frame (wpE (defs₀ (F := F)) Variants.none (c : Thread nD τ) none) E (cc1__tc_body i arg1 harg1 arg2 harg2 arg3 harg3 arg4 harg4 arg5) K := by
  simp only [cc1__tc_body_eq_skeleton]; unfold cc1__tc_body_skel
  unfold owns
  iintro ⟨⟨%f1, %hf1, H1⟩, ⟨%f4, %hf4, H4⟩, ⟨%e3, %f3, -, H3⟩, Hk⟩
  obtain rfl := harg1.eq_unread hf1; obtain rfl := harg4.eq_unread hf4
  sl_exec (disch := first | sl_exact hc)
  sl_for (loopInv (F := F) c arg1 harg1 arg3 arg4 harg4 x1 x4 R W) $$ [H1 H4 H3]
  case region =>
    intro k acc
    exact trip Variants.none c none E i arg1 harg1 arg2 harg2 arg3 harg3 arg4 harg4 arg5 x1 x4 R W hx1 hle hx4 k acc
  · unfold loopInv
    isplitl [H1]; · iexact H1
    isplitl [H4]; · iexact H4
    iexists _; isplitl [H3]; · iexact H3
    ipureintro; intro y hy; exact absurd hy (by omega)
  iintro %acc HI
  unfold loopInv
  icases HI with ⟨H1, H4, %f, H3, %hf⟩
  sl_exec
  sl_step
  iapply Hk
  isplitl [H1]
  · iexists _; isplitr; · ipureintro; exact harg1.read_unread _
    iexact H1
  isplitl [H4]
  · iexists _; isplitr; · ipureintro; exact harg4.read_unread _
    iexact H4
  iexists _; isplitr; swap; · iexact H3
  ipureintro
  funext y
  have ht : Scf.trips k1_t1_loop.lb k1_t1_loop.ub k1_t1_loop.st = 512 := trips_eq
  exact hf y (by rw [ht]; have : (y 0).val < 8192 := (y 0).isLt; omega)

end Later

/-! ## The table the first point builds -/

section Table

variable (c : Dev nD) (arg4 : Memref sig .tc .vmem S50008x128 .f32) (harg4 : arg4.IsWhole) (R : ℕ → Fin 128 → F .f32)

/-- The table as one function of its index: row `r`, column `c` holds `R r c`. -/
abbrev tab : Vec F S50008x128 .f32 := fun j : S50008x128.Idx => R (j 0).val (j 1)

/-- The rows copied from the weight array and the eight rows of zeros stored after them read back, together, as the table. -/
theorem table_read (f : BufTy.Contents (Elt F) arg4.view.ty)
    (inb8 : ∀ a, (![50000, 0] : Fin 2 → ℕ) a + S8x128.size a ≤ S50008x128.size a)
    (w8 : (Rect.unit (s := S50008x128) ![50000, 0] S8x128.size inb8).shape.Idx → F .f32)
    (inb0 : ∀ a, (![0, 0] : Fin 2 → ℕ) a + S50000x128.size a ≤ S50008x128.size a)
    (w0 : (Rect.unit (s := S50008x128) ![0, 0] S50000x128.size inb0).shape.Idx → F .f32)
    (h8 : ∀ x, w8 x = R (50000 + (x 0).val) (x 1)) (h0 : ∀ x, w0 x = R (x 0).val (x 1)) :
    arg4.view.read (Elt F) (arg4.view.writes (Elt F) f
      [⟨Rect.unit (s := S50008x128) ![50000, 0] S8x128.size inb8, w8⟩, ⟨Rect.unit (s := S50008x128) ![0, 0] S50000x128.size inb0, w0⟩])
      = tab (F := F) R := by
  funext j
  refine View.read_writes_apply_of_pieces arg4.view f (tab (F := F) R) _ ?hG j ?hc
  case hG =>
    intro p hp x
    simp only [List.mem_cons, List.not_mem_nil, or_false] at hp
    rcases hp with rfl | rfl
    · show w8 x = tab (F := F) R ((Rect.unit (s := S50008x128) ![50000, 0] S8x128.size inb8).emb x)
      rw [h8]
      refine congrArg₂ R ?_ (Fin.ext ?_)
      · show 50000 + (x 0).val = 50000 + 1 * (x 0).val
        omega
      · show (x 1).val = 0 + 1 * (x 1).val
        omega
    · show w0 x = tab (F := F) R ((Rect.unit (s := S50008x128) ![0, 0] S50000x128.size inb0).emb x)
      rw [h0]
      refine congrArg₂ R ?_ (Fin.ext ?_)
      · show (x 0).val = 0 + 1 * (x 0).val
        omega
      · show (x 1).val = 0 + 1 * (x 1).val
        omega
  case hc =>
    have h0' : (j 0).val < 50008 := (j 0).isLt
    have h1' : (j 1).val < 128 := (j 1).isLt
    by_cases h : (j 0).val < 50000
    · refine ⟨_, List.mem_cons_of_mem _ (List.mem_cons_self ..), ?_⟩
      rw [Rect.mem_set_unit]
      refine Fin.forall_fin_two.2 ⟨?_, ?_⟩
      · show 0 ≤ (j 0).val ∧ (j 0).val < 0 + 50000
        omega
      · show 0 ≤ (j 1).val ∧ (j 1).val < 0 + 128
        omega
    · refine ⟨_, List.mem_cons_self .., ?_⟩
      rw [Rect.mem_set_unit]
      refine Fin.forall_fin_two.2 ⟨?_, ?_⟩
      · show 50000 ≤ (j 0).val ∧ (j 0).val < 50000 + 8
        omega
      · show 0 ≤ (j 1).val ∧ (j 1).val < 0 + 128
        omega

/-- A whole buffer held at contents that read as `X` is held at `X`. -/
theorem reown {q : PosShare TreeShare} (g : BufTy.Contents (Elt F) arg4.view.ty) (X : Vec F S50008x128 .f32) (h : arg4.view.read (Elt F) g = X) :
    (arg4.view.loc (c : Thread nD τ) ↦[arg4.view.set]{q} g : sProp 𝕄) ⊢ (arg4.view.loc (c : Thread nD τ) ↦[arg4.view.set]{q} harg4.unread X) := by
  rw [harg4.eq_unread h]

/-- The zeros stored after the copied rows. -/
theorem pay1_apply (hR0 : ∀ r, 50000 ≤ r → ∀ c, R r c = Scalar.ofBits .f32 0x00000000#32) (x : S8x128.Idx) :
    k1_pay1 (F := F) x = R (50000 + (x 0).val) (x 1) := by
  show shapeCast S8x128 (broadcast S8x128 (Scalar.ofBits .f32 0x00000000#32 : F .f32)) Facts₀.shapeCasts_S8x128_S8x128 x = _
  rw [shapeCast_self]
  exact (hR0 _ (by omega) _).symm

end Table

section First

variable (c : Dev nD) (i : grid1.Coords)
  (arg1 : Memref sig .tc .smem S8192 .i32) (harg1 : arg1.IsWhole) (arg2 : Memref sig .tc .hbm S50000x128 .f32) (harg2 : arg2.IsWhole)
  (arg3 : Memref sig .tc .vmem S8192x128 .f32) (harg3 : arg3.IsWhole) (arg4 : Memref sig .tc .vmem S50008x128 .f32) (harg4 : arg4.IsWhole)
  (arg5 : DmaSems sig S_) (x1 : Vec F S8192 .i32) (x2 : Vec F S50000x128 .f32) (R : ℕ → Fin 128 → F .f32) (W : ℕ → BitVec 32)

set_option maxHeartbeats 1000000 in
set_option sl_exec.dmaWindow true in
set_option sl_exec.dmaWindowSet true in
set_option sl_exec.dmaWindowLent true in
/-- The body at the first point, on any staging memrefs: the weight rows are copied into the table's first 50000 rows
    while the eight rows after them are zeroed (the copy takes only its own rows of the buffer, the store the rest); after
    the copy has landed the buffer is whole again and reads as the table; then the loop gathers the rows. The copy's
    wait is recorded at the kernel's own semaphore. -/
theorem run_first (hc : cond1 i) (hx1 : ∀ j : S8192.Idx, x1 j = W (j 0).val) (hle : ∀ n, (W n).toNat ≤ 50000)
    (hR2 : ∀ j : S50000x128.Idx, x2 j = R (j 0).val (j 1)) (hR0 : ∀ r, 50000 ≤ r → ∀ c, R r c = Scalar.ofBits .f32 0x00000000#32)
    (Wt : Waits sig (HIx 1)) (K : PUnit → sProp 𝕄) :
    iprop(owns (c : Thread nD τ) arg1 fullShare x1 ∗ owns (c : Thread nD τ) arg2 fullShare x2 ∗ (∃ e, owns (c : Thread nD τ) arg4 fullShare e) ∗ (∃ e, owns (c : Thread nD τ) arg3 fullShare e)
        ∗ semVal ((c : Thread nD τ), SemLoc.dma arg5.sem) 0 ∗ owes (c : Thread nD τ) (0 : CellTallies nD τ sig (HIx 1)) Wt
        ∗ (iprop(owns (c : Thread nD τ) arg1 fullShare x1 ∗ owns (c : Thread nD τ) arg2 fullShare x2 ∗ owns (c : Thread nD τ) arg4 fullShare (tab (F := F) R)
            ∗ owns (c : Thread nD τ) arg3 fullShare (fun y : S8192x128.Idx => R (W (y 0).val).toNat (y 1))
            ∗ semVal ((c : Thread nD τ), SemLoc.dma arg5.sem) 0
            ∗ owes (c : Thread nD τ) (0 : CellTallies nD τ sig (HIx 1)) (insert (SemLoc.dma arg5.sem, (none : HIx 1)) Wt)) -∗ K ⟨⟩))
      ⊢ wp (M := 𝕄) frame (wpE (defs₀ (F := F)) Variants.none (c : Thread nD τ) none) Set.univ (cc1__tc_body i arg1 harg1 arg2 harg2 arg3 harg3 arg4 harg4 arg5) K := by
  simp only [cc1__tc_body_eq_skeleton]; unfold cc1__tc_body_skel
  unfold owns
  iintro ⟨⟨%f1, %hf1, H1⟩, ⟨%f2, %hf2, H2⟩, ⟨%e4, %f4, -, H4⟩, ⟨%e3, %f3, -, H3⟩, Hsem, HO, Hk⟩
  obtain rfl := harg1.eq_unread hf1; obtain rfl := harg2.eq_unread hf2
  sl_exec (disch := first | sl_exact hc)
  ihave H4' := (reown c arg4 harg4 _ (tab (F := F) R) ?hread) $$ H4
  case hread =>
    exact table_read arg4 R _ _ _ _ _ (pay1_apply R hR0) (fun x => (congrFun (harg2.read_unread x2) x).trans (hR2 x))
  sl_for (loopInv (F := F) c arg1 harg1 arg3 arg4 harg4 x1 (tab (F := F) R) R W) $$ [H1 H4' H3]
  case region =>
    intro k acc
    exact trip Variants.none c none Set.univ i arg1 harg1 arg2 harg2 arg3 harg3 arg4 harg4 arg5 x1 (tab (F := F) R) R W hx1 hle (fun _ => rfl) k acc
  · unfold loopInv
    isplitl [H1]; · iexact H1
    isplitl [H4']; · iexact H4'
    iexists _; isplitl [H3]; · iexact H3
    ipureintro; intro y hy; exact absurd hy (by omega)
  iintro %acc HI
  unfold loopInv
  icases HI with ⟨H1, H4, %f, H3, %hf⟩
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H3]
  · iexists _; isplitr; swap; · iexact H3
    ipureintro
    funext y
    have ht : Scf.trips k1_t1_loop.lb k1_t1_loop.ub k1_t1_loop.st = 512 := trips_eq
    exact hf y (by rw [ht]; have : (y 0).val < 8192 := (y 0).isLt; omega)
  isplitl [Hsem]; · iexact Hsem
  iexact HO

end First

/-! ## The values at a point -/

/-- Every capped index is at most 50000, the launch indices being nonnegative. -/
theorem val2_le (hpre : PreOK m) (d : Dev nD) (i : S819200.Idx) : ((val2 m d : S819200.Idx → BitVec 32) i).toNat ≤ 50000 := by
  unfold val2 val1 val0 shapeCast
  exact minsi_toNat_le _ (hpre d _)

/-- The index window's block at point `t` is block `t` of the flat array — decided over the grid. -/
theorem index1_0 : ∀ t : Fin cfg1.N, win1_0.index t (0 : Fin 1) = t.val :=
  (by decide +kernel : ∀ t : Fin grid1.N, win1_0.index t (0 : Fin 1) = t.val)

theorem Vr_v2 (d : Dev nD) : Vr m d main_v2 = val2 m d := by
  unfold Vr; exact Function.update_self _ _ _

/-- The words of the index window's block at point `t`, by position: word `n` is capped index `8192 t + n`. -/
def wordsAt (d : Dev nD) (t : Fin cfg1.N) (n : ℕ) : BitVec 32 :=
  if h : 8192 * t.val + n < 819200 then (val2 m d : S819200.Idx → BitVec 32) (ValueIdx.ix1 (n := 819200) ⟨8192 * t.val + n, h⟩) else 0#32

theorem iblk0_apply (d : Dev nD) (t : Fin cfg1.N) (j : S8192.Idx) :
    (iblk m d 0 t : S8192.Idx → BitVec 32) j = wordsAt m d t (j 0).val := by
  have ht : t.val < 100 := lt_of_lt_of_eq t.isLt N_1
  have hj : (j 0).val < 8192 := (j 0).isLt
  unfold wordsAt
  rw [dif_pos (by omega)]
  unfold iblk
  show Vr m d main_v2 (((cfg1.win 0).blk t).view.emb j) = _
  rw [Vr_v2]
  refine congrArg (val2 m d) (funext fun a => Fin.ext ?_)
  match a with
  | ⟨0, _⟩ =>
    show win1_0.index t 0 * 8192 + 1 * (j 0).val = 8192 * t.val + (j 0).val
    rw [index1_0 t]; omega

/-! ## The body at a generic point -/

section Point

/-- Row `r` of the table as a function of the weight array: its row below 50000, zeros from there on. -/
abbrev rowOf (d : Dev nD) : ℕ → Fin 128 → F .f32 :=
  fun r c => Cert.Spec.rowAt (m (a1Loc d) : Cert.Spec.STab.Idx → F .f32) r c

theorem rowOf_weights (d : Dev nD) (j : S50000x128.Idx) :
    (m (a1Loc d) : S50000x128.Idx → F .f32) j = rowOf m d (j 0).val (j 1) :=
  (congrArg (m (a1Loc d) : S50000x128.Idx → F .f32) (ValueIdx.eq_ix2 j)).trans
    (Cert.Spec.rowAt_lt (m (a1Loc d) : Cert.Spec.STab.Idx → F .f32) (show (j 0).val < 50000 from (j 0).isLt) (j 1)).symm

theorem rowOf_zero (d : Dev nD) (r : ℕ) (h : 50000 ≤ r) (c : Fin 128) : rowOf m d r c = Scalar.ofBits .f32 0x00000000#32 :=
  Cert.Spec.rowAt_ge _ h c

theorem tabV_eq (d : Dev nD) : tabV m d = tab (F := F) (rowOf m d) := rfl

theorem wordsAt_le (hpre : PreOK m) (d : Dev nD) (t : Fin cfg1.N) (n : ℕ) : (wordsAt m d t n).toNat ≤ 50000 := by
  unfold wordsAt
  split
  · exact val2_le m hpre d _
  · decide

/-- What the point leaves in the output block, over the block's words. -/
theorem outBlk_eq (d : Dev nD) (t : Fin cfg1.N) :
    outBlk m d t = fun y : S8192x128.Idx => rowOf m d (wordsAt m d t (y 0).val).toNat (y 1) := by
  funext y
  have ht : t.val < 100 := lt_of_lt_of_eq t.isLt N_1
  have hy : (y 0).val < 8192 := (y 0).isLt
  unfold outBlk rowOf wordsAt
  rw [dif_pos (show 8192 * t.val + (y 0).val < 819200 by omega)]

/-- The index window's current staging buffer holds its block at every point, fetched there or not. -/
theorem before1_0 (d : Dev nD) (t : Fin cfg1.N) (e) : (dat1 m d).before 0 t e = iblk m d 0 t :=
  ((dat1 m d).before_in_eq_fetched 0 rfl (fun _ => rfl) (fun _ _ _ => rfl)
    (fun t => by rw [after1_0]; unfold Dat.blockOf iblk; rw [A_eq]; try rfl) t e).trans
    (by unfold Dat.fetched Dat.blockOf iblk; rw [A_eq]; try rfl)

/-- What the body is called with at point `t`, the windows one by one, -/
def bodyPre (d : Dev nD) (t : Fin cfg1.N) : sProp 𝕄 :=
  iprop((dat1 m d).Φ t.castSucc ∗ (dat1 m d).owesAt none t.castSucc
    ∗ (∃ e, owns (d : Thread nD τ) (st1_0 t) fullShare ((dat1 m d).before 0 t e))
    ∗ (∃ e, owns (d : Thread nD τ) (st1_1 t) fullShare ((dat1 m d).before 1 t e)))

/-- and what it returns. -/
def bodyPost (d : Dev nD) (t : Fin cfg1.N) : sProp 𝕄 :=
  iprop((dat1 m d).Φ t.succ ∗ (dat1 m d).owesAt none t.succ
    ∗ owns (d : Thread nD τ) (st1_0 t) fullShare ((dat1 m d).after 0 t)
    ∗ owns (d : Thread nD τ) (st1_1 t) fullShare ((dat1 m d).after 1 t))

set_option maxHeartbeats 1600000 in
/-- The body at any point. At the first point the table is built — the weight rows copied in, the eight rows after them
    zeroed — before the rows are gathered; at every later point the table is the one the first point left. -/
theorem sound_body (hpre : PreOK m) (d : Dev nD) (t : Fin cfg1.N) :
    bodyPre m d t ⊢ wp frame (wpE (defs₀ (F := F)) Variants.none (d : Thread nD τ) none) Set.univ (bodyAt1 t) (fun _ => bodyPost m d t) := by
  unfold bodyPre bodyPost bodyAt1
  simp only [before1_0]
  rw [after1_0, after1_1, outBlk_eq, Phi_eq, Phi_eq]
  unfold PhiT
  by_cases h0 : t.val = 0
  · rw [if_pos (show t.castSucc.val = 0 from h0), if_neg (show t.succ.val ≠ 0 from Nat.succ_ne_zero _), tabV_eq]
    iintro ⟨⟨Hlv, Ha1, ⟨%f, Hscr⟩, Hsem⟩, ⟨%Wt, %hWt, HO⟩, ⟨%e0, H0⟩, ⟨%e1, H1⟩⟩
    iapply (run_first d (grid1.coords t) _ _ (Memref.whole main_arg1) (Memref.isWhole_whole _) _ _ (Memref.whole cc1_scratch0) (Memref.isWhole_whole _)
      cc1_scratch1 (iblk m d 0 t) (m (a1Loc d)) (rowOf m d) (wordsAt m d t) ((hcond1 t).mpr h0) (iblk0_apply m d t) (wordsAt_le m hpre d t)
      (rowOf_weights m d) (rowOf_zero m d) Wt _)
    isplitl [H0]; · iexact H0
    isplitl [Ha1]
    · iapply (Entails.of_eq (owns_whole (d : Thread nD τ) main_arg1 fullShare _).symm); iexact Ha1
    isplitl [Hscr]
    · iexists f; iapply (Entails.of_eq (owns_whole (d : Thread nD τ) cc1_scratch0 fullShare _).symm); iexact Hscr
    isplitl [H1]; · iexists _; iexact H1
    isplitl [Hsem]; · iexact Hsem
    isplitl [HO]; · iexact HO
    iintro ⟨H0, Ha1, Hscr, H1, Hsem, HO⟩
    isplitl [Hlv Ha1 Hscr Hsem]
    · isplitl [Hlv]; · iexact Hlv
      isplitl [Ha1]
      · iapply (Entails.of_eq (owns_whole (d : Thread nD τ) main_arg1 fullShare _)); iexact Ha1
      isplitl [Hscr]
      · iapply (Entails.of_eq (owns_whole (d : Thread nD τ) cc1_scratch0 fullShare _)); iexact Hscr
      iexact Hsem
    isplitl [HO]
    · iexists _; isplitr; swap; · iexact HO
      ipureintro
      rw [Finset.coe_insert]
      exact Set.insert_subset (none_mem_bound m d t.succ _) hWt
    isplitl [H0]; · iexact H0
    iexact H1
  · rw [if_neg (show t.castSucc.val ≠ 0 from h0), if_neg (show t.succ.val ≠ 0 from Nat.succ_ne_zero _), tabV_eq]
    iintro ⟨⟨Hlv, Ha1, Hscr, Hsem⟩, Ho, ⟨%e0, H0⟩, ⟨%e1, H1⟩⟩
    iapply (run_later d Set.univ (grid1.coords t) _ _ (Memref.whole main_arg1) (Memref.isWhole_whole _) _ _ (Memref.whole cc1_scratch0) (Memref.isWhole_whole _)
      cc1_scratch1 (iblk m d 0 t) (tab (F := F) (rowOf m d)) (rowOf m d) (wordsAt m d t) (fun h => h0 ((hcond1 t).mp h)) (iblk0_apply m d t) (wordsAt_le m hpre d t)
      (fun _ => rfl) _)
    isplitl [H0]; · iexact H0
    isplitl [Hscr]
    · iapply (Entails.of_eq (owns_whole (d : Thread nD τ) cc1_scratch0 fullShare _).symm); iexact Hscr
    isplitl [H1]; · iexists _; iexact H1
    iintro ⟨H0, Hscr, H1⟩
    isplitl [Hlv Ha1 Hscr Hsem]
    · isplitl [Hlv]; · iexact Hlv
      isplitl [Ha1]; · iexact Ha1
      isplitl [Hscr]
      · iapply (Entails.of_eq (owns_whole (d : Thread nD τ) cc1_scratch0 fullShare _)); iexact Hscr
      iexact Hsem
    isplitl [Ho]; · iexact Ho
    isplitl [H0]; · iexact H0
    iexact H1

/-- The library's body obligation, at every point. -/
theorem body_obligation (hpre : PreOK m) (d : Dev nD) :
    Pipeline.BodyObligation (dat1 (F := F) m d) (defs₀ (F := F)) Variants.none (none : HIx 1) Set.univ := fun t => by
  rw [bigSep_W1, bigSep_W1]
  exact sound_body m hpre d t

end Point

end Cert.Kernel.Hand
end
-- ==== Proof.KernelHand.Region.lean ====
/-
  The second kernel's call as a region of @main: entered from the main core's arrays at the contents the steps before
  it left (the capped indices, flat, among them), left at the output array holding `val3`. The pipeline's invariant
  takes the level facts, the scratch table's buffer and the kernel's own transfer semaphore in, and gives the buffer
  and the semaphore back; the main core owes nothing, and its recorded waits stay at or below level 8.
-/
import proofs.«206731_g35192962023934_cont_8to1_b_663_28_alg».proof.Proof.KernelHand.Vals
import proofs.«206731_g35192962023934_cont_8to1_b_663_28_alg».proof.Proof.KernelHand.TcBody
import Idealize.ShloMosaic.Lib.Pipeline.RegionsLoop

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

abbrev LL : GSem nD τ sig → Finset (HIx 1) := (K (F := F)).L
abbrev lvv : GSem nD τ sig → HIx 1 → ℕ := (K (F := F)).lev

/-- The kernel's own semaphore: the table transfer's. -/
abbrev osem : Unit → SemLoc sig := fun _ => SemLoc.dma cc1_scratch1.sem

omit [FloatOps F] in
theorem ownSems0_unit (d : Dev nD) : (Pipeline.ownSems0 osem d : sProp 𝕄) = semVal (tabSem d) 0 := by
  unfold Pipeline.ownSems0
  rw [show (Finset.univ : Finset Unit) = {()} from rfl, bigSep_singleton]

/-- What rides beside the buffers through the region: the main core's `owes`, at nothing, its recorded pairs at or below level 8. -/
abbrev Rr (d : Dev nD) : sProp 𝕄 := iprop(∃ W, ⌜(K (F := F)).WBelow (SparseCore.T d) W 8⌝ ∗ owes (SparseCore.T d) (0 : CellTallies nD τ sig (HIx 1)) W)

/-- The weight array at the pipeline's entry is as launched: no step before it writes it. -/
theorem V3_arg1 (d : Dev nD) : V3 m d main_arg1 = m (a1Loc d) := by
  rw [V3_eq]; unfold Vr
  rw [Function.update_of_ne (by decide), Function.update_of_ne (by decide), Function.update_of_ne (by decide)]

set_option backward.isDefEq.respectTransparency.types false in
def reg (hpre : PreOK m) : Pipeline.RegionSeg (pcfgs (F := F)) adm (pdats m) (none : HIx 1) defs₀ 𝒱₀ (LL (F := F)) (lvv (F := F)) 0 where
  win := launch1.win.to₀
  block_pos := launch1.block_pos
  stage_whole := launch1.stage_whole
  K := Unit
  osem := osem
  ho := (by decide : Pipeline.OwnSemFacts spec1 osem)
  hbody d := (body_obligation m hpre d).loose
  hwaits := Pipeline.hwaits_of_owed_zero _ _ _ _ (LL (F := F)) (lvv (F := F)) 0 fun _ _ => rfl
  pre d := iprop(StableHlo.held (d : Thread nD τ) (Pipeline.ucRefs τ sig) (W3 m d) ∗ Rr (F := F) d)
  post d := iprop(StableHlo.held (d : Thread nD τ) (Pipeline.ucRefs τ sig) (W4 m d) ∗ Rr (F := F) d)
  X d := iprop(levAts (LL (F := F)) (lvv (F := F)) ∗ Pipeline.ownSems0 osem d ∗ (a1Loc d ↦{fullShare} m (a1Loc d)))
  Y d := iprop(a1Loc d ↦{fullShare} m (a1Loc d))
  Z d := iprop((((d : Thread nD τ).loc main_arg0) ↦{fullShare} V3 m d main_arg0) ∗ (((d : Thread nD τ).loc main_v0) ↦{fullShare} V3 m d main_v0)
    ∗ (((d : Thread nD τ).loc main_v1) ↦{fullShare} V3 m d main_v1) ∗ (((d : Thread nD τ).loc main_v4) ↦{fullShare} V3 m d main_v4))
  hentry d := by
    have hsplit := Pipeline.arrays_of_unscopedBufs (p := 0) (pcfgs (F := F)) adm (pdats m) launch1.win launch1.arr_whole d
      ((pdats m 0 d).share_full fun _ => rfl) (V3 m d) fun w => (congrFun (V3_eq m d) _).symm
    rw [Pipeline.unscopedBufs_held, unscopedRest1_eq, V3_arg1] at hsplit
    iintro ⟨⟨Hub, %W, %hW, HO⟩, Hsem, #Hlv⟩
    ihave H := hsplit $$ Hub
    icases H with ⟨Ha, H0, H1, Hv0, Hv1, Hv4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; intro p hp
        exact Or.inl (show p ∈ (dat1 m d).recorded 0 from by rw [recorded_eq]; exact hW p hp)
      iexact HO
    isplitl [Hsem H1]
    · isplitr; · iexact Hlv
      isplitl [Hsem]; · iexact Hsem
      iexact H1
    isplitl [H0]; · iexact H0
    isplitl [Hv0]; · iexact Hv0
    isplitl [Hv1]; · iexact Hv1
    iexact Hv4
  hin d := by
    rw [show (pdats m 0 d).Φ 0 = PhiT m d 0 from rfl, scopedRest1_eq, ownSems0_unit]
    unfold PhiT
    rw [if_pos (show ((0 : Fin (cfg1.N + 1)).val = 0) from rfl)]
    iintro ⟨⟨#Hlv, Hsem, H1⟩, -, Hr⟩
    isplitr; · iexact Hlv
    isplitl [H1]; · iexact H1
    isplitl [Hr]; · iexact Hr
    iexact Hsem
  hout d := by
    rw [show (pdats m 0 d).Φ (Fin.last _) = PhiT m d (Fin.last _) from rfl, scopedRest1_eq, ownSems0_unit]
    unfold PhiT
    rw [if_neg (show ¬ ((Fin.last cfg1.N).val = 0) from by rw [Fin.val_last]; have h : cfg1.N = 100 := N_1; omega)]
    iintro ⟨-, H1, Ht, Hsem⟩
    isplitl [H1]; · iexact H1
    isplitl [Hsem]; · iexact Hsem
    iexists _; iexact Ht
  hexit d := by
    have hjoin := Pipeline.unscopedBufs_of_arrays (p := 0) (pcfgs (F := F)) adm (Ix := HIx 1) (Name := ℕ) (U := UU) (Lvl := ℕ)
      launch1.win launch1.arr_whole d (pdats m) ((pdats m 0 d).share_full fun _ => rfl)
      (V3 m d) (V4 m d) ((pdats m 0 d).arrAt · cfg1.N) (hF m d) (hrest m d)
    rw [Pipeline.unscopedBufs_held, unscopedRest1_eq, V3_arg1] at hjoin
    iintro ⟨Ha, HO, H1, H0, Hv0, Hv1, Hv4⟩
    imodintro
    isplitl [Ha H1 H0 Hv0 Hv1 Hv4]
    · iapply hjoin
      isplitl [Ha]; · iexact Ha
      isplitl [H0]; · iexact H0
      isplitl [H1]; · iexact H1
      isplitl [Hv0]; · iexact Hv0
      isplitl [Hv1]; · iexact Hv1
      iexact Hv4
    unfold Pipeline.Dat.owesAt Pipeline.owesWithin
    icases HO with ⟨%W, %hW, HO⟩; iexists W; isplitr
    · ipureintro; intro p hp
      rcases hW hp with h | ⟨w, s, rfl⟩
      · exact (show p ∈ {p : SemLoc sig × HIx 1 | (K (F := F)).lev (SparseCore.T d, p.1) p.2 ≤ 8} from by rw [← recorded_eq m d (Fin.last _)]; exact h)
      · exact Nat.zero_le _
    iexact HO

end Cert.Kernel.Hand

end
-- ==== Proof.KernelHand.Blocks.lean ====
/-
  The first kernel's call takes the re-laid index array and the capped array apart into the 32 blocks of 200 rows —
  regrouped as two cores of sixteen subcores, subcore `s` of core `c` at block `2 s + c` — and puts them together
  again: the blocks are pairwise disjoint and fill the arrays.
-/
import proofs.«206731_g35192962023934_cont_8to1_b_663_28_alg».proof.Proof.KernelHand.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

omit [FloatOps F] in
theorem blk_disjoint : ∀ i ∈ (Finset.univ : Finset (Fin 32)), ∀ j ∈ (Finset.univ : Finset (Fin 32)), i ≠ j → Disjoint (blkSet i) (blkSet j) :=
  fun i _ j _ h => Rect.part_disjoint hdiv32 h
omit [FloatOps F] in
theorem blk_cover : (Finset.univ : Finset (Fin 32)).biUnion blkSet = Finset.univ := Rect.biUnion_part hdiv32

omit [FloatOps F] in
theorem v0_blocks (d : Dev nD) (f : Buf (Elt F) (v0Loc d)) :
    (v0Loc d ↦{fullShare} f : sProp 𝕄) = bigSep Finset.univ fun i : Fin 32 => v0Loc d ↦[blkSet i]{fullShare} f := by
  rw [← pointsTo_biUnion Finset.univ (ℓ := v0Loc d) blkSet blk_disjoint, blk_cover]; try rfl
omit [FloatOps F] in
theorem v1_blocks (d : Dev nD) (f : Buf (Elt F) (v1Loc d)) :
    (v1Loc d ↦{fullShare} f : sProp 𝕄) = bigSep Finset.univ fun i : Fin 32 => v1Loc d ↦[blkSet i]{fullShare} f := by
  rw [← pointsTo_biUnion Finset.univ (ℓ := v1Loc d) blkSet blk_disjoint, blk_cover]; try rfl

/-- The 32 blocks, counted as 2 cores × 16 subcores. -/
theorem wid_image : (Finset.univ : Finset (Fin 32)) = ((Finset.univ : Finset (Fin 2)) ×ˢ (Finset.univ : Finset (Fin 16))).image fun p => wid p.1 p.2 := by decide
theorem wid_injOn : Set.InjOn (fun p : Fin 2 × Fin 16 => wid p.1 p.2) (↑((Finset.univ : Finset (Fin 2)) ×ˢ (Finset.univ : Finset (Fin 16))) : Set (Fin 2 × Fin 16)) := by
  intro p _ q _ h
  have h' : 2 * p.2.val + p.1.val = 2 * q.2.val + q.1.val := congrArg Fin.val h
  have hp := p.1.isLt; have hq := q.1.isLt
  exact Prod.ext (Fin.ext (by omega)) (Fin.ext (by omega))

omit [FloatOps F] in
theorem bigSep_wid (Φ : Fin 32 → sProp 𝕄) :
    bigSep Finset.univ Φ = bigSep Finset.univ fun c : Fin 2 => bigSep Finset.univ fun s : Fin 16 => Φ (wid c s) := by
  rw [wid_image, SparseCore.bigSep_image_of_injOn wid_injOn, SparseCore.bigSep_product]

/-- The call's operands, core by core, from the two arrays whole: the index array at its values, the capped array at any. -/
theorem st_intro (d : Dev nD) (f : Buf (Elt F) (v1Loc d)) :
    iprop((v0Loc d ↦{fullShare} (val0 m d)) ∗ (v1Loc d ↦{fullShare} f))
      ⊢ (bigSep Finset.univ fun c : Fin ((K (F := F)).nCore 0) => (P m).st 0 d c : sProp 𝕄) := by
  show _ ⊢ bigSep (Finset.univ : Finset (Fin 2)) fun c => bigSep Finset.univ fun s : Fin 16 => goRes m d (wid c s)
  rw [← bigSep_wid (F := F) (fun i => goRes m d i), v0_blocks, v1_blocks, bigSep_sep']
  exact sep_mono .rfl (bigSep_mono fun i _ => show (v1Loc d ↦[blkSet i]{fullShare} f : sProp 𝕄) ⊢ iprop(∃ f', v1Loc d ↦[blkSet i]{fullShare} f') from by
    iintro H; iexists f; iexact H)

/-- The call's results, core by core, are the two arrays whole: the index array unchanged, the capped array at the capped values. -/
theorem dn_elim (d : Dev nD) :
    (bigSep Finset.univ fun c : Fin ((K (F := F)).nCore 0) => (P m).dn 0 d c : sProp 𝕄)
      ⊢ iprop((v0Loc d ↦{fullShare} (val0 m d)) ∗ (v1Loc d ↦{fullShare} (val1 m d))) := by
  show (bigSep (Finset.univ : Finset (Fin 2)) fun c => bigSep Finset.univ fun s : Fin 16 => tdRes m d (wid c s)) ⊢ _
  rw [← bigSep_wid (F := F) (fun i => tdRes m d i), v0_blocks, v1_blocks, bigSep_sep']

end Cert.Kernel.Hand

end
-- ==== Proof.KernelHand.Cap.lean ====
/-
  The cap, one piece at a time: what the subcore's scratch holds before each sixteen-word piece of the row-major
  sweep, and that one piece's load, signed minimum with 50000 and store take it to the next.
-/
import proofs.«206731_g35192962023934_cont_8to1_b_663_28_alg».proof.Proof.KernelHand.Common
import Idealize.ShloMosaic.Lib.WritesUnit

noncomputable section

namespace Cert.Kernel.Hand

open Cert.Kernel Cert.Kernel.Gen

open Idealize.ShloMosaic

variable {F : FTy → Type} [FloatOps F]
open Facts₀ Facts

theorem trips1 : k0_t1_loop.trips = 200 := by decide
theorem trips2 : k0_t2_loop.trips = 8 := by decide

/-- The stored piece is the loaded piece capped, word by word. -/
theorem k0_pay1_apply (v : Vec F S1x16 .i32) (x : S1x16.Idx) : k0_pay1 v x = IntOp.minsi (v x : BitVec 32) 50000#32 := by
  show IntOp.minsi (v (Shape.reshapeEquiv _ (Shape.reshapeEquiv _ x))) _ = _
  rw [Shape.reshapeEquiv_reshapeEquiv, Shape.reshapeEquiv_self]
  rfl

/-- The scratch before the piece at row `r`, columns `[16 k, 16 k + 16)`: the words before it in row-major order capped,
    the words from it on as the copy-in left them. -/
def capTo (f₀ : S200x128.Idx → BitVec 32) (r k : ℕ) : S200x128.Idx → BitVec 32 :=
  fun j => if (j 0).val < r ∨ ((j 0).val = r ∧ (j 1).val < 16 * k) then IntOp.minsi (f₀ j) 50000#32 else f₀ j

theorem capTo_zero (f₀ : S200x128.Idx → BitVec 32) : capTo f₀ 0 0 = f₀ := by
  funext j; unfold capTo; rw [if_neg]; omega

theorem capTo_row (f₀ : S200x128.Idx → BitVec 32) (r : ℕ) : capTo f₀ r 8 = capTo f₀ (r + 1) 0 := by
  funext j; unfold capTo
  have h1 : (j 1).val < 128 := (j 1).isLt
  by_cases h : (j 0).val < r ∨ ((j 0).val = r ∧ (j 1).val < 16 * 8)
  · rw [if_pos h, if_pos (by omega)]
  · rw [if_neg h, if_neg (by omega)]

theorem capTo_end (f₀ : S200x128.Idx → BitVec 32) : capTo f₀ 200 0 = fun j => IntOp.minsi (f₀ j) 50000#32 := by
  funext j; unfold capTo
  have h0 : (j 0).val < 200 := (j 0).isLt
  rw [if_pos (Or.inl h0)]

/-- One piece: loaded from the scratch, capped and stored back where it was read. -/
theorem capTo_step (f₀ : S200x128.Idx → BitVec 32) (k1 : Fin k0_t1_loop.trips) (k2 : Fin k0_t2_loop.trips) :
    (scrW).view.writes (Elt F) (capTo f₀ k1.val k2.val)
        [⟨Rect.unit (s := S200x128) (k0_off2 k1 k2) S1x16.size (Facts₀.k0_off2_inb k1 k2),
          k0_pay1 ((scrW).view.readAt (Elt F) (Rect.unit (s := S200x128) (k0_off2 k1 k2) S1x16.size (Facts₀.k0_off2_inb k1 k2)).toLoadRect (capTo f₀ k1.val k2.val))⟩]
      = capTo f₀ k1.val (k2.val + 1) := by
  funext y
  have hy0 : (y 0).val < 200 := (y 0).isLt
  have hy1 : (y 1).val < 128 := (y 1).isLt
  refine (View.read_writes_cons_unit (v := (scrW).view) (Val := Elt F) (capTo f₀ k1.val k2.val) (Facts₀.k0_off2_inb k1 k2) _ [] y (k0_off2_eq k1 k2)).trans ?_
  by_cases h : ∀ a : Fin 2, (![k1.val, 16 * k2.val] : Fin 2 → ℕ) a ≤ (y a).val ∧ (y a).val < (![k1.val, 16 * k2.val] : Fin 2 → ℕ) a + S1x16.size a
  · rw [dif_pos h, k0_pay1_apply]
    have h0 := h 0
    have h1 := h 1
    simp only [Matrix.cons_val_zero, Matrix.cons_val_one] at h0 h1
    have hidx : (Rect.unit (s := S200x128) (k0_off2 k1 k2) S1x16.size (Facts₀.k0_off2_inb k1 k2)).toLoadRect.idx
        (Rect.unitLocal (s := S200x128) (off := ![k1.val, 16 * k2.val]) (size := S1x16.size) y h) = y := by
      funext a; apply Fin.ext
      rw [LoadRect.idx_apply]
      show k0_off2 k1 k2 a + 1 * ((y a).val - (![k1.val, 16 * k2.val] : Fin 2 → ℕ) a) = (y a).val
      rw [k0_off2_eq]
      have := (h a).1
      omega
    rw [View.readAt_apply, hidx]
    show IntOp.minsi (capTo f₀ k1.val k2.val y) 50000#32 = capTo f₀ k1.val (k2.val + 1) y
    unfold capTo
    rw [if_neg (by omega), if_pos (by omega)]
  · rw [dif_neg h]
    show capTo f₀ k1.val k2.val y = capTo f₀ k1.val (k2.val + 1) y
    have h' : ¬ ((y 0).val = k1.val ∧ 16 * k2.val ≤ (y 1).val ∧ (y 1).val < 16 * k2.val + 16) := by
      intro ⟨a0, a1, a2⟩
      refine h (Fin.forall_fin_two.mpr ⟨?_, ?_⟩)
      · show k1.val ≤ (y 0).val ∧ (y 0).val < k1.val + 1
        omega
      · show 16 * k2.val ≤ (y 1).val ∧ (y 1).val < 16 * k2.val + 16
        omega
    unfold capTo
    by_cases hc : (y 0).val < k1.val ∨ ((y 0).val = k1.val ∧ (y 1).val < 16 * k2.val)
    · rw [if_pos hc, if_pos (by omega)]
    · rw [if_neg hc, if_neg (by omega)]

end Cert.Kernel.Hand

end
-- ==== Proof.KernelHand.TileBody.lean ====
/-
  One vector subcore's task of the first kernel: its 200-row block of the re-laid indices is copied into the
  subcore's scratch, every word of the scratch is capped at 50000 (signed minimum), sixteen words at a time in
  row-major order, and the scratch is copied out to the same block of the capped array.
-/
import proofs.«206731_g35192962023934_cont_8to1_b_663_28_alg».proof.Proof.KernelHand.Common
import proofs.«206731_g35192962023934_cont_8to1_b_663_28_alg».proof.Proof.KernelHand.Cap
import Idealize.ShloMosaic.Lib.Writes

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]
open Facts₀ Facts

/-! ## The block as the kernel slices it -/

/-- The rectangle of the kernel's slices of the two arrays at grid coordinates `L`. -/
abbrev blkK (L : grid0.Coords) : Rect S6400x128 := Rect.unit (s := S6400x128) (k0_off1 L) S200x128.size (Facts₀.k0_off1_inb L)
/-- The kernel's slice of the re-laid indices and of the capped array. -/
abbrev v0S (L : grid0.Coords) : Memref sig .scVector .hbm S200x128 .i32 := (v0W).slice (blkK L) (fun _ => rfl)
abbrev v1S (L : grid0.Coords) : Memref sig .scVector .hbm S200x128 .i32 := (v1W).slice (blkK L) (fun _ => rfl)

omit [FloatOps F] in
/-- The kernel's rectangle is the block of the subcore. -/
theorem blkK_eq (L : grid0.Coords) : blkK L = blkRect (widL L) := by
  unfold blkK blkRect Rect.part Rect.block
  congr 1 <;> funext a
  · rw [k0_off1_eq]
    match a with
    | 0 =>
      simp [Shape.partIx, Shape.partSize, widL, wid]
      show 400 * (L 1).val + 200 * (L 0).val = (2 * (L 1).val + (L 0).val) * 200
      omega
    | 1 => simp [Shape.partIx, Shape.partSize]
  · match a with
    | 0 => simp [Shape.partSize]
    | 1 => simp [Shape.partSize]

omit [FloatOps F] in
theorem set_v0S (L : grid0.Coords) : (v0S L).view.set = blkSet (widL L) := by
  show ((View.whole (main_v0_scv : Ref sig .scVector)).slice (blkK L)).set = (blkRect (widL L)).set
  rw [View.set_slice, blkK_eq]; exact Finset.map_refl
omit [FloatOps F] in
theorem set_v1S (L : grid0.Coords) : (v1S L).view.set = blkSet (widL L) := by
  show ((View.whole (main_v1_scv : Ref sig .scVector)).slice (blkK L)).set = (blkRect (widL L)).set
  rw [View.set_slice, blkK_eq]; exact Finset.map_refl

omit [FloatOps F] in
theorem pts_v0S (d : Dev nD) (L : grid0.Coords) (f : Buf (Elt F) (v0Loc d)) :
    ((v0S L).view.loc (V d (cV L) (jV L)) ↦[(v0S L).view.set]{fullShare} f : sProp 𝕄) = v0Loc d ↦[blkSet (widL L)]{fullShare} f := by
  rw [set_v0S]
omit [FloatOps F] in
theorem pts_v1S (d : Dev nD) (L : grid0.Coords) (f : Buf (Elt F) (v1Loc d)) :
    ((v1S L).view.loc (V d (cV L) (jV L)) ↦[(v1S L).view.set]{fullShare} f : sProp 𝕄) = v1Loc d ↦[blkSet (widL L)]{fullShare} f := by
  rw [set_v1S]
omit [FloatOps F] in
theorem pts_scr (d : Dev nD) (L : grid0.Coords) (f : Buf (Elt F) ((V d (cV L) (jV L)).loc cc0_scratch0)) :
    ((scrW).view.loc (V d (cV L) (jV L)) ↦{fullShare} f : sProp 𝕄) = (V d (cV L) (jV L)).loc cc0_scratch0 ↦{fullShare} f := rfl

/-! ## The subcore's scoped storage -/

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
theorem ownSems0_V (d : Dev nD) (L : grid0.Coords) :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

omit [FloatOps F] in
/-- The scratch is among the subcore's own buffers: it, at some contents, and the rest. -/
theorem ownBufs_V (d : Dev nD) (L : grid0.Coords) :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The sweep -/

/-- What the copy-in leaves in the scratch: the block of the re-laid indices, read through the kernel's slice. -/
abbrev f0 (d : Dev nD) (L : grid0.Coords) : S200x128.Idx → BitVec 32 := (v0S L).view.read (Elt F) (val0 m d)

omit [FloatOps F] in
theorem scr_entry (d : Dev nD) (L : grid0.Coords) (fs : Buf (Elt F) ((V d (cV L) (jV L)).loc cc0_scratch0)) (X : S200x128.Idx → BitVec 32) :
    ((scrW).view.loc (V d (cV L) (jV L)) ↦{fullShare} View.write (Elt F) (scrW).view fs X Finset.univ : sProp 𝕄)
      = ((scrW).view.loc (V d (cV L) (jV L)) ↦{fullShare} capTo X 0 0) := by
  rw [capTo_zero]; congr 1; exact View.write_whole_univ _ _ _

/-- Before row `r`: the rows above capped. Before piece `k` of row `r`: those and the row's pieces before. -/
def inv1 (d : Dev nD) (L : grid0.Coords) (r : ℕ) (_ : BitVec 32) : sProp 𝕄 :=
  (scrW).view.loc (V d (cV L) (jV L)) ↦{fullShare} capTo (f0 m d L) r 0
def inv2 (d : Dev nD) (L : grid0.Coords) (r k : ℕ) (_ : BitVec 32) : sProp 𝕄 :=
  (scrW).view.loc (V d (cV L) (jV L)) ↦{fullShare} capTo (f0 m d L) r k

/-- One piece. -/
theorem piece (d : Dev nD) (L : grid0.Coords) (k1 : Fin k0_t1_loop.trips) (k2 : Fin k0_t2_loop.trips) (acc : BitVec 32) :
    inv2 m d L k1.val k2.val acc
      ⊢ wp frame (wpE (defs₀ (F := F)) 𝒱₀ (V d (cV L) (jV L)) none) Set.univ
          (k0_t2_body L v0W (Memref.isWhole_whole _) v1W (Memref.isWhole_whole _) scrW (Memref.isWhole_whole _) cc0_scoped0 cc0_scoped1 k1 k2 acc)
          (inv2 m d L k1.val (k2.val + 1)) := by
  unfold inv2 k0_t2_body
  iintro Hs
  sl_exec
  rw [capTo_step (F := F) (f0 m d L) k1 k2, wp_ret]
  imodintro
  iexact Hs

/-- One row: its eight pieces. -/
theorem row (d : Dev nD) (L : grid0.Coords) (k1 : Fin k0_t1_loop.trips) (acc : BitVec 32) :
    inv1 m d L k1.val acc
      ⊢ wp frame (wpE (defs₀ (F := F)) 𝒱₀ (V d (cV L) (jV L)) none) Set.univ
          (k0_t1_body L v0W (Memref.isWhole_whole _) v1W (Memref.isWhole_whole _) scrW (Memref.isWhole_whole _) cc0_scoped0 cc0_scoped1 k1 acc)
          (inv1 m d L (k1.val + 1)) := by
  unfold inv1 k0_t1_body
  iintro Hs
  sl_for (inv2 m d L k1.val) $$ [Hs]
  case region => exact fun k2 acc => piece m d L k1 k2 acc
  · unfold inv2; iexact Hs
  iintro %acc' HI
  unfold inv2
  rw [show Scf.trips k0_t2_loop.lb k0_t2_loop.ub k0_t2_loop.st = 8 from trips2, capTo_row]
  sl_exec
  sl_step
  iexact HI

/-- After the last row every word is capped. -/
theorem inv1_end (d : Dev nD) (L : grid0.Coords) (acc : BitVec 32) :
    inv1 m d L (Scf.trips k0_t1_loop.lb k0_t1_loop.ub k0_t1_loop.st) acc
      ⊢ ((scrW).view.loc (V d (cV L) (jV L)) ↦{fullShare} (fun j => IntOp.minsi (f0 m d L j) 50000#32 : S200x128.Idx → BitVec 32) : sProp 𝕄) := by
  unfold inv1
  rw [show Scf.trips k0_t1_loop.lb k0_t1_loop.ub k0_t1_loop.st = 200 from trips1, capTo_end]

/-- The copy-out lands the capped block: on the block's elements, the capped array's value. -/
theorem v1_final (d : Dev nD) (L : grid0.Coords) (f1 : Buf (Elt F) (v1Loc d)) (X : S200x128.Idx → BitVec 32)
    (hX : ∀ x, X x = IntOp.minsi (f0 m d L x) 50000#32) :
    ((v1S L).view.loc (V d (cV L) (jV L)) ↦[(v1S L).view.set]{fullShare} (v1S L).view.writes (Elt F) f1 [⟨Rect.whole S200x128, X⟩] : sProp 𝕄)
      = v1Loc d ↦[blkSet (widL L)]{fullShare} val1 m d := by
  rw [pts_v1S]
  refine pointsTo_congr fun i hi => ?_
  rw [← set_v1S] at hi
  obtain ⟨x, -, rfl⟩ := Finset.mem_map.mp hi
  have h := View.read_writes_cons_emb (v := (v1S L).view) (Val := Elt F) f1 (Rect.whole S200x128) X [] x
  rw [Rect.emb_whole_apply, hX] at h
  exact h

theorem tile_body (d : Dev nD) (L : grid0.Coords) (O : CellTallies nD τ sig (HIx 1)) (W : Waits sig (HIx 1)) (hO : ∀ g, O g none = 0) :
    iprop(levAts (K (F := F)).L (K (F := F)).lev ∗ emp ∗ goRes m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_clamp L v0W (Memref.isWhole_whole _) v1W (Memref.isWhole_whole _) scrW (Memref.isWhole_whole _) cc0_scoped0 cc0_scoped1)
          fun _ => iprop(tdRes m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_clamp_eq_skeleton]; unfold cc0__sc_clamp_skel
  rw [(K (F := F)).scopedBufs_V facts d (cV L) (jV L), SparseCore.Cfg.scopedSems0_V (Val := Elt F) d (cV L) (jV L), ownSems0_V, ownBufs_V]
  iintro ⟨#Hlv, -, ⟨Hv0, %f1, Hv1⟩, ⟨⟨%fs, Hs⟩, Hbufs⟩, ⟨Hsem0, Hsem1, Hsems⟩, HO⟩
  ihave Hmw := ((K (F := F)).mayWaits_none (thr := V d (cV L) (jV L)) hO) $$ Hlv
  ihave Hv0' := (Entails.of_eq (pts_v0S (F := F) d L _).symm) $$ Hv0
  ihave Hv1' := (Entails.of_eq (pts_v1S (F := F) d L _).symm) $$ Hv1
  ihave Hs' := (Entails.of_eq (pts_scr (F := F) d L _).symm) $$ Hs
  -- the copy-in and its wait
  sl_exec
  ihave Hs2 := (Entails.of_eq ((show ((scrW).view.loc (V d (cV L) (jV L)) ↦{fullShare} View.write (Elt F) (scrW).view fs (tile_body.sl.dma0 m d L) Finset.univ : sProp 𝕄)
      = (scrW).view.loc (V d (cV L) (jV L)) ↦{fullShare} View.write (Elt F) (scrW).view fs (f0 m d L) Finset.univ from rfl).trans
      (scr_entry (F := F) d L fs (f0 m d L)))) $$ Hs'
  -- the sweep
  sl_for (inv1 m d L) $$ [Hs2]
  case region => exact fun k1 acc => row m d L k1 acc
  · unfold inv1; iexact Hs2
  iintro %acc HI
  ihave Hs3 := (inv1_end m d L acc) $$ HI
  -- the copy-out and its wait
  sl_exec
  ihave Hv1f := (Entails.of_eq (v1_final m d L f1 (tile_body.sl.dma0_1 m d L) (fun _ => rfl))) $$ Hv1'
  ihave Hv0 := (Entails.of_eq (pts_v0S (F := F) d L _)) $$ Hv0'
  sl_step
  isplitl [Hv0 Hv1f]
  · isplitl [Hv0]; · iexact Hv0
    iexact Hv1f
  isplitl [Hs3 Hbufs]
  · isplitl [Hs3]
    · iexists _; iexact Hs3
    · iexact Hbufs
  isplitl [Hsem0 Hsem1 Hsems]
  · isplitl [Hsem0]; · iexact Hsem0
    isplitl [Hsem1]; · iexact Hsem1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact .inl hp

end Cert.Kernel.Hand

end
-- ==== Proof.KernelHand.Obl.lean ====
/-
  The launch theorem's obligations for the first kernel: a vector subcore's task is the kernel's body at that
  subcore's coordinates, and a core's operands are its sixteen subcores' blocks, regrouped.
-/
import proofs.«206731_g35192962023934_cont_8to1_b_663_28_alg».proof.Proof.KernelHand.TileBody

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The body table's row of a vector subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_clamp (coordsV c s)
          v0W (Memref.isWhole_whole _) v1W (Memref.isWhole_whole _) scrW (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of core `c`: the kernel's body at those coordinates, on that subcore's block. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

/-- A core's operands are its subcores' tasks, and its results theirs: the payloads are stated block by block. -/
theorem vecSplit : (K (F := F)).VecSplit' (P m) 0 := by
  intro d c
  show (bigSep Finset.univ fun s : Fin 16 => goRes m d (wid (Fin.cast nCore_zero c) s)) ⊢ |={Set.univ}=> iprop(
      (bigSep Finset.univ fun i : Fin ((K (F := F)).nSub 0) => goRes m d (wid (Fin.cast nCore_zero c) (Fin.cast nSub_zero i)))
      ∗ ((bigSep Finset.univ fun i : Fin ((K (F := F)).nSub 0) => tdRes m d (wid (Fin.cast nCore_zero c) (Fin.cast nSub_zero i)))
          -∗ (bigSep Finset.univ fun s : Fin 16 => tdRes m d (wid (Fin.cast nCore_zero c) s))))
  iintro H; imodintro
  isplitl [H]; · iexact H
  iintro H; iexact H

end Cert.Kernel.Hand

end
-- ==== Proof.KernelHand.Elem.lean ====
/-
  The launch element of the ghost state: the launch handshakes' rounds, the pipeline's staging cells' rounds
  (funded here, dealt to each device for its pipeline's entry), and the transfers' counters (nothing to fund).
-/
import proofs.«206731_g35192962023934_cont_8to1_b_663_28_alg».proof.Proof.KernelHand.Common

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline cells' rounds: the left factor of the right factor of the algebra. -/
abbrev EPr : Emb UP (MT nD τ sig (HIx 1) (Elt F) ℕ UU ℕ) := (Emb.inl : Emb UP (UP × Counters)).trans embR

instance EPr_landsIn : (EPr : Emb UP 𝕄).LandsIn (upEmb : UEmb _ 𝕄) := by
  show ((Emb.inl : Emb UP (UP × Counters)).trans embR : Emb UP 𝕄).LandsIn _; infer_instance

/-- What the launch deals device `d` for its pipeline: the staging cells' ghost state and the duty tokens. -/
def G (d : Dev nD) : sProp 𝕄 :=
  iprop((bigSep Finset.univ fun p : Fin 1 => Pipeline.cellsGhost cfgs EPr p d) ∗ (bigSep Finset.univ fun p : Fin 1 => (Pipeline.toksInit cfgs EPr p d : sProp 𝕄)))

def u₀ : UU :=
  (initOf (K (F := F)).hsCells (K (F := F)).hsToks, (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) cfgs (EPr (F := F)) cellOf_inj) $$ HP with ⟨Hg, Ht⟩
  imodintro
  isplitl [HH]; · iexact HH
  isplitl [Hg Ht]
  · unfold G; rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.KernelHand.Main.lean ====
/-
  @main on the main core, the final memory read against the claim, and the launch theorem applied: every weakly fair
  execution of the device's threads terminates, nothing faulting, the result array at `val4` and the two arguments
  as launched.
-/
import proofs.«206731_g35192962023934_cont_8to1_b_663_28_alg».proof.Proof.KernelHand.Region
import proofs.«206731_g35192962023934_cont_8to1_b_663_28_alg».proof.Proof.KernelHand.Blocks
import proofs.«206731_g35192962023934_cont_8to1_b_663_28_alg».proof.Proof.KernelHand.Obl
import proofs.«206731_g35192962023934_cont_8to1_b_663_28_alg».proof.Proof.KernelHand.Elem

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operations' buffers are among the main core's arrays -/

omit [FloatOps F] in
theorem sub0 : (op0 (F := F)).bufs ⊆ Pipeline.ucRefs τ sig := show ({r0, rv0} : Finset (DevRef τ sig)) ⊆ Pipeline.ucRefs τ sig by decide
omit [FloatOps F] in
theorem sub2 : (op2 (F := F)).bufs ⊆ Pipeline.ucRefs τ sig := show ({rv1, rv2} : Finset (DevRef τ sig)) ⊆ Pipeline.ucRefs τ sig by decide
omit [FloatOps F] in
theorem sub4 : (op4 (F := F)).bufs ⊆ Pipeline.ucRefs τ sig := show ({rv3, rv4} : Finset (DevRef τ sig)) ⊆ Pipeline.ucRefs τ sig by decide

/-- The two arrays the first kernel's call takes. -/
abbrev T01 : Finset (DevRef τ sig) := {rv0, rv1}
theorem T01_sub : T01 ⊆ Pipeline.ucRefs τ sig := by decide
/-- The three arrays the claim reads. -/
abbrev T3 : Finset (DevRef τ sig) := {r0, r1, rv4}
theorem T3_sub : T3 ⊆ Pipeline.ucRefs τ sig := by decide

omit [FloatOps F] in
theorem held_T01 (d : Dev nD) (W : Valuation τ sig (Elt F)) :
    (held (SparseCore.T d) T01 W : sProp 𝕄) = iprop((v0Loc d ↦{fullShare} W rv0) ∗ (v1Loc d ↦{fullShare} W rv1)) := by
  unfold held T01
  rw [SparseCore.bigSep_insert' (by decide), bigSep_singleton]
omit [FloatOps F] in
theorem held_T3 (d : Dev nD) (W : Valuation τ sig (Elt F)) :
    (held (SparseCore.T d) T3 W : sProp 𝕄) = iprop((a0Loc d ↦{fullShare} W r0) ∗ (a1Loc d ↦{fullShare} W r1) ∗ (v4Loc d ↦{fullShare} W rv4)) := by
  unfold held T3
  rw [SparseCore.bigSep_insert' (by decide), SparseCore.bigSep_insert' (by decide), bigSep_singleton]

/-- The arrays after the first kernel's call: the two it took, at the capped values, beside the rest as before it. -/
theorem held_W2 (d : Dev nD) :
    (held (SparseCore.T d) (Pipeline.ucRefs τ sig) (W2 m d) : sProp 𝕄)
      = iprop(((v0Loc d ↦{fullShare} (val0 m d)) ∗ (v1Loc d ↦{fullShare} (val1 m d))) ∗ held (SparseCore.T d) (Pipeline.ucRefs τ sig \ T01) (W1 m d)) := by
  rw [StableHlo.held_sub_split (SparseCore.T d) T01_sub (W2 m d), held_T01, W2_v1, W2_of_ne m d rv0 (by decide), W1_v0,
    StableHlo.held_congr (SparseCore.T d) (S := Pipeline.ucRefs τ sig \ T01) (V := W2 m d) (V' := W1 m d) fun b hb =>
      W2_of_ne m d b fun e => (Finset.mem_sdiff.mp hb).2 (e ▸ by decide)]

/-- The main core's handshake state after the one call: its `owes` (at nothing: no later call) with the bound on its
    recorded pairs can be taken out for the region, and put back. -/
theorem tcSt_open (d : Dev nD) :
    ((K (F := F)).tcSt EH d ((0 : Fin 1).val + 1) : sProp 𝕄) ⊢ iprop(Rr (F := F) d ∗ (Rr (F := F) d -∗ (K (F := F)).tcSt EH d 1)) := by
  show ((K (F := F)).tcSt EH d 1 : sProp 𝕄) ⊢ _
  unfold SparseCore.Cfg.tcSt
  rw [(K (F := F)).Otc_end d (le_refl 1)]
  iintro ⟨⟨%W, %hW, HO⟩, Hrest⟩
  isplitl [HO]
  · iexists W; isplitr; · ipureintro; exact hW
    iexact HO
  iintro ⟨%W', %hW', HO'⟩
  isplitl [HO']
  · iexists W'; isplitr; · ipureintro; exact hW'
    iexact HO'
  iexact Hrest

omit [FloatOps F] in
theorem G_eq (d : Dev nD) : (G (F := F) d : sProp 𝕄) = iprop(Pipeline.cellsGhost cfgs EPr 0 d ∗ Pipeline.toksInit cfgs EPr 0 d) := by
  unfold G
  rw [show (Finset.univ : Finset (Fin 1)) = {0} from rfl, bigSep_singleton, bigSep_singleton]

/-- The region's entry and exit states, spelt out. -/
theorem reg_pre (hpre : PreOK m) (d : Dev nD) :
    (reg m hpre).pre d = iprop(StableHlo.held (d : Thread nD τ) (Pipeline.ucRefs τ sig) (W3 m d) ∗ Rr (F := F) d) := rfl
theorem reg_post (hpre : PreOK m) (d : Dev nD) :
    (reg m hpre).post d = iprop(StableHlo.held (d : Thread nD τ) (Pipeline.ucRefs τ sig) (W4 m d) ∗ Rr (F := F) d) := rfl

/-! ## @main -/

/-- What @main leaves the claim: the two arguments as launched, the result at `val4`. -/
abbrev FIN (d : Dev nD) : sProp 𝕄 :=
  iprop((a0Loc d ↦{fullShare} m (a0Loc d)) ∗ (a1Loc d ↦{fullShare} m (a1Loc d)) ∗ (v4Loc d ↦{fullShare} (val4 m d)))

/-- After the first re-laying: the two arrays the first kernel takes, beside the rest. -/
theorem held_W1 (d : Dev nD) :
    (held (SparseCore.T d) (Pipeline.ucRefs τ sig) ((op0 (F := F)).result (W0 m d)) : sProp 𝕄)
      = iprop(((v0Loc d ↦{fullShare} (val0 m d)) ∗ (v1Loc d ↦{fullShare} W1 m d rv1)) ∗ held (SparseCore.T d) (Pipeline.ucRefs τ sig \ T01) (W1 m d)) := by
  rw [show (op0 (F := F)).result (W0 m d) = W1 m d from rfl,
    StableHlo.held_sub_split (SparseCore.T d) T01_sub (W1 m d), held_T01, W1_v0]

/-- After the last re-laying: the three arrays the claim reads. -/
theorem held_W5 (d : Dev nD) :
    (held (SparseCore.T d) (Pipeline.ucRefs τ sig) ((op4 (F := F)).result (W4 m d)) : sProp 𝕄) ⊢ FIN m d := by
  rw [show (op4 (F := F)).result (W4 m d) = W5 m d from rfl,
    StableHlo.held_sub_split (SparseCore.T d) T3_sub (W5 m d), held_T3, W5_v4,
    show W5 m d r0 = m (a0Loc d) from W5_arg m d main_arg0 (by decide) (by decide) (by decide) (by decide) (by decide),
    show W5 m d r1 = m (a1Loc d) from W5_arg m d main_arg1 (by decide) (by decide) (by decide) (by decide) (by decide)]
  exact sep_elim_left

set_option backward.isDefEq.respectTransparency.types false in
set_option maxHeartbeats 1600000 in
theorem hmain (hpre : PreOK m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d : Thread nD τ).loc b)) : sProp 𝕄)
      = held (SparseCore.T d) (Pipeline.ucRefs τ sig) (W0 m d) from Pipeline.unscopedBufs_held d (W0 m d)]
  simp only [main, wp_bind, wp_pure]
  iintro ⟨#Hctx, Hst, ⟨Hb, Hheld, Hsems, Hprng⟩, HG⟩
  ihave #Hlv := (SparseCore.Cfg.ctx_levAts κ) $$ Hctx
  -- the index array re-laid
  iapply (wp_hlo_within 𝒱 (SparseCore.T d) none Set.univ (op := op0) (S := Pipeline.ucRefs τ sig) sub0 (V := W0 m d)) $$ [Hb Hheld]
  · isplitl [Hb]; · iexact Hb
    iexact Hheld
  iintro ⟨Hb, Hheld⟩
  rw [wp_ret]; imodintro
  -- the first kernel's call: the two arrays in blocks to the subcores, and back
  ihave Hh := (Entails.of_eq (held_W1 m d)) $$ Hheld
  icases Hh with ⟨⟨Hv0, Hv1⟩, Hrest⟩
  iapply ((K (F := F)).wp_run (D (F := F)) 𝒱 (EH := EH) (P := P m) κ d 0) $$ [Hst Hv0 Hv1 Hb Hrest Hsems Hprng HG]
  isplitr; · iexact Hctx
  isplitl [Hst]; · iexact Hst
  isplitl [Hv0 Hv1]
  · iapply (st_intro m d _)
    isplitl [Hv0]; · iexact Hv0
    iexact Hv1
  iintro ⟨Hst, Hdn⟩
  ihave Hdn' := (dn_elim m d) $$ Hdn
  icases Hdn' with ⟨Hv0, Hv1⟩
  -- the capped array re-laid flat
  iapply (wp_hlo_within 𝒱 (SparseCore.T d) none Set.univ (op := op2) (S := Pipeline.ucRefs τ sig) sub2 (V := W2 m d)) $$ [Hb Hv0 Hv1 Hrest]
  · isplitl [Hb]; · iexact Hb
    rw [held_W2]
    isplitl [Hv0 Hv1]
    · isplitl [Hv0]; · iexact Hv0
      iexact Hv1
    iexact Hrest
  iintro ⟨Hb, Hheld⟩
  rw [wp_ret]; imodintro
  -- the second kernel's region
  ihave Hs := (tcSt_open (F := F) d) $$ Hst
  icases Hs with ⟨HR, Hclose⟩
  ihave HG' := (Entails.of_eq (G_eq (F := F) d)) $$ HG
  icases HG' with ⟨Hcg, Htk⟩
  -- enter the region: the call is the kernel's own table's, lifted
  iapply ((K (F := F)).wp_liftProg (D (F := F)) 𝒱 (SparseCore.T d) Set.univ none
    (Prog.lift (.customCall (Pipeline.entry (0 : Fin 1)) ())) _)
  iapply (Pipeline.RegionSeg.wp (pcfgs (F := F)) adm (pdats m) (none : HIx 1) cellOf_inj (EPr (F := F)) defs₀ 𝒱₀ (LL (F := F)) (lvv (F := F))
      (reg m hpre) d none (fun u hu => by cases hu) (fun u => .ret u) _) $$ [Hb Hheld HR Hcg Htk Hclose]
  isplitl [Hclose]
  · iintro ⟨Hb, Hpost⟩
    ihave Hp := (Entails.of_eq (reg_post m hpre d)) $$ Hpost
    icases Hp with ⟨Hheld, HR⟩
    rw [wp_ret]; imodintro
    -- the output re-laid
    iapply (wp_hlo_within 𝒱 (SparseCore.T d) none Set.univ (op := op4) (S := Pipeline.ucRefs τ sig) sub4 (V := W4 m d)) $$ [Hb Hheld]
    · isplitl [Hb]; · iexact Hb
      iexact Hheld
    iintro ⟨Hb, Hheld⟩
    rw [wp_ret]; imodintro; imodintro
    isplitl [HR Hclose]
    · iapply Hclose; iexact HR
    iapply (held_W5 m d); iexact Hheld
  isplitl [Hb]; · iexact Hb
  isplitl [Hheld HR]
  · iapply (Entails.of_eq (reg_pre m hpre d).symm)
    isplitl [Hheld]; · iexact Hheld
    iexact HR
  isplitr; · iexact Hlv
  isplitl [Hcg]; · iexact Hcg
  iexact Htk

/-! ## The final memory, read -/

def fq (d : Dev nD) (s' : Phys nD τ sig (Elt F)) : Prop :=
  s'.mem.mem (v4Loc d) = val4 m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v4Loc d) (I := Finset.univ) (q := fullShare) (f := val4 m d)) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (v4Loc c) = val4 m c ∧ r.2.mem (a0Loc c) = m (a0Loc c) ∧ r.2.mem (a1Loc c) = m (a1Loc c)

/-- Every weakly fair execution of the device's threads terminates, nothing faulting, the result array at `val4` of the
    launch memory and the two arguments as launched. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ hpre) (fq m) (hfin m) (QC m) (fun _ h => h)

end Cert.Kernel.Hand

end
-- ==== Proof.KernelIdealHand.Common.lean ====
/-
  Shared definitions for the idealized kernel's proof.

  The program: the index array [16384, 50] is re-laid as [6400, 128]; a first kernel, run on the
  32 vector subcores (2 cores of 16), caps every index at 50000, each subcore working on its own
  block of 200 consecutive rows — subcore `s` of core `c` on block `2 s + c`; the capped indices
  are re-laid as a flat array of 819200 words; a second kernel, a pipeline of 100 grid points on the
  main core, reads 8192 indices per point and copies, for each, row `index` of a 50008-row table
  held in a scratch buffer into the output block; the table is the weight array's 50000 rows
  followed by 8 rows of zeros, built at the first grid point and kept for the later ones; the
  output [819200, 128] is re-laid as [16384, 50, 128].

  Stated here: the program as the launch theorem reads it, the resource algebra (the launch
  handshakes' rounds, the pipeline cells' rounds, the local transfers' counters), each stage's value
  as a function of the two argument arrays, the row blocks, what the launch handshakes carry, and
  the pipeline's proof data.
-/
import proofs.«206731_g35192962023934_cont_8to1_b_663_28_alg».proof.KernelIdeal
import proofs.«206731_g35192962023934_cont_8to1_b_663_28_alg».proof.Proof.Gen.KernelIdeal
import proofs.«206731_g35192962023934_cont_8to1_b_663_28_alg».proof.Proof.Gen.KernelIdeal.Skeleton
import proofs.«206731_g35192962023934_cont_8to1_b_663_28_alg».proof.Proof.Gen.KernelIdeal.Launch
import proofs.«206731_g35192962023934_cont_8to1_b_663_28_alg».proof.Proof.Gen.KernelIdeal.Points
import proofs.«206731_g35192962023934_cont_8to1_b_663_28_alg».proof.Proof.Spec
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The launch handshakes' rounds: the left factor. -/
abbrev EH : Emb UH (MT nD τ sig (HIx 1) (Elt F) ℕ UU ℕ) := embL
/-- The pipeline cells' rounds: the left factor of the right factor. The transfers' counters are found by instance. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The launch memory, the buffers and the stages' values -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4

variable [FloatOps F]
open Facts₀ Facts

/-- The indices re-laid as [6400, 128]. -/
def val0 (d : Dev nD) : Buf (Elt F) (v0Loc d) :=
  shapeCast S6400x128 (m (a0Loc d) : S16384x50.Idx → BitVec 32) Facts₀.shapeCasts_S16384x50_S6400x128
/-- Every index capped at 50000 (signed minimum). -/
def val1 (d : Dev nD) : Buf (Elt F) (v1Loc d) :=
  fun j => IntOp.minsi (val0 m d j : BitVec 32) 50000#32
/-- The capped indices re-laid flat. -/
def val2 (d : Dev nD) : Buf (Elt F) (v2Loc d) :=
  shapeCast S819200 (val1 m d : S6400x128.Idx → BitVec 32) Facts₀.shapeCasts_S6400x128_S819200
/-- The table the second kernel keeps: the weight array's rows, then rows of zeros. -/
def tabV (d : Dev nD) : S50008x128.Idx → F .f32 :=
  fun j => Cert.Spec.rowAt (m (a1Loc d) : Cert.Spec.STab.Idx → F .f32) (j 0).val (j 1)
/-- Output row `n` is the table's row at the `n`-th capped index. -/
def val3 (d : Dev nD) : Buf (Elt F) (v3Loc d) :=
  fun j => Cert.Spec.rowAt (m (a1Loc d) : Cert.Spec.STab.Idx → F .f32) ((val2 m d : S819200.Idx → BitVec 32) (ValueIdx.ix1 (n := 819200) (j 0))).toNat (j 1)
/-- The output re-laid as [16384, 50, 128]. -/
def val4 (d : Dev nD) : Buf (Elt F) (v4Loc d) :=
  shapeCast S16384x50x128 (val3 m d : S819200x128.Idx → F .f32) Facts₀.shapeCasts_S819200x128_S16384x50x128

/-- What the proof asks of the launch memory: every index is nonnegative as a signed word. -/
def PreOK : Prop := ∀ (d : Dev nD) (i : S16384x50.Idx), ((m (a0Loc d) : S16384x50.Idx → BitVec 32) i).toNat < 2 ^ 31

/-! ## The 32 blocks of 200 rows -/

theorem hdiv32 : 32 ∣ S6400x128.size 0 := ⟨200, rfl⟩
abbrev blkRect (i : Fin 32) : Rect S6400x128 := Rect.part (s := S6400x128) (a₀ := 0) hdiv32 i
abbrev blkSet (i : Fin 32) : Finset S6400x128.Idx := (blkRect i).set
/-- Subcore `s` of core `c` works on block `2 s + c`. -/
def wid (c : Fin 2) (s : Fin 16) : Fin 32 := ⟨2 * s.val + c.val, by omega⟩

/-! ## What the launch handshakes carry -/

/-- A subcore's task: its block of the re-laid indices, at their values, and its block of the capped array, at any contents; -/
abbrev goRes (d : Dev nD) (i : Fin 32) : sProp 𝕄 :=
  iprop((v0Loc d ↦[blkSet i]{fullShare} (val0 m d)) ∗ ∃ f, v1Loc d ↦[blkSet i]{fullShare} f)
/-- and what it hands back: the capped block at the capped values. -/
abbrev tdRes (d : Dev nD) (i : Fin 32) : sProp 𝕄 :=
  iprop((v0Loc d ↦[blkSet i]{fullShare} (val0 m d)) ∗ (v1Loc d ↦[blkSet i]{fullShare} (val1 m d)))

def P : (K (F := F)).Pay (nD := nD) (Val := Elt F) (Name := ℕ) (U := UU) where
  st := fun q d c => match q with
    | 0 => bigSep Finset.univ fun s : Fin 16 => goRes m d (wid (Fin.cast nCore_zero c) s)
  dn := fun q d c => match q with
    | 0 => bigSep Finset.univ fun s : Fin 16 => tdRes m d (wid (Fin.cast nCore_zero c) s)
  go := fun q d c i => match q with
    | 0 => goRes m d (wid (Fin.cast nCore_zero c) (Fin.cast nSub_zero i))
  td := fun q d c i => match q with
    | 0 => tdRes m d (wid (Fin.cast nCore_zero c) (Fin.cast nSub_zero i))
  x := fun _ _ => iprop(emp)

instance P_storable : (P (F := F) m).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-! ## A vector subcore's task, at symbolic grid coordinates -/

abbrev cV (L : grid0.Coords) : Fin τ.nSC := (L 0).castLE Facts₀.hcore0
abbrev jV (L : grid0.Coords) : Fin τ.nSub := (L 1).castLE Facts₀.hsub0
theorem bound_zero : grid0.bound 0 = 2 := rfl
theorem bound_one : grid0.bound 1 = 16 := rfl
/-- The block of the subcore at grid coordinates `L`. -/
abbrev widL (L : grid0.Coords) : Fin 32 := wid (Fin.cast bound_zero (L 0)) (Fin.cast bound_one (L 1))

/-- The first kernel's memrefs, as the body table passes them: the two arrays whole, and a subcore's scratch. -/
abbrev v0W : Memref sig .scVector .hbm S6400x128 .i32 := Memref.whole main_v0_scv
abbrev v1W : Memref sig .scVector .hbm S6400x128 .i32 := Memref.whole main_v1_scv
abbrev scrW : Memref sig .scVector .vmem S200x128 .i32 := Memref.whole cc0_scratch0

/-! ## The pipeline's proof data -/

/-- What the main core's arrays hold when the pipeline is entered: the three stages before it at their values,
    every other array as launched. -/
def Vr (d : Dev nD) : (b : Ref sig .tc) → Buf (Elt F) ((SparseCore.T d : Thread nD τ).loc b) :=
  Function.update (Function.update (Function.update (fun b => m ((SparseCore.T d : Thread nD τ).loc b)) main_v0 (val0 m d)) main_v1 (val1 m d)) main_v2 (val2 m d)

/-- Window `w`'s block at point `t`, read off its array as the pipeline finds it. -/
def iblk (d : Dev nD) (w : Fin cfg1.W) (t : Fin cfg1.N) : ((cfg1.win w).xblock (cfg1.grid.coords t)).Idx → Elt F (cfg1.win w).elt :=
  ((cfg1.win w).blk t).view.read (Elt F) (Vr m d (Pipeline.arrRef spec1 w))

/-- What point `t` leaves in the output's staging buffer: row `r` is the table's row at capped index `8192 t + r`. -/
def outBlk (d : Dev nD) (t : Fin cfg1.N) : S8192x128.Idx → F .f32 :=
  fun y => Cert.Spec.rowAt (m (a1Loc d) : Cert.Spec.STab.Idx → F .f32)
    ((val2 m d : S819200.Idx → BitVec 32) (ValueIdx.ix1 (n := 819200)
      ⟨8192 * t.val + (y 0).val, by
        have ht : t.val < 100 := lt_of_lt_of_eq t.isLt N_1
        have hy : (y 0).val < 8192 := (y 0).isLt
        omega⟩)).toNat (y 1)

/-- The scratch buffer holding the table, as the main core names it, and the kernel's own transfer semaphore. -/
abbrev scrLoc (d : Dev nD) : Loc nD τ sig := (SparseCore.T d).loc cc1_scratch0
abbrev tabSem (d : Dev nD) : GSem nD τ sig := (SparseCore.T d, SemLoc.dma cc1_scratch1.sem)

/-- The body's invariant before point `t`: the level facts (for the table transfer's wait), the weight array whole at its
    launch contents (the table transfer's source: no window stages it), the scratch buffer — at any contents before the
    first point, at the table from then on — and the kernel's own semaphore at zero. -/
def PhiT (d : Dev nD) (t : Fin (cfg1.N + 1)) : sProp 𝕄 :=
  iprop(levAts (K (F := F)).L (K (F := F)).lev
    ∗ (a1Loc d ↦{fullShare} m (a1Loc d))
    ∗ (if t.val = 0 then iprop(∃ f, scrLoc d ↦{fullShare} f) else (scrLoc d ↦{fullShare} (tabV m d)))
    ∗ semVal (tabSem d) 0)

/-- The pipeline's proof data on device `d`: the arrays as the pipeline finds them; after the body at point `t` the index
    window's buffer at its block, the output window's at `outBlk`; the table kept in the invariant; nothing owed; the pairs the main core's waits have recorded all
    at or below level 8 (where the first kernel's call left them: the pipeline's own waits sit at level 0). -/
def dat1 (d : Dev nD) : Dat τ (Elt F) (HIx 1) ℕ UU ℕ cfg1 d where
  A w := Vr m d (Pipeline.arrRef spec1 w)
  after w t := match w with
    | ⟨0, _⟩ => iblk m d 0 t
    | ⟨1, _⟩ => outBlk m d t
  Φ t := PhiT m d t
  q _ := fullShare
  owed _ := 0
  recorded _ := {p | (K (F := F)).lev (SparseCore.T d, p.1) p.2 ≤ 8}

theorem A_eq (d : Dev nD) (w : Fin cfg1.W) : (dat1 m d).A w = Vr m d (Pipeline.arrRef spec1 w) := by dsimp only [dat1]
theorem after1_0 (d : Dev nD) (t : Fin cfg1.N) : (dat1 m d).after 0 t = iblk m d 0 t := by dsimp only [dat1]
theorem after1_1 (d : Dev nD) (t : Fin cfg1.N) : (dat1 m d).after 1 t = outBlk m d t := by dsimp only [dat1]
theorem Phi_eq (d : Dev nD) (t : Fin (cfg1.N + 1)) : (dat1 m d).Φ t = PhiT m d t := by dsimp only [dat1]
theorem recorded_eq (d : Dev nD) (t : Fin (cfg1.N + 1)) :
    (dat1 m d).recorded t = {p | (K (F := F)).lev (SparseCore.T d, p.1) p.2 ≤ 8} := by dsimp only [dat1]
/-- A wait at index `none` sits at level 0: within every point's bound. -/
theorem none_mem_bound (d : Dev nD) (t : Fin (cfg1.N + 1)) (sm : SemLoc sig) : (sm, (none : HIx 1)) ∈ (dat1 m d).bound none t :=
  Or.inl (by rw [recorded_eq]; exact Nat.zero_le _)

/-- No pipeline has a prefetched table. -/
abbrev adm : (p : Fin 1) → (pcfgs (F := F) p).Adm := fun p => (cfgs p).toPCfg_adm
/-- The one pipeline's proof data, as a literal match on its index. -/
def pdats : (p : Fin 1) → (d : Dev nD) → Dat τ (Elt F) (HIx 1) ℕ UU ℕ (Pipeline.pin (pcfgs (F := F)) adm p) d
  | ⟨0, _⟩ => fun d => dat1 m d

end Cert.KernelIdeal.Hand

end
-- ==== Proof.KernelIdealHand.Final.lean ====
/-
  The pipeline's arrays at its exit. Point `t` writes back rows `8192 t … 8192 t + 8191` of the output, and what it
  writes is that block of `val3`: row `8192 t + r` is the table's row at the capped index number `8192 t + r`. The hundred
  blocks tile the array (row `i` lies in the block of point `i / 8192`), so the output array ends at `val3`; the index
  array, an input, ends as it was entered.
-/
import proofs.«206731_g35192962023934_cont_8to1_b_663_28_alg».proof.Proof.KernelIdealHand.Common
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- The output window's index map, decided over the grid: point `t` is at block `(t, 0)`. -/
theorem idx_facts : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- What point `t` writes back is block `t` of `val3`. -/
theorem flushed_eq (d : Dev nD) (t : Fin cfg1.N) :
    (dat1 m d).flushed 1 t = ((cfg1.win 1).blk t).view.read (Elt F) (val3 m d) := by
  show (cfg1.win 1).cut (grid1.coords t) ((dat1 m d).after 1 t) = _
  rw [after1_1]
  obtain ⟨e0, e1⟩ := idx_facts t
  funext y
  show outBlk m d t y = val3 m d (((cfg1.win 1).blk t).view.emb y)
  have h0 : ((((cfg1.win 1).blk t).view.emb y) 0).val = 8192 * t.val + (y 0).val := by
    show win1_1.index t (0 : Fin 2) * 8192 + 1 * (y 0).val = 8192 * t.val + (y 0).val
    omega
  have h1 : (((cfg1.win 1).blk t).view.emb y) 1 = y 1 := by
    apply Fin.ext
    show win1_1.index t (1 : Fin 2) * 128 + 1 * (y 1).val = (y 1).val
    omega
  unfold outBlk val3
  rw [h1]
  congr 3
  exact congrArg _ (Fin.ext h0.symm)

/-- An index of the output array is in point `t`'s block iff each coordinate is in the block's range on its axis. -/
theorem mem_blk (t : Fin cfg1.N) (i : S819200x128.Idx) :
    i ∈ ((cfg1.win 1).blk t).view.set ↔ ∀ a : Fin 2, win1_1.index t a * S8192x128.size a ≤ (i a).val ∧ (i a).val < win1_1.index t a * S8192x128.size a + S8192x128.size a := by
  show i ∈ ((View.whole main_v3).slice (win1_1.rect t)).set ↔ _
  rw [View.set_slice_whole, Rect.mem_set_unit]
  exact Iff.rfl

/-- Every row of the output lies in some point's block. -/
theorem cover (i : S819200x128.Idx) : ∃ t : Fin cfg1.N, (cfg1.win 1).flush t = true ∧ i ∈ ((cfg1.win 1).blk t).view.set := by
  have hi0 : (i 0).val < 819200 := (i 0).isLt
  have hi1 : (i 1).val < 128 := (i 1).isLt
  have hN : cfg1.N = 100 := N_1
  refine ⟨⟨(i 0).val / 8192, by rw [hN]; omega⟩, flush1_1 _, ?_⟩
  rw [mem_blk]
  obtain ⟨e0, e1⟩ := idx_facts ⟨(i 0).val / 8192, by rw [hN]; omega⟩
  intro a
  match a with
  | ⟨0, _⟩ =>
    show win1_1.index _ (0 : Fin 2) * 8192 ≤ (i 0).val ∧ (i 0).val < win1_1.index _ (0 : Fin 2) * 8192 + 8192
    rw [e0]; dsimp only; omega
  | ⟨1, _⟩ =>
    show win1_1.index _ (1 : Fin 2) * 128 ≤ (i 1).val ∧ (i 1).val < win1_1.index _ (1 : Fin 2) * 128 + 128
    rw [e1]; omega

/-- The output array after the pipeline. -/
theorem final_out (d : Dev nD) : (dat1 m d).arrAt 1 cfg1.N = val3 m d :=
  (dat1 m d).arrAt_eq_of_cover 1 (val3 m d) (fun t _ => flushed_eq m d t) (cover)

/-- The index array after the pipeline: as entered. -/
theorem final_in (d : Dev nD) : (dat1 m d).arrAt 0 cfg1.N = Vr m d (Pipeline.arrRef spec1 0) :=
  ((dat1 m d).arrAt_in 0 rfl _).trans (A_eq m d 0)

end Cert.KernelIdeal.Hand

end
-- ==== Proof.KernelIdealHand.Vals.lean ====
/-
  The main core's buffers at each step of @main, as valuations: the launch memory; after the first re-laying; after
  the first kernel's call (the capped array at its values); after the second re-laying — what the pipeline is entered
  from —; at the pipeline's exit (its two arrays at what the proof data compute); after the last re-laying.
-/
import proofs.«206731_g35192962023934_cont_8to1_b_663_28_alg».proof.Proof.KernelIdealHand.Final
import Idealize.ShloMosaic.Lib.Pipeline.Frame
import Idealize.ShloMosaic.Lib.Pipeline.FrameSuffix

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

abbrev op0 : HloOp τ sig (Elt F) := StableHlo.reshape main_arg0 main_v0 rfl Facts₀.shapeCasts_S16384x50_S6400x128
abbrev op2 : HloOp τ sig (Elt F) := StableHlo.reshape main_v1 main_v2 rfl Facts₀.shapeCasts_S6400x128_S819200
abbrev op4 : HloOp τ sig (Elt F) := StableHlo.reshape main_v3 main_v4 rfl Facts₀.shapeCasts_S819200x128_S16384x50x128

abbrev r0 : DevRef τ sig := Proc.devRef .tc (main_arg0 : Ref sig .tc)
abbrev r1 : DevRef τ sig := Proc.devRef .tc (main_arg1 : Ref sig .tc)
abbrev rv0 : DevRef τ sig := Proc.devRef .tc (main_v0 : Ref sig .tc)
abbrev rv1 : DevRef τ sig := Proc.devRef .tc (main_v1 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)

def W0 (d : Dev nD) : Valuation τ sig (Elt F) := fun b => m (d, b)
def W1 (d : Dev nD) : Valuation τ sig (Elt F) := (op0 (F := F)).result (W0 m d)
def W2 (d : Dev nD) : Valuation τ sig (Elt F) := Function.update (W1 m d) rv1 (val1 m d)
def W3 (d : Dev nD) : Valuation τ sig (Elt F) := (op2 (F := F)).result (W2 m d)
def W4 (d : Dev nD) : Valuation τ sig (Elt F) := Pipeline.withArrays spec1 d (W3 m d) fun w => (dat1 m d).arrAt w cfg1.N
def W5 (d : Dev nD) : Valuation τ sig (Elt F) := (op4 (F := F)).result (W4 m d)

theorem W1_v0 (d : Dev nD) : W1 m d rv0 = val0 m d := by
  unfold W1; rw [StableHlo.reshape_result]; rfl
theorem W1_of_ne (d : Dev nD) (b : DevRef τ sig) (hb : b ≠ rv0) : W1 m d b = W0 m d b :=
  (op0 (F := F)).result_of_not_mem (W0 m d) (fun h => hb (Finset.mem_singleton.mp h))
theorem W2_v1 (d : Dev nD) : W2 m d rv1 = val1 m d := Function.update_self _ _ _
theorem W2_of_ne (d : Dev nD) (b : DevRef τ sig) (hb : b ≠ rv1) : W2 m d b = W1 m d b := Function.update_of_ne hb _ _
theorem W3_v2 (d : Dev nD) : W3 m d rv2 = val2 m d := by
  unfold W3; rw [StableHlo.reshape_result, W2_v1]; rfl
theorem W3_of_ne (d : Dev nD) (b : DevRef τ sig) (hb : b ≠ rv2) : W3 m d b = W2 m d b :=
  (op2 (F := F)).result_of_not_mem (W2 m d) (fun h => hb (Finset.mem_singleton.mp h))

/-- The pipeline's entry contents, read at the main core's references, are `Vr`. -/
theorem W3_eq (d : Dev nD) (b : Ref sig .tc) : W3 m d (Proc.devRef .tc b) = Vr m d b := by
  unfold Vr
  by_cases h2 : b = main_v2
  · subst h2; rw [Function.update_self]; exact W3_v2 m d
  rw [Function.update_of_ne h2, W3_of_ne m d _ (fun e => h2 (Proc.devRef_injective _ e))]
  by_cases h1 : b = main_v1
  · subst h1; rw [Function.update_self]; exact W2_v1 m d
  rw [Function.update_of_ne h1, W2_of_ne m d _ (fun e => h1 (Proc.devRef_injective _ e))]
  by_cases h0 : b = main_v0
  · subst h0; rw [Function.update_self]; exact W1_v0 m d
  rw [Function.update_of_ne h0, W1_of_ne m d _ (fun e => h0 (Proc.devRef_injective _ e))]
  rfl

theorem W4_arr (d : Dev nD) (w : Fin cfg1.W) :
    W4 m d (Proc.devRef .tc (Pipeline.arrRef spec1 w)) = (dat1 m d).arrAt w cfg1.N := by
  unfold W4; exact Pipeline.withArrays_arr spec1 launch1.win.arr_inj d _ _ w
theorem W4_of_ne (d : Dev nD) (b : Ref sig .tc) (hb : ∀ w, Pipeline.arrRef spec1 w ≠ b) :
    W4 m d (Proc.devRef .tc b) = W3 m d (Proc.devRef .tc b) := by
  unfold W4; exact Pipeline.withArrays_of_ne spec1 d _ _ b hb

/-- The valuations read at the main core's references. -/
abbrev V3 (d : Dev nD) : (b : Ref sig .tc) → Buf (Elt F) ((d : Thread nD τ).loc b) := fun b => W3 m d (Proc.devRef .tc b)
abbrev V4 (d : Dev nD) : (b : Ref sig .tc) → Buf (Elt F) ((d : Thread nD τ).loc b) := fun b => W4 m d (Proc.devRef .tc b)

theorem V3_eq (d : Dev nD) : V3 m d = Vr m d := funext (W3_eq m d)

theorem hF (d : Dev nD) (w : Fin cfg1.W) : (dat1 m d).arrAt w cfg1.N = V4 m d (Pipeline.arrRef spec1 w) := (W4_arr m d w).symm
theorem hrest (d : Dev nD) : ∀ b, b ∉ Finset.univ.image (Pipeline.arrRef spec1) → V4 m d b = V3 m d b :=
  fun b hb => W4_of_ne m d b fun w e => hb (Finset.mem_image.mpr ⟨w, Finset.mem_univ _, e⟩)

/-- After the pipeline the output array holds `val3`; -/
theorem W4_v3 (d : Dev nD) : W4 m d rv3 = val3 m d := (W4_arr m d 1).trans (final_out m d)
/-- after the last re-laying the result array holds `val4`; -/
theorem W5_v4 (d : Dev nD) : W5 m d rv4 = val4 m d := by
  unfold W5; rw [StableHlo.reshape_result, W4_v3]; rfl
/-- and the two arguments are as launched: no step writes them. -/
theorem W5_arg (d : Dev nD) (b : Ref sig .tc) (h4 : b ≠ main_v4) (hw : ∀ w, Pipeline.arrRef spec1 w ≠ b) (h2 : b ≠ main_v2) (h1 : b ≠ main_v1) (h0 : b ≠ main_v0) :
    W5 m d (Proc.devRef .tc b) = m ((SparseCore.T d : Thread nD τ).loc b) := by
  unfold W5
  rw [(op4 (F := F)).result_of_not_mem (W4 m d) (fun h => h4 (Proc.devRef_injective _ (Finset.mem_singleton.mp h))),
    W4_of_ne m d b hw, W3_eq]
  unfold Vr
  rw [Function.update_of_ne h2, Function.update_of_ne h1, Function.update_of_ne h0]

end Cert.KernelIdeal.Hand

end
-- ==== Proof.KernelIdealHand.TcLoop.lean ====
/-
  The second kernel's counted loop, one trip at a symbolic trip number.

  A trip reads sixteen consecutive words of the index block; each word is at most 50000, so it names a row of the
  50008-row table; the trip loads that row and stores it at the matching row of the output block. What the loop
  maintains is stated by rows: before trip `k` the first `16 k` rows of the output block hold, each, the table's row at
  the word of the index block with the same position. One store extends the rows done by one (the stored row reads
  back, the rows below are untouched), and sixteen of them make the trip.

  The table and the index block enter as functions: `R r c` is entry `c` of table row `r`, `W n` is word `n` of the
  block.
-/
import proofs.«206731_g35192962023934_cont_8to1_b_663_28_alg».proof.Proof.KernelIdealHand.Common
import Idealize.ShloMosaic.Lib.Exec
import Idealize.ShloMosaic.Lib.Tactic
import Idealize.ShloMosaic.Lib.Writes
import Idealize.ShloMosaic.Lib.Pipeline.FrameBody

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Facts₀ Facts

variable {F : FTy → Type} [FloatOps F]

local notation "𝕄" => MT nD τ sig (HIx 1) (Elt F) ℕ UU ℕ

/-! ## Words -/

/-- A nonnegative signed word capped at 50000 is at most 50000 as a number. -/
theorem minsi_toNat_le (x : BitVec 32) (h : x.toNat < 2 ^ 31) : (IntOp.minsi x 50000#32).toNat ≤ 50000 := by
  unfold IntOp.minsi
  split
  · rename_i hs
    have h1 : x.toInt < (50000#32 : BitVec 32).toInt := by simpa [BitVec.slt] using hs
    have h2 : x.toInt = x.toNat := by
      rw [BitVec.toInt_eq_toNat_cond]; simp; omega
    have h3 : (50000#32 : BitVec 32).toInt = 50000 := by decide
    omega
  · decide

/-- A word at most 50000 names a row of the 50008-row table. -/
theorem row_inb (w : BitVec 32) (h : w.toNat ≤ 50000) : ∀ a, (![(Scalar.indexCast w).toNat, 0] : Fin 2 → ℕ) a + S1x128.size a ≤ S50008x128.size a := by
  refine Fin.forall_fin_two.2 ⟨?_, ?_⟩
  · show (Scalar.indexCast w).toNat + 1 ≤ 50008
    unfold Scalar.indexCast; omega
  · show 0 + 128 ≤ 128
    omega

/-- The loop runs 512 trips. -/
theorem trips_eq : k1_t1_loop.trips = 512 := by decide

/-! ## The index block's words -/

section Words

variable (arg1 : Memref sig .tc .smem S8192 .i32) (harg1 : arg1.IsWhole) (x1 : Vec F S8192 .i32) (W : ℕ → BitVec 32)

/-- The word a trip reads at an offset of the index block: the one element of the one-word rectangle there. -/
abbrev wordAt (off : Fin 1 → Nat) (inb : ∀ a, off a + S1.size a ≤ S8192.size a) : BitVec 32 :=
  arg1.view.readAt (Elt F) (Rect.unit (s := S8192) off S1.size inb).toLoadRect (harg1.unread x1) (Shape.Idx.first (Facts₀.numel1_S1.symm ▸ Nat.one_pos))

/-- Reading one word at position `n` of a block whose `j`-th word is `W j` gives `W n`. -/
theorem wordAt_eq (hx1 : ∀ j : S8192.Idx, x1 j = W (j 0).val) (off : Fin 1 → Nat) (inb : ∀ a, off a + S1.size a ≤ S8192.size a)
    (n : ℕ) (hoff : off = ![n]) : wordAt (F := F) arg1 harg1 x1 off inb = W n := by
  subst hoff
  show arg1.view.readAt (Elt F) (Rect.unit (s := S8192) ![n] S1.size inb).toLoadRect (harg1.unread x1) _ = W n
  generalize Shape.Idx.first (Facts₀.numel1_S1.symm ▸ Nat.one_pos) = x
  rw [View.readAt_apply, harg1.read_unread, hx1]
  refine congrArg W ?_
  have hx : (x 0).val = 0 := by have : (x 0).val < 1 := (x 0).isLt; omega
  show n + 1 * (x 0).val = n
  rw [hx, Nat.mul_zero, Nat.add_zero]

end Words

/-! ## Rows of the output block -/

section Rows

variable (arg3 : Memref sig .tc .vmem S8192x128 .f32) (arg4 : Memref sig .tc .vmem S50008x128 .f32) (harg4 : arg4.IsWhole)
  (x4 : Vec F S50008x128 .f32) (R : ℕ → Fin 128 → F .f32) (W : ℕ → BitVec 32)

/-- Rows below `n` of the output block hold the table's rows at the block's words. -/
def RowsDone (n : ℕ) (g : BufTy.Contents (Elt F) arg3.view.ty) : Prop :=
  ∀ y : S8192x128.Idx, (y 0).val < n → arg3.view.read (Elt F) g y = R (W (y 0).val).toNat (y 1)

/-- Storing, at row `n`, the table's row at word `W n` extends the rows done by one: the stored row reads back the
    table's row, and the rows below are untouched. -/
theorem rowsDone_store (hx4 : ∀ j : S50008x128.Idx, x4 j = R (j 0).val (j 1)) (n : ℕ) (f : BufTy.Contents (Elt F) arg3.view.ty)
    (L : List (View.Piece (Elt F) S8192x128 .f32))
    (off : Fin 2 → ℕ) (inb : ∀ a, off a + S1x128.size a ≤ S8192x128.size a) (hoff : off = ![n, 0])
    (w : BitVec 32) (hw : w = W n)
    (offw : Fin 2 → ℕ) (inbw : ∀ a, offw a + S1x128.size a ≤ S50008x128.size a) (hoffw : offw = ![w.toNat, 0])
    (h : RowsDone (F := F) arg3 R W n (arg3.view.writes (Elt F) f L)) :
    RowsDone (F := F) arg3 R W (n + 1) (arg3.view.writes (Elt F) f (⟨Rect.unit (s := S8192x128) off S1x128.size inb,
      arg4.view.readAt (Elt F) (Rect.unit (s := S50008x128) offw S1x128.size inbw).toLoadRect (harg4.unread x4)⟩ :: L)) := by
  subst hoff hoffw hw
  intro y hy
  by_cases hyn : (y 0).val = n
  · have hmem : y ∈ (Rect.unit (s := S8192x128) ![n, 0] S1x128.size inb).set := by
      rw [Rect.mem_set_unit]
      refine Fin.forall_fin_two.2 ⟨?_, ?_⟩
      · show n ≤ (y 0).val ∧ (y 0).val < n + 1
        omega
      · show 0 ≤ (y 1).val ∧ (y 1).val < 0 + 128
        have : (y 1).val < 128 := (y 1).isLt
        exact ⟨Nat.zero_le _, by omega⟩
    obtain ⟨x, rfl⟩ := (Rect.unit (s := S8192x128) ![n, 0] S1x128.size inb).exists_idx_of_mem hmem
    rw [show (Rect.unit (s := S8192x128) ![n, 0] S1x128.size inb).toLoadRect.idx x = (Rect.unit (s := S8192x128) ![n, 0] S1x128.size inb).emb x from rfl,
      View.read_writes_cons_emb, View.readAt_apply, harg4.read_unread, hx4]
    have hx0 : (x 0).val = 0 := by have : (x 0).val < 1 := (x 0).isLt; omega
    refine congrArg₂ R ?_ ?_
    · show (W n).toNat + 1 * (x 0).val = (W (n + 1 * (x 0).val)).toNat
      rw [hx0, Nat.mul_zero, Nat.add_zero, Nat.add_zero]
    · exact Fin.ext (by show 0 + 1 * (x 1).val = 0 + 1 * (x 1).val; rfl)
  · have hlt : (y 0).val < n := by omega
    rw [View.writes_cons, View.read_slice_write_of_not_mem _ _ _ _ (by
      rw [Rect.map_emb_univ, Rect.mem_set_unit]; intro hh
      have h2 : n ≤ (y 0).val := (hh 0).1
      omega)]
    exact h y hlt

end Rows

/-! ## The loop -/

section Loop

variable (𝒱 : Variants) (c : Dev nD) (bd : Option 𝒱.V) (E : Set ℕ) (i : grid1.Coords)
  (arg1 : Memref sig .tc .smem S8192 .i32) (harg1 : arg1.IsWhole) (arg2 : Memref sig .tc .hbm S50000x128 .f32) (harg2 : arg2.IsWhole)
  (arg3 : Memref sig .tc .vmem S8192x128 .f32) (harg3 : arg3.IsWhole) (arg4 : Memref sig .tc .vmem S50008x128 .f32) (harg4 : arg4.IsWhole)
  (arg5 : DmaSems sig S_) (x1 : Vec F S8192 .i32) (x4 : Vec F S50008x128 .f32) (R : ℕ → Fin 128 → F .f32) (W : ℕ → BitVec 32)

/-- The loop's invariant before trip `k`: the index block and the table as they were, and the output block with its first
    `16 k` rows done. -/
def loopInv (k : ℕ) (_ : Unit) : sProp 𝕄 :=
  iprop((arg1.view.loc (c : Thread nD τ) ↦[arg1.view.set]{fullShare} harg1.unread x1)
    ∗ (arg4.view.loc (c : Thread nD τ) ↦[arg4.view.set]{fullShare} harg4.unread x4)
    ∗ ∃ f, (arg3.view.loc (c : Thread nD τ) ↦[arg3.view.set]{fullShare} f) ∗ ⌜RowsDone (F := F) arg3 R W (16 * k) f⌝)

/-- Each check the trip assumes of a word it read holds of a word at most 50000. -/
theorem chk_of_le (w : BitVec 32) (h : w.toNat ≤ 50000) : ∀ a, (![(Scalar.indexCast w).toNat, 0] : Fin 2 → ℕ) a + S1x128.size a ≤ S50008x128.size a :=
  row_inb w h

set_option maxHeartbeats 1000000 in
/-- ONE TRIP at a symbolic `k`: sixteen times a word of the index block is read, the table's row it names is loaded and
    stored at the next row of the output block. -/
theorem trip (hx1 : ∀ j : S8192.Idx, x1 j = W (j 0).val) (hle : ∀ n, (W n).toNat ≤ 50000)
    (hx4 : ∀ j : S50008x128.Idx, x4 j = R (j 0).val (j 1)) (k : Fin k1_t1_loop.trips) (acc : Unit) :
    loopInv (F := F) c arg1 harg1 arg3 arg4 harg4 x1 x4 R W k.val acc
      ⊢ wp (M := 𝕄) frame (wpE (defs₀ (F := F)) 𝒱 (c : Thread nD τ) bd) E (k1_t1_body (F := F) i arg1 harg1 arg2 harg2 arg3 harg3 arg4 harg4 arg5 k acc)
          (loopInv (F := F) c arg1 harg1 arg3 arg4 harg4 x1 x4 R W (k.val + 1)) := by
  have hk : k.val < 512 := Nat.lt_of_lt_of_le k.isLt k1_t1_abs.2.1
  have hc1 : k1_chk1 (wordAt (F := F) arg1 harg1 x1 (k1_off1 k) (Facts₀.k1_off1_inb k)) :=
    chk_of_le _ (by rw [wordAt_eq arg1 harg1 x1 W hx1 _ _ _ (Gen.k1_off1_eq k)]; exact hle _)
  have hc2 : k1_chk2 (wordAt (F := F) arg1 harg1 x1 (k1_off4 k) (Facts₀.k1_off4_inb k)) :=
    chk_of_le _ (by rw [wordAt_eq arg1 harg1 x1 W hx1 _ _ _ (Gen.k1_off4_eq k)]; exact hle _)
  have hc3 : k1_chk3 (wordAt (F := F) arg1 harg1 x1 (k1_off7 k) (Facts₀.k1_off7_inb k)) :=
    chk_of_le _ (by rw [wordAt_eq arg1 harg1 x1 W hx1 _ _ _ (Gen.k1_off7_eq k)]; exact hle _)
  have hc4 : k1_chk4 (wordAt (F := F) arg1 harg1 x1 (k1_off10 k) (Facts₀.k1_off10_inb k)) :=
    chk_of_le _ (by rw [wordAt_eq arg1 harg1 x1 W hx1 _ _ _ (Gen.k1_off10_eq k)]; exact hle _)
  have hc5 : k1_chk5 (wordAt (F := F) arg1 harg1 x1 (k1_off13 k) (Facts₀.k1_off13_inb k)) :=
    chk_of_le _ (by rw [wordAt_eq arg1 harg1 x1 W hx1 _ _ _ (Gen.k1_off13_eq k)]; exact hle _)
  have hc6 : k1_chk6 (wordAt (F := F) arg1 harg1 x1 (k1_off16 k) (Facts₀.k1_off16_inb k)) :=
    chk_of_le _ (by rw [wordAt_eq arg1 harg1 x1 W hx1 _ _ _ (Gen.k1_off16_eq k)]; exact hle _)
  have hc7 : k1_chk7 (wordAt (F := F) arg1 harg1 x1 (k1_off19 k) (Facts₀.k1_off19_inb k)) :=
    chk_of_le _ (by rw [wordAt_eq arg1 harg1 x1 W hx1 _ _ _ (Gen.k1_off19_eq k)]; exact hle _)
  have hc8 : k1_chk8 (wordAt (F := F) arg1 harg1 x1 (k1_off22 k) (Facts₀.k1_off22_inb k)) :=
    chk_of_le _ (by rw [wordAt_eq arg1 harg1 x1 W hx1 _ _ _ (Gen.k1_off22_eq k)]; exact hle _)
  have hc9 : k1_chk9 (wordAt (F := F) arg1 harg1 x1 (k1_off25 k) (Facts₀.k1_off25_inb k)) :=
    chk_of_le _ (by rw [wordAt_eq arg1 harg1 x1 W hx1 _ _ _ (Gen.k1_off25_eq k)]; exact hle _)
  have hc10 : k1_chk10 (wordAt (F := F) arg1 harg1 x1 (k1_off28 k) (Facts₀.k1_off28_inb k)) :=
    chk_of_le _ (by rw [wordAt_eq arg1 harg1 x1 W hx1 _ _ _ (Gen.k1_off28_eq k)]; exact hle _)
  have hc11 : k1_chk11 (wordAt (F := F) arg1 harg1 x1 (k1_off31 k) (Facts₀.k1_off31_inb k)) :=
    chk_of_le _ (by rw [wordAt_eq arg1 harg1 x1 W hx1 _ _ _ (Gen.k1_off31_eq k)]; exact hle _)
  have hc12 : k1_chk12 (wordAt (F := F) arg1 harg1 x1 (k1_off34 k) (Facts₀.k1_off34_inb k)) :=
    chk_of_le _ (by rw [wordAt_eq arg1 harg1 x1 W hx1 _ _ _ (Gen.k1_off34_eq k)]; exact hle _)
  have hc13 : k1_chk13 (wordAt (F := F) arg1 harg1 x1 (k1_off37 k) (Facts₀.k1_off37_inb k)) :=
    chk_of_le _ (by rw [wordAt_eq arg1 harg1 x1 W hx1 _ _ _ (Gen.k1_off37_eq k)]; exact hle _)
  have hc14 : k1_chk14 (wordAt (F := F) arg1 harg1 x1 (k1_off40 k) (Facts₀.k1_off40_inb k)) :=
    chk_of_le _ (by rw [wordAt_eq arg1 harg1 x1 W hx1 _ _ _ (Gen.k1_off40_eq k)]; exact hle _)
  have hc15 : k1_chk15 (wordAt (F := F) arg1 harg1 x1 (k1_off43 k) (Facts₀.k1_off43_inb k)) :=
    chk_of_le _ (by rw [wordAt_eq arg1 harg1 x1 W hx1 _ _ _ (Gen.k1_off43_eq k)]; exact hle _)
  have hc16 : k1_chk16 (wordAt (F := F) arg1 harg1 x1 (k1_off46 k) (Facts₀.k1_off46_inb k)) :=
    chk_of_le _ (by rw [wordAt_eq arg1 harg1 x1 W hx1 _ _ _ (Gen.k1_off46_eq k)]; exact hle _)
  unfold loopInv k1_t1_body
  iintro ⟨HR_arg1, HR_arg4, ⟨%f, HW_arg3, %hf⟩⟩
  have hf0 : RowsDone (F := F) arg3 R W (16 * k.val + 0) (arg3.view.writes (Elt F) f []) := hf
  sl_exec (disch := first | sl_exact hc1 | sl_exact hc2 | sl_exact hc3 | sl_exact hc4 | sl_exact hc5 | sl_exact hc6 | sl_exact hc7 | sl_exact hc8 | sl_exact hc9 | sl_exact hc10 | sl_exact hc11 | sl_exact hc12 | sl_exact hc13 | sl_exact hc14 | sl_exact hc15 | sl_exact hc16)
  sl_step
  isplitl [HR_arg1]; · iexact HR_arg1
  isplitl [HR_arg4]; · iexact HR_arg4
  iexists _; isplitl [HW_arg3]; · iexact HW_arg3
  ipureintro
  suffices hall : RowsDone (F := F) arg3 R W (16 * k.val + 15 + 1) _ from fun y hy => hall y (by omega)
  exact (rowsDone_store arg3 arg4 harg4 x4 R W hx4 (16 * k.val + 15) f _ _ _ (Gen.k1_off48_eq k) _
      (wordAt_eq arg1 harg1 x1 W hx1 _ (Facts₀.k1_off46_inb k) _ (Gen.k1_off46_eq k)) _ _ rfl
      (rowsDone_store arg3 arg4 harg4 x4 R W hx4 (16 * k.val + 14) f _ _ _ (Gen.k1_off45_eq k) _
      (wordAt_eq arg1 harg1 x1 W hx1 _ (Facts₀.k1_off43_inb k) _ (Gen.k1_off43_eq k)) _ _ rfl
      (rowsDone_store arg3 arg4 harg4 x4 R W hx4 (16 * k.val + 13) f _ _ _ (Gen.k1_off42_eq k) _
      (wordAt_eq arg1 harg1 x1 W hx1 _ (Facts₀.k1_off40_inb k) _ (Gen.k1_off40_eq k)) _ _ rfl
      (rowsDone_store arg3 arg4 harg4 x4 R W hx4 (16 * k.val + 12) f _ _ _ (Gen.k1_off39_eq k) _
      (wordAt_eq arg1 harg1 x1 W hx1 _ (Facts₀.k1_off37_inb k) _ (Gen.k1_off37_eq k)) _ _ rfl
      (rowsDone_store arg3 arg4 harg4 x4 R W hx4 (16 * k.val + 11) f _ _ _ (Gen.k1_off36_eq k) _
      (wordAt_eq arg1 harg1 x1 W hx1 _ (Facts₀.k1_off34_inb k) _ (Gen.k1_off34_eq k)) _ _ rfl
      (rowsDone_store arg3 arg4 harg4 x4 R W hx4 (16 * k.val + 10) f _ _ _ (Gen.k1_off33_eq k) _
      (wordAt_eq arg1 harg1 x1 W hx1 _ (Facts₀.k1_off31_inb k) _ (Gen.k1_off31_eq k)) _ _ rfl
      (rowsDone_store arg3 arg4 harg4 x4 R W hx4 (16 * k.val + 9) f _ _ _ (Gen.k1_off30_eq k) _
      (wordAt_eq arg1 harg1 x1 W hx1 _ (Facts₀.k1_off28_inb k) _ (Gen.k1_off28_eq k)) _ _ rfl
      (rowsDone_store arg3 arg4 harg4 x4 R W hx4 (16 * k.val + 8) f _ _ _ (Gen.k1_off27_eq k) _
      (wordAt_eq arg1 harg1 x1 W hx1 _ (Facts₀.k1_off25_inb k) _ (Gen.k1_off25_eq k)) _ _ rfl
      (rowsDone_store arg3 arg4 harg4 x4 R W hx4 (16 * k.val + 7) f _ _ _ (Gen.k1_off24_eq k) _
      (wordAt_eq arg1 harg1 x1 W hx1 _ (Facts₀.k1_off22_inb k) _ (Gen.k1_off22_eq k)) _ _ rfl
      (rowsDone_store arg3 arg4 harg4 x4 R W hx4 (16 * k.val + 6) f _ _ _ (Gen.k1_off21_eq k) _
      (wordAt_eq arg1 harg1 x1 W hx1 _ (Facts₀.k1_off19_inb k) _ (Gen.k1_off19_eq k)) _ _ rfl
      (rowsDone_store arg3 arg4 harg4 x4 R W hx4 (16 * k.val + 5) f _ _ _ (Gen.k1_off18_eq k) _
      (wordAt_eq arg1 harg1 x1 W hx1 _ (Facts₀.k1_off16_inb k) _ (Gen.k1_off16_eq k)) _ _ rfl
      (rowsDone_store arg3 arg4 harg4 x4 R W hx4 (16 * k.val + 4) f _ _ _ (Gen.k1_off15_eq k) _
      (wordAt_eq arg1 harg1 x1 W hx1 _ (Facts₀.k1_off13_inb k) _ (Gen.k1_off13_eq k)) _ _ rfl
      (rowsDone_store arg3 arg4 harg4 x4 R W hx4 (16 * k.val + 3) f _ _ _ (Gen.k1_off12_eq k) _
      (wordAt_eq arg1 harg1 x1 W hx1 _ (Facts₀.k1_off10_inb k) _ (Gen.k1_off10_eq k)) _ _ rfl
      (rowsDone_store arg3 arg4 harg4 x4 R W hx4 (16 * k.val + 2) f _ _ _ (Gen.k1_off9_eq k) _
      (wordAt_eq arg1 harg1 x1 W hx1 _ (Facts₀.k1_off7_inb k) _ (Gen.k1_off7_eq k)) _ _ rfl
      (rowsDone_store arg3 arg4 harg4 x4 R W hx4 (16 * k.val + 1) f _ _ _ (Gen.k1_off6_eq k) _
      (wordAt_eq arg1 harg1 x1 W hx1 _ (Facts₀.k1_off4_inb k) _ (Gen.k1_off4_eq k)) _ _ rfl
      (rowsDone_store arg3 arg4 harg4 x4 R W hx4 (16 * k.val + 0) f _ _ _ (Gen.k1_off3_eq k) _
      (wordAt_eq arg1 harg1 x1 W hx1 _ (Facts₀.k1_off1_inb k) _ (Gen.k1_off1_eq k)) _ _ rfl
      hf0))))))))))))))))

end Loop

end Cert.KernelIdeal.Hand
end
-- ==== Proof.KernelIdealHand.TcBody.lean ====
/-
  The second kernel's body at a generic grid point, and the pipeline's body obligation.

  At the first point the body builds the table in its scratch buffer: the weight array's 50000 rows are copied into
  rows [0, 50000) and eight rows of zeros are stored at rows [50000, 50008); the two parts are disjoint and together
  are the whole buffer, so after the copy has landed the buffer reads, index by index, as the table (row `r` is the
  weight row below 50000 and zeros from there on). At every later point the table is what the first point left. Then,
  at every point, the loop gathers: row `r` of the output block becomes the table's row at word `r` of the index
  block, and word `r` of the block at point `t` is capped index `8192 t + r` of the flat array, at most 50000 because
  the launch indices are nonnegative.
-/
import proofs.«206731_g35192962023934_cont_8to1_b_663_28_alg».proof.Proof.KernelIdealHand.Common
import proofs.«206731_g35192962023934_cont_8to1_b_663_28_alg».proof.Proof.KernelIdealHand.TcLoop
import Idealize.ShloMosaic.Lib.Exec
import Idealize.ShloMosaic.Lib.Pipeline.Value
import Idealize.ShloMosaic.Lib.Pipeline.FrameBody
import Idealize.ShloMosaic.Lib.Memref
import Idealize.ShloMosaic.Lib.Tactic
import Idealize.ShloMosaic.Lib.Writes
import Idealize.ShloMosaic.Lib.Pipeline.FrameBody

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Facts₀ Facts

variable {F : FTy → Type} [FloatOps F]

local notation "𝕄" => MT nD τ sig (HIx 1) (Elt F) ℕ UU ℕ

variable (m : (ℓ : Loc nD τ sig) → Buf (Elt F) ℓ)

/-! ## Which case a point is in -/

/-- The body's branch condition, from the grid coordinate. -/
abbrev cond1 (i : grid1.Coords) : Prop :=
  (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val = 0 :=
  (by decide +kernel : ∀ t : Fin grid1.N, cond1 (grid1.coords t) ↔ t.val = 0)

/-! ## The later points: the loop alone -/

section Later

variable (c : Dev nD) (E : Set ℕ) (i : grid1.Coords)
  (arg1 : Memref sig .tc .smem S8192 .i32) (harg1 : arg1.IsWhole) (arg2 : Memref sig .tc .hbm S50000x128 .f32) (harg2 : arg2.IsWhole)
  (arg3 : Memref sig .tc .vmem S8192x128 .f32) (harg3 : arg3.IsWhole) (arg4 : Memref sig .tc .vmem S50008x128 .f32) (harg4 : arg4.IsWhole)
  (arg5 : DmaSems sig S_) (x1 : Vec F S8192 .i32) (x4 : Vec F S50008x128 .f32) (R : ℕ → Fin 128 → F .f32) (W : ℕ → BitVec 32)

set_option maxHeartbeats 1000000 in
/-- The body at a point that is not the first, on any staging memrefs: the branch is not taken, the loop gathers the
    rows, and the index block and the table come back as they were. -/
theorem run_later (hc : ¬ cond1 i) (hx1 : ∀ j : S8192.Idx, x1 j = W (j 0).val) (hle : ∀ n, (W n).toNat ≤ 50000)
    (hx4 : ∀ j : S50008x128.Idx, x4 j = R (j 0).val (j 1)) (K : PUnit → sProp 𝕄) :
    iprop(owns (c : Thread nD τ) arg1 fullShare x1 ∗ owns (c : Thread nD τ) arg4 fullShare x4 ∗ (∃ e, owns (c : Thread nD τ) arg3 fullShare e)
        ∗ (iprop(owns (c : Thread nD τ) arg1 fullShare x1 ∗ owns (c : Thread nD τ) arg4 fullShare x4
            ∗ owns (c : Thread nD τ) arg3 fullShare (fun y : S8192x128.Idx => R (W (y 0).val).toNat (y 1))) -∗ K ⟨⟩))
      ⊢ wp (M := 𝕄) frame (wpE (defs₀ (F := F)) Variants.none (c : Thread nD τ) none) E (cc1__tc_body i arg1 harg1 arg2 harg2 arg3 harg3 arg4 harg4 arg5) K := by
  simp only [cc1__tc_body_eq_skeleton]; unfold cc1__tc_body_skel
  unfold owns
  iintro ⟨⟨%f1, %hf1, H1⟩, ⟨%f4, %hf4, H4⟩, ⟨%e3, %f3, -, H3⟩, Hk⟩
  obtain rfl := harg1.eq_unread hf1; obtain rfl := harg4.eq_unread hf4
  sl_exec (disch := first | sl_exact hc)
  sl_for (loopInv (F := F) c arg1 harg1 arg3 arg4 harg4 x1 x4 R W) $$ [H1 H4 H3]
  case region =>
    intro k acc
    exact trip Variants.none c none E i arg1 harg1 arg2 harg2 arg3 harg3 arg4 harg4 arg5 x1 x4 R W hx1 hle hx4 k acc
  · unfold loopInv
    isplitl [H1]; · iexact H1
    isplitl [H4]; · iexact H4
    iexists _; isplitl [H3]; · iexact H3
    ipureintro; intro y hy; exact absurd hy (by omega)
  iintro %acc HI
  unfold loopInv
  icases HI with ⟨H1, H4, %f, H3, %hf⟩
  sl_exec
  sl_step
  iapply Hk
  isplitl [H1]
  · iexists _; isplitr; · ipureintro; exact harg1.read_unread _
    iexact H1
  isplitl [H4]
  · iexists _; isplitr; · ipureintro; exact harg4.read_unread _
    iexact H4
  iexists _; isplitr; swap; · iexact H3
  ipureintro
  funext y
  have ht : Scf.trips k1_t1_loop.lb k1_t1_loop.ub k1_t1_loop.st = 512 := trips_eq
  exact hf y (by rw [ht]; have : (y 0).val < 8192 := (y 0).isLt; omega)

end Later

/-! ## The table the first point builds -/

section Table

variable (c : Dev nD) (arg4 : Memref sig .tc .vmem S50008x128 .f32) (harg4 : arg4.IsWhole) (R : ℕ → Fin 128 → F .f32)

/-- The table as one function of its index: row `r`, column `c` holds `R r c`. -/
abbrev tab : Vec F S50008x128 .f32 := fun j : S50008x128.Idx => R (j 0).val (j 1)

/-- The rows copied from the weight array and the eight rows of zeros stored after them read back, together, as the table. -/
theorem table_read (f : BufTy.Contents (Elt F) arg4.view.ty)
    (inb8 : ∀ a, (![50000, 0] : Fin 2 → ℕ) a + S8x128.size a ≤ S50008x128.size a)
    (w8 : (Rect.unit (s := S50008x128) ![50000, 0] S8x128.size inb8).shape.Idx → F .f32)
    (inb0 : ∀ a, (![0, 0] : Fin 2 → ℕ) a + S50000x128.size a ≤ S50008x128.size a)
    (w0 : (Rect.unit (s := S50008x128) ![0, 0] S50000x128.size inb0).shape.Idx → F .f32)
    (h8 : ∀ x, w8 x = R (50000 + (x 0).val) (x 1)) (h0 : ∀ x, w0 x = R (x 0).val (x 1)) :
    arg4.view.read (Elt F) (arg4.view.writes (Elt F) f
      [⟨Rect.unit (s := S50008x128) ![50000, 0] S8x128.size inb8, w8⟩, ⟨Rect.unit (s := S50008x128) ![0, 0] S50000x128.size inb0, w0⟩])
      = tab (F := F) R := by
  funext j
  refine View.read_writes_apply_of_pieces arg4.view f (tab (F := F) R) _ ?hG j ?hc
  case hG =>
    intro p hp x
    simp only [List.mem_cons, List.not_mem_nil, or_false] at hp
    rcases hp with rfl | rfl
    · show w8 x = tab (F := F) R ((Rect.unit (s := S50008x128) ![50000, 0] S8x128.size inb8).emb x)
      rw [h8]
      refine congrArg₂ R ?_ (Fin.ext ?_)
      · show 50000 + (x 0).val = 50000 + 1 * (x 0).val
        omega
      · show (x 1).val = 0 + 1 * (x 1).val
        omega
    · show w0 x = tab (F := F) R ((Rect.unit (s := S50008x128) ![0, 0] S50000x128.size inb0).emb x)
      rw [h0]
      refine congrArg₂ R ?_ (Fin.ext ?_)
      · show (x 0).val = 0 + 1 * (x 0).val
        omega
      · show (x 1).val = 0 + 1 * (x 1).val
        omega
  case hc =>
    have h0' : (j 0).val < 50008 := (j 0).isLt
    have h1' : (j 1).val < 128 := (j 1).isLt
    by_cases h : (j 0).val < 50000
    · refine ⟨_, List.mem_cons_of_mem _ (List.mem_cons_self ..), ?_⟩
      rw [Rect.mem_set_unit]
      refine Fin.forall_fin_two.2 ⟨?_, ?_⟩
      · show 0 ≤ (j 0).val ∧ (j 0).val < 0 + 50000
        omega
      · show 0 ≤ (j 1).val ∧ (j 1).val < 0 + 128
        omega
    · refine ⟨_, List.mem_cons_self .., ?_⟩
      rw [Rect.mem_set_unit]
      refine Fin.forall_fin_two.2 ⟨?_, ?_⟩
      · show 50000 ≤ (j 0).val ∧ (j 0).val < 50000 + 8
        omega
      · show 0 ≤ (j 1).val ∧ (j 1).val < 0 + 128
        omega

/-- A whole buffer held at contents that read as `X` is held at `X`. -/
theorem reown {q : PosShare TreeShare} (g : BufTy.Contents (Elt F) arg4.view.ty) (X : Vec F S50008x128 .f32) (h : arg4.view.read (Elt F) g = X) :
    (arg4.view.loc (c : Thread nD τ) ↦[arg4.view.set]{q} g : sProp 𝕄) ⊢ (arg4.view.loc (c : Thread nD τ) ↦[arg4.view.set]{q} harg4.unread X) := by
  rw [harg4.eq_unread h]

/-- The zeros stored after the copied rows. -/
theorem pay1_apply (hR0 : ∀ r, 50000 ≤ r → ∀ c, R r c = Scalar.ofBits .f32 0x00000000#32) (x : S8x128.Idx) :
    k1_pay1 (F := F) x = R (50000 + (x 0).val) (x 1) := by
  show shapeCast S8x128 (broadcast S8x128 (Scalar.ofBits .f32 0x00000000#32 : F .f32)) Facts₀.shapeCasts_S8x128_S8x128 x = _
  rw [shapeCast_self]
  exact (hR0 _ (by omega) _).symm

end Table

section First

variable (c : Dev nD) (i : grid1.Coords)
  (arg1 : Memref sig .tc .smem S8192 .i32) (harg1 : arg1.IsWhole) (arg2 : Memref sig .tc .hbm S50000x128 .f32) (harg2 : arg2.IsWhole)
  (arg3 : Memref sig .tc .vmem S8192x128 .f32) (harg3 : arg3.IsWhole) (arg4 : Memref sig .tc .vmem S50008x128 .f32) (harg4 : arg4.IsWhole)
  (arg5 : DmaSems sig S_) (x1 : Vec F S8192 .i32) (x2 : Vec F S50000x128 .f32) (R : ℕ → Fin 128 → F .f32) (W : ℕ → BitVec 32)

set_option maxHeartbeats 1000000 in
set_option sl_exec.dmaWindow true in
set_option sl_exec.dmaWindowSet true in
set_option sl_exec.dmaWindowLent true in
/-- The body at the first point, on any staging memrefs: the weight rows are copied into the table's first 50000 rows
    while the eight rows after them are zeroed (the copy takes only its own rows of the buffer, the store the rest); after
    the copy has landed the buffer is whole again and reads as the table; then the loop gathers the rows. The copy's
    wait is recorded at the kernel's own semaphore. -/
theorem run_first (hc : cond1 i) (hx1 : ∀ j : S8192.Idx, x1 j = W (j 0).val) (hle : ∀ n, (W n).toNat ≤ 50000)
    (hR2 : ∀ j : S50000x128.Idx, x2 j = R (j 0).val (j 1)) (hR0 : ∀ r, 50000 ≤ r → ∀ c, R r c = Scalar.ofBits .f32 0x00000000#32)
    (Wt : Waits sig (HIx 1)) (K : PUnit → sProp 𝕄) :
    iprop(owns (c : Thread nD τ) arg1 fullShare x1 ∗ owns (c : Thread nD τ) arg2 fullShare x2 ∗ (∃ e, owns (c : Thread nD τ) arg4 fullShare e) ∗ (∃ e, owns (c : Thread nD τ) arg3 fullShare e)
        ∗ semVal ((c : Thread nD τ), SemLoc.dma arg5.sem) 0 ∗ owes (c : Thread nD τ) (0 : CellTallies nD τ sig (HIx 1)) Wt
        ∗ (iprop(owns (c : Thread nD τ) arg1 fullShare x1 ∗ owns (c : Thread nD τ) arg2 fullShare x2 ∗ owns (c : Thread nD τ) arg4 fullShare (tab (F := F) R)
            ∗ owns (c : Thread nD τ) arg3 fullShare (fun y : S8192x128.Idx => R (W (y 0).val).toNat (y 1))
            ∗ semVal ((c : Thread nD τ), SemLoc.dma arg5.sem) 0
            ∗ owes (c : Thread nD τ) (0 : CellTallies nD τ sig (HIx 1)) (insert (SemLoc.dma arg5.sem, (none : HIx 1)) Wt)) -∗ K ⟨⟩))
      ⊢ wp (M := 𝕄) frame (wpE (defs₀ (F := F)) Variants.none (c : Thread nD τ) none) Set.univ (cc1__tc_body i arg1 harg1 arg2 harg2 arg3 harg3 arg4 harg4 arg5) K := by
  simp only [cc1__tc_body_eq_skeleton]; unfold cc1__tc_body_skel
  unfold owns
  iintro ⟨⟨%f1, %hf1, H1⟩, ⟨%f2, %hf2, H2⟩, ⟨%e4, %f4, -, H4⟩, ⟨%e3, %f3, -, H3⟩, Hsem, HO, Hk⟩
  obtain rfl := harg1.eq_unread hf1; obtain rfl := harg2.eq_unread hf2
  sl_exec (disch := first | sl_exact hc)
  ihave H4' := (reown c arg4 harg4 _ (tab (F := F) R) ?hread) $$ H4
  case hread =>
    exact table_read arg4 R _ _ _ _ _ (pay1_apply R hR0) (fun x => (congrFun (harg2.read_unread x2) x).trans (hR2 x))
  sl_for (loopInv (F := F) c arg1 harg1 arg3 arg4 harg4 x1 (tab (F := F) R) R W) $$ [H1 H4' H3]
  case region =>
    intro k acc
    exact trip Variants.none c none Set.univ i arg1 harg1 arg2 harg2 arg3 harg3 arg4 harg4 arg5 x1 (tab (F := F) R) R W hx1 hle (fun _ => rfl) k acc
  · unfold loopInv
    isplitl [H1]; · iexact H1
    isplitl [H4']; · iexact H4'
    iexists _; isplitl [H3]; · iexact H3
    ipureintro; intro y hy; exact absurd hy (by omega)
  iintro %acc HI
  unfold loopInv
  icases HI with ⟨H1, H4, %f, H3, %hf⟩
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H3]
  · iexists _; isplitr; swap; · iexact H3
    ipureintro
    funext y
    have ht : Scf.trips k1_t1_loop.lb k1_t1_loop.ub k1_t1_loop.st = 512 := trips_eq
    exact hf y (by rw [ht]; have : (y 0).val < 8192 := (y 0).isLt; omega)
  isplitl [Hsem]; · iexact Hsem
  iexact HO

end First

/-! ## The values at a point -/

/-- Every capped index is at most 50000, the launch indices being nonnegative. -/
theorem val2_le (hpre : PreOK m) (d : Dev nD) (i : S819200.Idx) : ((val2 m d : S819200.Idx → BitVec 32) i).toNat ≤ 50000 := by
  unfold val2 val1 val0 shapeCast
  exact minsi_toNat_le _ (hpre d _)

/-- The index window's block at point `t` is block `t` of the flat array — decided over the grid. -/
theorem index1_0 : ∀ t : Fin cfg1.N, win1_0.index t (0 : Fin 1) = t.val :=
  (by decide +kernel : ∀ t : Fin grid1.N, win1_0.index t (0 : Fin 1) = t.val)

theorem Vr_v2 (d : Dev nD) : Vr m d main_v2 = val2 m d := by
  unfold Vr; exact Function.update_self _ _ _

/-- The words of the index window's block at point `t`, by position: word `n` is capped index `8192 t + n`. -/
def wordsAt (d : Dev nD) (t : Fin cfg1.N) (n : ℕ) : BitVec 32 :=
  if h : 8192 * t.val + n < 819200 then (val2 m d : S819200.Idx → BitVec 32) (ValueIdx.ix1 (n := 819200) ⟨8192 * t.val + n, h⟩) else 0#32

theorem iblk0_apply (d : Dev nD) (t : Fin cfg1.N) (j : S8192.Idx) :
    (iblk m d 0 t : S8192.Idx → BitVec 32) j = wordsAt m d t (j 0).val := by
  have ht : t.val < 100 := lt_of_lt_of_eq t.isLt N_1
  have hj : (j 0).val < 8192 := (j 0).isLt
  unfold wordsAt
  rw [dif_pos (by omega)]
  unfold iblk
  show Vr m d main_v2 (((cfg1.win 0).blk t).view.emb j) = _
  rw [Vr_v2]
  refine congrArg (val2 m d) (funext fun a => Fin.ext ?_)
  match a with
  | ⟨0, _⟩ =>
    show win1_0.index t 0 * 8192 + 1 * (j 0).val = 8192 * t.val + (j 0).val
    rw [index1_0 t]; omega

/-! ## The body at a generic point -/

section Point

/-- Row `r` of the table as a function of the weight array: its row below 50000, zeros from there on. -/
abbrev rowOf (d : Dev nD) : ℕ → Fin 128 → F .f32 :=
  fun r c => Cert.Spec.rowAt (m (a1Loc d) : Cert.Spec.STab.Idx → F .f32) r c

theorem rowOf_weights (d : Dev nD) (j : S50000x128.Idx) :
    (m (a1Loc d) : S50000x128.Idx → F .f32) j = rowOf m d (j 0).val (j 1) :=
  (congrArg (m (a1Loc d) : S50000x128.Idx → F .f32) (ValueIdx.eq_ix2 j)).trans
    (Cert.Spec.rowAt_lt (m (a1Loc d) : Cert.Spec.STab.Idx → F .f32) (show (j 0).val < 50000 from (j 0).isLt) (j 1)).symm

theorem rowOf_zero (d : Dev nD) (r : ℕ) (h : 50000 ≤ r) (c : Fin 128) : rowOf m d r c = Scalar.ofBits .f32 0x00000000#32 :=
  Cert.Spec.rowAt_ge _ h c

theorem tabV_eq (d : Dev nD) : tabV m d = tab (F := F) (rowOf m d) := rfl

theorem wordsAt_le (hpre : PreOK m) (d : Dev nD) (t : Fin cfg1.N) (n : ℕ) : (wordsAt m d t n).toNat ≤ 50000 := by
  unfold wordsAt
  split
  · exact val2_le m hpre d _
  · decide

/-- What the point leaves in the output block, over the block's words. -/
theorem outBlk_eq (d : Dev nD) (t : Fin cfg1.N) :
    outBlk m d t = fun y : S8192x128.Idx => rowOf m d (wordsAt m d t (y 0).val).toNat (y 1) := by
  funext y
  have ht : t.val < 100 := lt_of_lt_of_eq t.isLt N_1
  have hy : (y 0).val < 8192 := (y 0).isLt
  unfold outBlk rowOf wordsAt
  rw [dif_pos (show 8192 * t.val + (y 0).val < 819200 by omega)]

/-- The index window's current staging buffer holds its block at every point, fetched there or not. -/
theorem before1_0 (d : Dev nD) (t : Fin cfg1.N) (e) : (dat1 m d).before 0 t e = iblk m d 0 t :=
  ((dat1 m d).before_in_eq_fetched 0 rfl (fun _ => rfl) (fun _ _ _ => rfl)
    (fun t => by rw [after1_0]; unfold Dat.blockOf iblk; rw [A_eq]; try rfl) t e).trans
    (by unfold Dat.fetched Dat.blockOf iblk; rw [A_eq]; try rfl)

/-- What the body is called with at point `t`, the windows one by one, -/
def bodyPre (d : Dev nD) (t : Fin cfg1.N) : sProp 𝕄 :=
  iprop((dat1 m d).Φ t.castSucc ∗ (dat1 m d).owesAt none t.castSucc
    ∗ (∃ e, owns (d : Thread nD τ) (st1_0 t) fullShare ((dat1 m d).before 0 t e))
    ∗ (∃ e, owns (d : Thread nD τ) (st1_1 t) fullShare ((dat1 m d).before 1 t e)))

/-- and what it returns. -/
def bodyPost (d : Dev nD) (t : Fin cfg1.N) : sProp 𝕄 :=
  iprop((dat1 m d).Φ t.succ ∗ (dat1 m d).owesAt none t.succ
    ∗ owns (d : Thread nD τ) (st1_0 t) fullShare ((dat1 m d).after 0 t)
    ∗ owns (d : Thread nD τ) (st1_1 t) fullShare ((dat1 m d).after 1 t))

set_option maxHeartbeats 1600000 in
/-- The body at any point. At the first point the table is built — the weight rows copied in, the eight rows after them
    zeroed — before the rows are gathered; at every later point the table is the one the first point left. -/
theorem sound_body (hpre : PreOK m) (d : Dev nD) (t : Fin cfg1.N) :
    bodyPre m d t ⊢ wp frame (wpE (defs₀ (F := F)) Variants.none (d : Thread nD τ) none) Set.univ (bodyAt1 t) (fun _ => bodyPost m d t) := by
  unfold bodyPre bodyPost bodyAt1
  simp only [before1_0]
  rw [after1_0, after1_1, outBlk_eq, Phi_eq, Phi_eq]
  unfold PhiT
  by_cases h0 : t.val = 0
  · rw [if_pos (show t.castSucc.val = 0 from h0), if_neg (show t.succ.val ≠ 0 from Nat.succ_ne_zero _), tabV_eq]
    iintro ⟨⟨Hlv, Ha1, ⟨%f, Hscr⟩, Hsem⟩, ⟨%Wt, %hWt, HO⟩, ⟨%e0, H0⟩, ⟨%e1, H1⟩⟩
    iapply (run_first d (grid1.coords t) _ _ (Memref.whole main_arg1) (Memref.isWhole_whole _) _ _ (Memref.whole cc1_scratch0) (Memref.isWhole_whole _)
      cc1_scratch1 (iblk m d 0 t) (m (a1Loc d)) (rowOf m d) (wordsAt m d t) ((hcond1 t).mpr h0) (iblk0_apply m d t) (wordsAt_le m hpre d t)
      (rowOf_weights m d) (rowOf_zero m d) Wt _)
    isplitl [H0]; · iexact H0
    isplitl [Ha1]
    · iapply (Entails.of_eq (owns_whole (d : Thread nD τ) main_arg1 fullShare _).symm); iexact Ha1
    isplitl [Hscr]
    · iexists f; iapply (Entails.of_eq (owns_whole (d : Thread nD τ) cc1_scratch0 fullShare _).symm); iexact Hscr
    isplitl [H1]; · iexists _; iexact H1
    isplitl [Hsem]; · iexact Hsem
    isplitl [HO]; · iexact HO
    iintro ⟨H0, Ha1, Hscr, H1, Hsem, HO⟩
    isplitl [Hlv Ha1 Hscr Hsem]
    · isplitl [Hlv]; · iexact Hlv
      isplitl [Ha1]
      · iapply (Entails.of_eq (owns_whole (d : Thread nD τ) main_arg1 fullShare _)); iexact Ha1
      isplitl [Hscr]
      · iapply (Entails.of_eq (owns_whole (d : Thread nD τ) cc1_scratch0 fullShare _)); iexact Hscr
      iexact Hsem
    isplitl [HO]
    · iexists _; isplitr; swap; · iexact HO
      ipureintro
      rw [Finset.coe_insert]
      exact Set.insert_subset (none_mem_bound m d t.succ _) hWt
    isplitl [H0]; · iexact H0
    iexact H1
  · rw [if_neg (show t.castSucc.val ≠ 0 from h0), if_neg (show t.succ.val ≠ 0 from Nat.succ_ne_zero _), tabV_eq]
    iintro ⟨⟨Hlv, Ha1, Hscr, Hsem⟩, Ho, ⟨%e0, H0⟩, ⟨%e1, H1⟩⟩
    iapply (run_later d Set.univ (grid1.coords t) _ _ (Memref.whole main_arg1) (Memref.isWhole_whole _) _ _ (Memref.whole cc1_scratch0) (Memref.isWhole_whole _)
      cc1_scratch1 (iblk m d 0 t) (tab (F := F) (rowOf m d)) (rowOf m d) (wordsAt m d t) (fun h => h0 ((hcond1 t).mp h)) (iblk0_apply m d t) (wordsAt_le m hpre d t)
      (fun _ => rfl) _)
    isplitl [H0]; · iexact H0
    isplitl [Hscr]
    · iapply (Entails.of_eq (owns_whole (d : Thread nD τ) cc1_scratch0 fullShare _).symm); iexact Hscr
    isplitl [H1]; · iexists _; iexact H1
    iintro ⟨H0, Hscr, H1⟩
    isplitl [Hlv Ha1 Hscr Hsem]
    · isplitl [Hlv]; · iexact Hlv
      isplitl [Ha1]; · iexact Ha1
      isplitl [Hscr]
      · iapply (Entails.of_eq (owns_whole (d : Thread nD τ) cc1_scratch0 fullShare _)); iexact Hscr
      iexact Hsem
    isplitl [Ho]; · iexact Ho
    isplitl [H0]; · iexact H0
    iexact H1

/-- The library's body obligation, at every point. -/
theorem body_obligation (hpre : PreOK m) (d : Dev nD) :
    Pipeline.BodyObligation (dat1 (F := F) m d) (defs₀ (F := F)) Variants.none (none : HIx 1) Set.univ := fun t => by
  rw [bigSep_W1, bigSep_W1]
  exact sound_body m hpre d t

end Point

end Cert.KernelIdeal.Hand
end
-- ==== Proof.KernelIdealHand.Region.lean ====
/-
  The second kernel's call as a region of @main: entered from the main core's arrays at the contents the steps before
  it left (the capped indices, flat, among them), left at the output array holding `val3`. The pipeline's invariant
  takes the level facts, the scratch table's buffer and the kernel's own transfer semaphore in, and gives the buffer
  and the semaphore back; the main core owes nothing, and its recorded waits stay at or below level 8.
-/
import proofs.«206731_g35192962023934_cont_8to1_b_663_28_alg».proof.Proof.KernelIdealHand.Vals
import proofs.«206731_g35192962023934_cont_8to1_b_663_28_alg».proof.Proof.KernelIdealHand.TcBody
import Idealize.ShloMosaic.Lib.Pipeline.RegionsLoop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

abbrev LL : GSem nD τ sig → Finset (HIx 1) := (K (F := F)).L
abbrev lvv : GSem nD τ sig → HIx 1 → ℕ := (K (F := F)).lev

/-- The kernel's own semaphore: the table transfer's. -/
abbrev osem : Unit → SemLoc sig := fun _ => SemLoc.dma cc1_scratch1.sem

omit [FloatOps F] in
theorem ownSems0_unit (d : Dev nD) : (Pipeline.ownSems0 osem d : sProp 𝕄) = semVal (tabSem d) 0 := by
  unfold Pipeline.ownSems0
  rw [show (Finset.univ : Finset Unit) = {()} from rfl, bigSep_singleton]

/-- What rides beside the buffers through the region: the main core's `owes`, at nothing, its recorded pairs at or below level 8. -/
abbrev Rr (d : Dev nD) : sProp 𝕄 := iprop(∃ W, ⌜(K (F := F)).WBelow (SparseCore.T d) W 8⌝ ∗ owes (SparseCore.T d) (0 : CellTallies nD τ sig (HIx 1)) W)

/-- The weight array at the pipeline's entry is as launched: no step before it writes it. -/
theorem V3_arg1 (d : Dev nD) : V3 m d main_arg1 = m (a1Loc d) := by
  rw [V3_eq]; unfold Vr
  rw [Function.update_of_ne (by decide), Function.update_of_ne (by decide), Function.update_of_ne (by decide)]

set_option backward.isDefEq.respectTransparency.types false in
def reg (hpre : PreOK m) : Pipeline.RegionSeg (pcfgs (F := F)) adm (pdats m) (none : HIx 1) defs₀ 𝒱₀ (LL (F := F)) (lvv (F := F)) 0 where
  win := launch1.win.to₀
  block_pos := launch1.block_pos
  stage_whole := launch1.stage_whole
  K := Unit
  osem := osem
  ho := (by decide : Pipeline.OwnSemFacts spec1 osem)
  hbody d := (body_obligation m hpre d).loose
  hwaits := Pipeline.hwaits_of_owed_zero _ _ _ _ (LL (F := F)) (lvv (F := F)) 0 fun _ _ => rfl
  pre d := iprop(StableHlo.held (d : Thread nD τ) (Pipeline.ucRefs τ sig) (W3 m d) ∗ Rr (F := F) d)
  post d := iprop(StableHlo.held (d : Thread nD τ) (Pipeline.ucRefs τ sig) (W4 m d) ∗ Rr (F := F) d)
  X d := iprop(levAts (LL (F := F)) (lvv (F := F)) ∗ Pipeline.ownSems0 osem d ∗ (a1Loc d ↦{fullShare} m (a1Loc d)))
  Y d := iprop(a1Loc d ↦{fullShare} m (a1Loc d))
  Z d := iprop((((d : Thread nD τ).loc main_arg0) ↦{fullShare} V3 m d main_arg0) ∗ (((d : Thread nD τ).loc main_v0) ↦{fullShare} V3 m d main_v0)
    ∗ (((d : Thread nD τ).loc main_v1) ↦{fullShare} V3 m d main_v1) ∗ (((d : Thread nD τ).loc main_v4) ↦{fullShare} V3 m d main_v4))
  hentry d := by
    have hsplit := Pipeline.arrays_of_unscopedBufs (p := 0) (pcfgs (F := F)) adm (pdats m) launch1.win launch1.arr_whole d
      ((pdats m 0 d).share_full fun _ => rfl) (V3 m d) fun w => (congrFun (V3_eq m d) _).symm
    rw [Pipeline.unscopedBufs_held, unscopedRest1_eq, V3_arg1] at hsplit
    iintro ⟨⟨Hub, %W, %hW, HO⟩, Hsem, #Hlv⟩
    ihave H := hsplit $$ Hub
    icases H with ⟨Ha, H0, H1, Hv0, Hv1, Hv4⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; intro p hp
        exact Or.inl (show p ∈ (dat1 m d).recorded 0 from by rw [recorded_eq]; exact hW p hp)
      iexact HO
    isplitl [Hsem H1]
    · isplitr; · iexact Hlv
      isplitl [Hsem]; · iexact Hsem
      iexact H1
    isplitl [H0]; · iexact H0
    isplitl [Hv0]; · iexact Hv0
    isplitl [Hv1]; · iexact Hv1
    iexact Hv4
  hin d := by
    rw [show (pdats m 0 d).Φ 0 = PhiT m d 0 from rfl, scopedRest1_eq, ownSems0_unit]
    unfold PhiT
    rw [if_pos (show ((0 : Fin (cfg1.N + 1)).val = 0) from rfl)]
    iintro ⟨⟨#Hlv, Hsem, H1⟩, -, Hr⟩
    isplitr; · iexact Hlv
    isplitl [H1]; · iexact H1
    isplitl [Hr]; · iexact Hr
    iexact Hsem
  hout d := by
    rw [show (pdats m 0 d).Φ (Fin.last _) = PhiT m d (Fin.last _) from rfl, scopedRest1_eq, ownSems0_unit]
    unfold PhiT
    rw [if_neg (show ¬ ((Fin.last cfg1.N).val = 0) from by rw [Fin.val_last]; have h : cfg1.N = 100 := N_1; omega)]
    iintro ⟨-, H1, Ht, Hsem⟩
    isplitl [H1]; · iexact H1
    isplitl [Hsem]; · iexact Hsem
    iexists _; iexact Ht
  hexit d := by
    have hjoin := Pipeline.unscopedBufs_of_arrays (p := 0) (pcfgs (F := F)) adm (Ix := HIx 1) (Name := ℕ) (U := UU) (Lvl := ℕ)
      launch1.win launch1.arr_whole d (pdats m) ((pdats m 0 d).share_full fun _ => rfl)
      (V3 m d) (V4 m d) ((pdats m 0 d).arrAt · cfg1.N) (hF m d) (hrest m d)
    rw [Pipeline.unscopedBufs_held, unscopedRest1_eq, V3_arg1] at hjoin
    iintro ⟨Ha, HO, H1, H0, Hv0, Hv1, Hv4⟩
    imodintro
    isplitl [Ha H1 H0 Hv0 Hv1 Hv4]
    · iapply hjoin
      isplitl [Ha]; · iexact Ha
      isplitl [H0]; · iexact H0
      isplitl [H1]; · iexact H1
      isplitl [Hv0]; · iexact Hv0
      isplitl [Hv1]; · iexact Hv1
      iexact Hv4
    unfold Pipeline.Dat.owesAt Pipeline.owesWithin
    icases HO with ⟨%W, %hW, HO⟩; iexists W; isplitr
    · ipureintro; intro p hp
      rcases hW hp with h | ⟨w, s, rfl⟩
      · exact (show p ∈ {p : SemLoc sig × HIx 1 | (K (F := F)).lev (SparseCore.T d, p.1) p.2 ≤ 8} from by rw [← recorded_eq m d (Fin.last _)]; exact h)
      · exact Nat.zero_le _
    iexact HO

end Cert.KernelIdeal.Hand

end
-- ==== Proof.KernelIdealHand.Blocks.lean ====
/-
  The first kernel's call takes the re-laid index array and the capped array apart into the 32 blocks of 200 rows —
  regrouped as two cores of sixteen subcores, subcore `s` of core `c` at block `2 s + c` — and puts them together
  again: the blocks are pairwise disjoint and fill the arrays.
-/
import proofs.«206731_g35192962023934_cont_8to1_b_663_28_alg».proof.Proof.KernelIdealHand.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

omit [FloatOps F] in
theorem blk_disjoint : ∀ i ∈ (Finset.univ : Finset (Fin 32)), ∀ j ∈ (Finset.univ : Finset (Fin 32)), i ≠ j → Disjoint (blkSet i) (blkSet j) :=
  fun i _ j _ h => Rect.part_disjoint hdiv32 h
omit [FloatOps F] in
theorem blk_cover : (Finset.univ : Finset (Fin 32)).biUnion blkSet = Finset.univ := Rect.biUnion_part hdiv32

omit [FloatOps F] in
theorem v0_blocks (d : Dev nD) (f : Buf (Elt F) (v0Loc d)) :
    (v0Loc d ↦{fullShare} f : sProp 𝕄) = bigSep Finset.univ fun i : Fin 32 => v0Loc d ↦[blkSet i]{fullShare} f := by
  rw [← pointsTo_biUnion Finset.univ (ℓ := v0Loc d) blkSet blk_disjoint, blk_cover]; try rfl
omit [FloatOps F] in
theorem v1_blocks (d : Dev nD) (f : Buf (Elt F) (v1Loc d)) :
    (v1Loc d ↦{fullShare} f : sProp 𝕄) = bigSep Finset.univ fun i : Fin 32 => v1Loc d ↦[blkSet i]{fullShare} f := by
  rw [← pointsTo_biUnion Finset.univ (ℓ := v1Loc d) blkSet blk_disjoint, blk_cover]; try rfl

/-- The 32 blocks, counted as 2 cores × 16 subcores. -/
theorem wid_image : (Finset.univ : Finset (Fin 32)) = ((Finset.univ : Finset (Fin 2)) ×ˢ (Finset.univ : Finset (Fin 16))).image fun p => wid p.1 p.2 := by decide
theorem wid_injOn : Set.InjOn (fun p : Fin 2 × Fin 16 => wid p.1 p.2) (↑((Finset.univ : Finset (Fin 2)) ×ˢ (Finset.univ : Finset (Fin 16))) : Set (Fin 2 × Fin 16)) := by
  intro p _ q _ h
  have h' : 2 * p.2.val + p.1.val = 2 * q.2.val + q.1.val := congrArg Fin.val h
  have hp := p.1.isLt; have hq := q.1.isLt
  exact Prod.ext (Fin.ext (by omega)) (Fin.ext (by omega))

omit [FloatOps F] in
theorem bigSep_wid (Φ : Fin 32 → sProp 𝕄) :
    bigSep Finset.univ Φ = bigSep Finset.univ fun c : Fin 2 => bigSep Finset.univ fun s : Fin 16 => Φ (wid c s) := by
  rw [wid_image, SparseCore.bigSep_image_of_injOn wid_injOn, SparseCore.bigSep_product]

/-- The call's operands, core by core, from the two arrays whole: the index array at its values, the capped array at any. -/
theorem st_intro (d : Dev nD) (f : Buf (Elt F) (v1Loc d)) :
    iprop((v0Loc d ↦{fullShare} (val0 m d)) ∗ (v1Loc d ↦{fullShare} f))
      ⊢ (bigSep Finset.univ fun c : Fin ((K (F := F)).nCore 0) => (P m).st 0 d c : sProp 𝕄) := by
  show _ ⊢ bigSep (Finset.univ : Finset (Fin 2)) fun c => bigSep Finset.univ fun s : Fin 16 => goRes m d (wid c s)
  rw [← bigSep_wid (F := F) (fun i => goRes m d i), v0_blocks, v1_blocks, bigSep_sep']
  exact sep_mono .rfl (bigSep_mono fun i _ => show (v1Loc d ↦[blkSet i]{fullShare} f : sProp 𝕄) ⊢ iprop(∃ f', v1Loc d ↦[blkSet i]{fullShare} f') from by
    iintro H; iexists f; iexact H)

/-- The call's results, core by core, are the two arrays whole: the index array unchanged, the capped array at the capped values. -/
theorem dn_elim (d : Dev nD) :
    (bigSep Finset.univ fun c : Fin ((K (F := F)).nCore 0) => (P m).dn 0 d c : sProp 𝕄)
      ⊢ iprop((v0Loc d ↦{fullShare} (val0 m d)) ∗ (v1Loc d ↦{fullShare} (val1 m d))) := by
  show (bigSep (Finset.univ : Finset (Fin 2)) fun c => bigSep Finset.univ fun s : Fin 16 => tdRes m d (wid c s)) ⊢ _
  rw [← bigSep_wid (F := F) (fun i => tdRes m d i), v0_blocks, v1_blocks, bigSep_sep']

end Cert.KernelIdeal.Hand

end
-- ==== Proof.KernelIdealHand.Cap.lean ====
/-
  The cap, one piece at a time: what the subcore's scratch holds before each sixteen-word piece of the row-major
  sweep, and that one piece's load, signed minimum with 50000 and store take it to the next.
-/
import proofs.«206731_g35192962023934_cont_8to1_b_663_28_alg».proof.Proof.KernelIdealHand.Common
import Idealize.ShloMosaic.Lib.WritesUnit

noncomputable section

namespace Cert.KernelIdeal.Hand

open Cert.KernelIdeal Cert.KernelIdeal.Gen

open Idealize.ShloMosaic

variable {F : FTy → Type} [FloatOps F]
open Facts₀ Facts

theorem trips1 : k0_t1_loop.trips = 200 := by decide
theorem trips2 : k0_t2_loop.trips = 8 := by decide

/-- The stored piece is the loaded piece capped, word by word. -/
theorem k0_pay1_apply (v : Vec F S1x16 .i32) (x : S1x16.Idx) : k0_pay1 v x = IntOp.minsi (v x : BitVec 32) 50000#32 := by
  show IntOp.minsi (v (Shape.reshapeEquiv _ (Shape.reshapeEquiv _ x))) _ = _
  rw [Shape.reshapeEquiv_reshapeEquiv, Shape.reshapeEquiv_self]
  rfl

/-- The scratch before the piece at row `r`, columns `[16 k, 16 k + 16)`: the words before it in row-major order capped,
    the words from it on as the copy-in left them. -/
def capTo (f₀ : S200x128.Idx → BitVec 32) (r k : ℕ) : S200x128.Idx → BitVec 32 :=
  fun j => if (j 0).val < r ∨ ((j 0).val = r ∧ (j 1).val < 16 * k) then IntOp.minsi (f₀ j) 50000#32 else f₀ j

theorem capTo_zero (f₀ : S200x128.Idx → BitVec 32) : capTo f₀ 0 0 = f₀ := by
  funext j; unfold capTo; rw [if_neg]; omega

theorem capTo_row (f₀ : S200x128.Idx → BitVec 32) (r : ℕ) : capTo f₀ r 8 = capTo f₀ (r + 1) 0 := by
  funext j; unfold capTo
  have h1 : (j 1).val < 128 := (j 1).isLt
  by_cases h : (j 0).val < r ∨ ((j 0).val = r ∧ (j 1).val < 16 * 8)
  · rw [if_pos h, if_pos (by omega)]
  · rw [if_neg h, if_neg (by omega)]

theorem capTo_end (f₀ : S200x128.Idx → BitVec 32) : capTo f₀ 200 0 = fun j => IntOp.minsi (f₀ j) 50000#32 := by
  funext j; unfold capTo
  have h0 : (j 0).val < 200 := (j 0).isLt
  rw [if_pos (Or.inl h0)]

/-- One piece: loaded from the scratch, capped and stored back where it was read. -/
theorem capTo_step (f₀ : S200x128.Idx → BitVec 32) (k1 : Fin k0_t1_loop.trips) (k2 : Fin k0_t2_loop.trips) :
    (scrW).view.writes (Elt F) (capTo f₀ k1.val k2.val)
        [⟨Rect.unit (s := S200x128) (k0_off2 k1 k2) S1x16.size (Facts₀.k0_off2_inb k1 k2),
          k0_pay1 ((scrW).view.readAt (Elt F) (Rect.unit (s := S200x128) (k0_off2 k1 k2) S1x16.size (Facts₀.k0_off2_inb k1 k2)).toLoadRect (capTo f₀ k1.val k2.val))⟩]
      = capTo f₀ k1.val (k2.val + 1) := by
  funext y
  have hy0 : (y 0).val < 200 := (y 0).isLt
  have hy1 : (y 1).val < 128 := (y 1).isLt
  refine (View.read_writes_cons_unit (v := (scrW).view) (Val := Elt F) (capTo f₀ k1.val k2.val) (Facts₀.k0_off2_inb k1 k2) _ [] y (k0_off2_eq k1 k2)).trans ?_
  by_cases h : ∀ a : Fin 2, (![k1.val, 16 * k2.val] : Fin 2 → ℕ) a ≤ (y a).val ∧ (y a).val < (![k1.val, 16 * k2.val] : Fin 2 → ℕ) a + S1x16.size a
  · rw [dif_pos h, k0_pay1_apply]
    have h0 := h 0
    have h1 := h 1
    simp only [Matrix.cons_val_zero, Matrix.cons_val_one] at h0 h1
    have hidx : (Rect.unit (s := S200x128) (k0_off2 k1 k2) S1x16.size (Facts₀.k0_off2_inb k1 k2)).toLoadRect.idx
        (Rect.unitLocal (s := S200x128) (off := ![k1.val, 16 * k2.val]) (size := S1x16.size) y h) = y := by
      funext a; apply Fin.ext
      rw [LoadRect.idx_apply]
      show k0_off2 k1 k2 a + 1 * ((y a).val - (![k1.val, 16 * k2.val] : Fin 2 → ℕ) a) = (y a).val
      rw [k0_off2_eq]
      have := (h a).1
      omega
    rw [View.readAt_apply, hidx]
    show IntOp.minsi (capTo f₀ k1.val k2.val y) 50000#32 = capTo f₀ k1.val (k2.val + 1) y
    unfold capTo
    rw [if_neg (by omega), if_pos (by omega)]
  · rw [dif_neg h]
    show capTo f₀ k1.val k2.val y = capTo f₀ k1.val (k2.val + 1) y
    have h' : ¬ ((y 0).val = k1.val ∧ 16 * k2.val ≤ (y 1).val ∧ (y 1).val < 16 * k2.val + 16) := by
      intro ⟨a0, a1, a2⟩
      refine h (Fin.forall_fin_two.mpr ⟨?_, ?_⟩)
      · show k1.val ≤ (y 0).val ∧ (y 0).val < k1.val + 1
        omega
      · show 16 * k2.val ≤ (y 1).val ∧ (y 1).val < 16 * k2.val + 16
        omega
    unfold capTo
    by_cases hc : (y 0).val < k1.val ∨ ((y 0).val = k1.val ∧ (y 1).val < 16 * k2.val)
    · rw [if_pos hc, if_pos (by omega)]
    · rw [if_neg hc, if_neg (by omega)]

end Cert.KernelIdeal.Hand

end
-- ==== Proof.KernelIdealHand.TileBody.lean ====
/-
  One vector subcore's task of the first kernel: its 200-row block of the re-laid indices is copied into the
  subcore's scratch, every word of the scratch is capped at 50000 (signed minimum), sixteen words at a time in
  row-major order, and the scratch is copied out to the same block of the capped array.
-/
import proofs.«206731_g35192962023934_cont_8to1_b_663_28_alg».proof.Proof.KernelIdealHand.Common
import proofs.«206731_g35192962023934_cont_8to1_b_663_28_alg».proof.Proof.KernelIdealHand.Cap
import Idealize.ShloMosaic.Lib.Writes

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]
open Facts₀ Facts

/-! ## The block as the kernel slices it -/

/-- The rectangle of the kernel's slices of the two arrays at grid coordinates `L`. -/
abbrev blkK (L : grid0.Coords) : Rect S6400x128 := Rect.unit (s := S6400x128) (k0_off1 L) S200x128.size (Facts₀.k0_off1_inb L)
/-- The kernel's slice of the re-laid indices and of the capped array. -/
abbrev v0S (L : grid0.Coords) : Memref sig .scVector .hbm S200x128 .i32 := (v0W).slice (blkK L) (fun _ => rfl)
abbrev v1S (L : grid0.Coords) : Memref sig .scVector .hbm S200x128 .i32 := (v1W).slice (blkK L) (fun _ => rfl)

omit [FloatOps F] in
/-- The kernel's rectangle is the block of the subcore. -/
theorem blkK_eq (L : grid0.Coords) : blkK L = blkRect (widL L) := by
  unfold blkK blkRect Rect.part Rect.block
  congr 1 <;> funext a
  · rw [k0_off1_eq]
    match a with
    | 0 =>
      simp [Shape.partIx, Shape.partSize, widL, wid]
      show 400 * (L 1).val + 200 * (L 0).val = (2 * (L 1).val + (L 0).val) * 200
      omega
    | 1 => simp [Shape.partIx, Shape.partSize]
  · match a with
    | 0 => simp [Shape.partSize]
    | 1 => simp [Shape.partSize]

omit [FloatOps F] in
theorem set_v0S (L : grid0.Coords) : (v0S L).view.set = blkSet (widL L) := by
  show ((View.whole (main_v0_scv : Ref sig .scVector)).slice (blkK L)).set = (blkRect (widL L)).set
  rw [View.set_slice, blkK_eq]; exact Finset.map_refl
omit [FloatOps F] in
theorem set_v1S (L : grid0.Coords) : (v1S L).view.set = blkSet (widL L) := by
  show ((View.whole (main_v1_scv : Ref sig .scVector)).slice (blkK L)).set = (blkRect (widL L)).set
  rw [View.set_slice, blkK_eq]; exact Finset.map_refl

omit [FloatOps F] in
theorem pts_v0S (d : Dev nD) (L : grid0.Coords) (f : Buf (Elt F) (v0Loc d)) :
    ((v0S L).view.loc (V d (cV L) (jV L)) ↦[(v0S L).view.set]{fullShare} f : sProp 𝕄) = v0Loc d ↦[blkSet (widL L)]{fullShare} f := by
  rw [set_v0S]
omit [FloatOps F] in
theorem pts_v1S (d : Dev nD) (L : grid0.Coords) (f : Buf (Elt F) (v1Loc d)) :
    ((v1S L).view.loc (V d (cV L) (jV L)) ↦[(v1S L).view.set]{fullShare} f : sProp 𝕄) = v1Loc d ↦[blkSet (widL L)]{fullShare} f := by
  rw [set_v1S]
omit [FloatOps F] in
theorem pts_scr (d : Dev nD) (L : grid0.Coords) (f : Buf (Elt F) ((V d (cV L) (jV L)).loc cc0_scratch0)) :
    ((scrW).view.loc (V d (cV L) (jV L)) ↦{fullShare} f : sProp 𝕄) = (V d (cV L) (jV L)).loc cc0_scratch0 ↦{fullShare} f := rfl

/-! ## The subcore's scoped storage -/

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)

omit [FloatOps F] in
theorem ownSems0_V (d : Dev nD) (L : grid0.Coords) :
    (ownSems0 (V d (cV L) (jV L)) : sProp 𝕄)
      = iprop(semVal (c0cell d (cV L) (jV L)) 0 ∗ semVal (c1cell d (cV L) (jV L)) 0
          ∗ bigSep (((ownCells (V d (cV L) (jV L))).erase (c0cell d (cV L) (jV L))).erase (c1cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩)]

omit [FloatOps F] in
/-- The scratch is among the subcore's own buffers: it, at some contents, and the rest. -/
theorem ownBufs_V (d : Dev nD) (L : grid0.Coords) :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-! ## The sweep -/

/-- What the copy-in leaves in the scratch: the block of the re-laid indices, read through the kernel's slice. -/
abbrev f0 (d : Dev nD) (L : grid0.Coords) : S200x128.Idx → BitVec 32 := (v0S L).view.read (Elt F) (val0 m d)

omit [FloatOps F] in
theorem scr_entry (d : Dev nD) (L : grid0.Coords) (fs : Buf (Elt F) ((V d (cV L) (jV L)).loc cc0_scratch0)) (X : S200x128.Idx → BitVec 32) :
    ((scrW).view.loc (V d (cV L) (jV L)) ↦{fullShare} View.write (Elt F) (scrW).view fs X Finset.univ : sProp 𝕄)
      = ((scrW).view.loc (V d (cV L) (jV L)) ↦{fullShare} capTo X 0 0) := by
  rw [capTo_zero]; congr 1; exact View.write_whole_univ _ _ _

/-- Before row `r`: the rows above capped. Before piece `k` of row `r`: those and the row's pieces before. -/
def inv1 (d : Dev nD) (L : grid0.Coords) (r : ℕ) (_ : BitVec 32) : sProp 𝕄 :=
  (scrW).view.loc (V d (cV L) (jV L)) ↦{fullShare} capTo (f0 m d L) r 0
def inv2 (d : Dev nD) (L : grid0.Coords) (r k : ℕ) (_ : BitVec 32) : sProp 𝕄 :=
  (scrW).view.loc (V d (cV L) (jV L)) ↦{fullShare} capTo (f0 m d L) r k

/-- One piece. -/
theorem piece (d : Dev nD) (L : grid0.Coords) (k1 : Fin k0_t1_loop.trips) (k2 : Fin k0_t2_loop.trips) (acc : BitVec 32) :
    inv2 m d L k1.val k2.val acc
      ⊢ wp frame (wpE (defs₀ (F := F)) 𝒱₀ (V d (cV L) (jV L)) none) Set.univ
          (k0_t2_body L v0W (Memref.isWhole_whole _) v1W (Memref.isWhole_whole _) scrW (Memref.isWhole_whole _) cc0_scoped0 cc0_scoped1 k1 k2 acc)
          (inv2 m d L k1.val (k2.val + 1)) := by
  unfold inv2 k0_t2_body
  iintro Hs
  sl_exec
  rw [capTo_step (F := F) (f0 m d L) k1 k2, wp_ret]
  imodintro
  iexact Hs

/-- One row: its eight pieces. -/
theorem row (d : Dev nD) (L : grid0.Coords) (k1 : Fin k0_t1_loop.trips) (acc : BitVec 32) :
    inv1 m d L k1.val acc
      ⊢ wp frame (wpE (defs₀ (F := F)) 𝒱₀ (V d (cV L) (jV L)) none) Set.univ
          (k0_t1_body L v0W (Memref.isWhole_whole _) v1W (Memref.isWhole_whole _) scrW (Memref.isWhole_whole _) cc0_scoped0 cc0_scoped1 k1 acc)
          (inv1 m d L (k1.val + 1)) := by
  unfold inv1 k0_t1_body
  iintro Hs
  sl_for (inv2 m d L k1.val) $$ [Hs]
  case region => exact fun k2 acc => piece m d L k1 k2 acc
  · unfold inv2; iexact Hs
  iintro %acc' HI
  unfold inv2
  rw [show Scf.trips k0_t2_loop.lb k0_t2_loop.ub k0_t2_loop.st = 8 from trips2, capTo_row]
  sl_exec
  sl_step
  iexact HI

/-- After the last row every word is capped. -/
theorem inv1_end (d : Dev nD) (L : grid0.Coords) (acc : BitVec 32) :
    inv1 m d L (Scf.trips k0_t1_loop.lb k0_t1_loop.ub k0_t1_loop.st) acc
      ⊢ ((scrW).view.loc (V d (cV L) (jV L)) ↦{fullShare} (fun j => IntOp.minsi (f0 m d L j) 50000#32 : S200x128.Idx → BitVec 32) : sProp 𝕄) := by
  unfold inv1
  rw [show Scf.trips k0_t1_loop.lb k0_t1_loop.ub k0_t1_loop.st = 200 from trips1, capTo_end]

/-- The copy-out lands the capped block: on the block's elements, the capped array's value. -/
theorem v1_final (d : Dev nD) (L : grid0.Coords) (f1 : Buf (Elt F) (v1Loc d)) (X : S200x128.Idx → BitVec 32)
    (hX : ∀ x, X x = IntOp.minsi (f0 m d L x) 50000#32) :
    ((v1S L).view.loc (V d (cV L) (jV L)) ↦[(v1S L).view.set]{fullShare} (v1S L).view.writes (Elt F) f1 [⟨Rect.whole S200x128, X⟩] : sProp 𝕄)
      = v1Loc d ↦[blkSet (widL L)]{fullShare} val1 m d := by
  rw [pts_v1S]
  refine pointsTo_congr fun i hi => ?_
  rw [← set_v1S] at hi
  obtain ⟨x, -, rfl⟩ := Finset.mem_map.mp hi
  have h := View.read_writes_cons_emb (v := (v1S L).view) (Val := Elt F) f1 (Rect.whole S200x128) X [] x
  rw [Rect.emb_whole_apply, hX] at h
  exact h

theorem tile_body (d : Dev nD) (L : grid0.Coords) (O : CellTallies nD τ sig (HIx 1)) (W : Waits sig (HIx 1)) (hO : ∀ g, O g none = 0) :
    iprop(levAts (K (F := F)).L (K (F := F)).lev ∗ emp ∗ goRes m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_clamp L v0W (Memref.isWhole_whole _) v1W (Memref.isWhole_whole _) scrW (Memref.isWhole_whole _) cc0_scoped0 cc0_scoped1)
          fun _ => iprop(tdRes m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_clamp_eq_skeleton]; unfold cc0__sc_clamp_skel
  rw [(K (F := F)).scopedBufs_V facts d (cV L) (jV L), SparseCore.Cfg.scopedSems0_V (Val := Elt F) d (cV L) (jV L), ownSems0_V, ownBufs_V]
  iintro ⟨#Hlv, -, ⟨Hv0, %f1, Hv1⟩, ⟨⟨%fs, Hs⟩, Hbufs⟩, ⟨Hsem0, Hsem1, Hsems⟩, HO⟩
  ihave Hmw := ((K (F := F)).mayWaits_none (thr := V d (cV L) (jV L)) hO) $$ Hlv
  ihave Hv0' := (Entails.of_eq (pts_v0S (F := F) d L _).symm) $$ Hv0
  ihave Hv1' := (Entails.of_eq (pts_v1S (F := F) d L _).symm) $$ Hv1
  ihave Hs' := (Entails.of_eq (pts_scr (F := F) d L _).symm) $$ Hs
  -- the copy-in and its wait
  sl_exec
  ihave Hs2 := (Entails.of_eq ((show ((scrW).view.loc (V d (cV L) (jV L)) ↦{fullShare} View.write (Elt F) (scrW).view fs (tile_body.sl.dma0 m d L) Finset.univ : sProp 𝕄)
      = (scrW).view.loc (V d (cV L) (jV L)) ↦{fullShare} View.write (Elt F) (scrW).view fs (f0 m d L) Finset.univ from rfl).trans
      (scr_entry (F := F) d L fs (f0 m d L)))) $$ Hs'
  -- the sweep
  sl_for (inv1 m d L) $$ [Hs2]
  case region => exact fun k1 acc => row m d L k1 acc
  · unfold inv1; iexact Hs2
  iintro %acc HI
  ihave Hs3 := (inv1_end m d L acc) $$ HI
  -- the copy-out and its wait
  sl_exec
  ihave Hv1f := (Entails.of_eq (v1_final m d L f1 (tile_body.sl.dma0_1 m d L) (fun _ => rfl))) $$ Hv1'
  ihave Hv0 := (Entails.of_eq (pts_v0S (F := F) d L _)) $$ Hv0'
  sl_step
  isplitl [Hv0 Hv1f]
  · isplitl [Hv0]; · iexact Hv0
    iexact Hv1f
  isplitl [Hs3 Hbufs]
  · isplitl [Hs3]
    · iexists _; iexact Hs3
    · iexact Hbufs
  isplitl [Hsem0 Hsem1 Hsems]
  · isplitl [Hsem0]; · iexact Hsem0
    isplitl [Hsem1]; · iexact Hsem1
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    · exact .inl hp

end Cert.KernelIdeal.Hand

end
-- ==== Proof.KernelIdealHand.Obl.lean ====
/-
  The launch theorem's obligations for the first kernel: a vector subcore's task is the kernel's body at that
  subcore's coordinates, and a core's operands are its sixteen subcores' blocks, regrouped.
-/
import proofs.«206731_g35192962023934_cont_8to1_b_663_28_alg».proof.Proof.KernelIdealHand.TileBody

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The body table's row of a vector subcore -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile Facts₀.hcore0 Facts₀.hsub0 (fun c s => cc0__sc_clamp (coordsV c s)
          v0W (Memref.isWhole_whole _) v1W (Memref.isWhole_whole _) scrW (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The task of subcore `i` of core `c`: the kernel's body at those coordinates, on that subcore's block. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

/-- A core's operands are its subcores' tasks, and its results theirs: the payloads are stated block by block. -/
theorem vecSplit : (K (F := F)).VecSplit' (P m) 0 := by
  intro d c
  show (bigSep Finset.univ fun s : Fin 16 => goRes m d (wid (Fin.cast nCore_zero c) s)) ⊢ |={Set.univ}=> iprop(
      (bigSep Finset.univ fun i : Fin ((K (F := F)).nSub 0) => goRes m d (wid (Fin.cast nCore_zero c) (Fin.cast nSub_zero i)))
      ∗ ((bigSep Finset.univ fun i : Fin ((K (F := F)).nSub 0) => tdRes m d (wid (Fin.cast nCore_zero c) (Fin.cast nSub_zero i)))
          -∗ (bigSep Finset.univ fun s : Fin 16 => tdRes m d (wid (Fin.cast nCore_zero c) s))))
  iintro H; imodintro
  isplitl [H]; · iexact H
  iintro H; iexact H

end Cert.KernelIdeal.Hand

end
-- ==== Proof.KernelIdealHand.Elem.lean ====
/-
  The launch element of the ghost state: the launch handshakes' rounds, the pipeline's staging cells' rounds
  (funded here, dealt to each device for its pipeline's entry), and the transfers' counters (nothing to fund).
-/
import proofs.«206731_g35192962023934_cont_8to1_b_663_28_alg».proof.Proof.KernelIdealHand.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

/-- The pipeline cells' rounds: the left factor of the right factor of the algebra. -/
abbrev EPr : Emb UP (MT nD τ sig (HIx 1) (Elt F) ℕ UU ℕ) := (Emb.inl : Emb UP (UP × Counters)).trans embR

instance EPr_landsIn : (EPr : Emb UP 𝕄).LandsIn (upEmb : UEmb _ 𝕄) := by
  show ((Emb.inl : Emb UP (UP × Counters)).trans embR : Emb UP 𝕄).LandsIn _; infer_instance

/-- What the launch deals device `d` for its pipeline: the staging cells' ghost state and the duty tokens. -/
def G (d : Dev nD) : sProp 𝕄 :=
  iprop((bigSep Finset.univ fun p : Fin 1 => Pipeline.cellsGhost cfgs EPr p d) ∗ (bigSep Finset.univ fun p : Fin 1 => (Pipeline.toksInit cfgs EPr p d : sProp 𝕄)))

def u₀ : UU :=
  (initOf (K (F := F)).hsCells (K (F := F)).hsToks, (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (nD := nD) (τ := τ) cfgs (EPr (F := F)) cellOf_inj) $$ HP with ⟨Hg, Ht⟩
  imodintro
  isplitl [HH]; · iexact HH
  isplitl [Hg Ht]
  · unfold G; rw [bigSep_sep']
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.KernelIdealHand.Main.lean ====
/-
  @main on the main core, the final memory read against the claim, and the launch theorem applied: every weakly fair
  execution of the device's threads terminates, nothing faulting, the result array at `val4` and the two arguments
  as launched.
-/
import proofs.«206731_g35192962023934_cont_8to1_b_663_28_alg».proof.Proof.KernelIdealHand.Region
import proofs.«206731_g35192962023934_cont_8to1_b_663_28_alg».proof.Proof.KernelIdealHand.Blocks
import proofs.«206731_g35192962023934_cont_8to1_b_663_28_alg».proof.Proof.KernelIdealHand.Obl
import proofs.«206731_g35192962023934_cont_8to1_b_663_28_alg».proof.Proof.KernelIdealHand.Elem

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)
open Idealize.ShloMosaic.TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operations' buffers are among the main core's arrays -/

omit [FloatOps F] in
theorem sub0 : (op0 (F := F)).bufs ⊆ Pipeline.ucRefs τ sig := show ({r0, rv0} : Finset (DevRef τ sig)) ⊆ Pipeline.ucRefs τ sig by decide
omit [FloatOps F] in
theorem sub2 : (op2 (F := F)).bufs ⊆ Pipeline.ucRefs τ sig := show ({rv1, rv2} : Finset (DevRef τ sig)) ⊆ Pipeline.ucRefs τ sig by decide
omit [FloatOps F] in
theorem sub4 : (op4 (F := F)).bufs ⊆ Pipeline.ucRefs τ sig := show ({rv3, rv4} : Finset (DevRef τ sig)) ⊆ Pipeline.ucRefs τ sig by decide

/-- The two arrays the first kernel's call takes. -/
abbrev T01 : Finset (DevRef τ sig) := {rv0, rv1}
theorem T01_sub : T01 ⊆ Pipeline.ucRefs τ sig := by decide
/-- The three arrays the claim reads. -/
abbrev T3 : Finset (DevRef τ sig) := {r0, r1, rv4}
theorem T3_sub : T3 ⊆ Pipeline.ucRefs τ sig := by decide

omit [FloatOps F] in
theorem held_T01 (d : Dev nD) (W : Valuation τ sig (Elt F)) :
    (held (SparseCore.T d) T01 W : sProp 𝕄) = iprop((v0Loc d ↦{fullShare} W rv0) ∗ (v1Loc d ↦{fullShare} W rv1)) := by
  unfold held T01
  rw [SparseCore.bigSep_insert' (by decide), bigSep_singleton]
omit [FloatOps F] in
theorem held_T3 (d : Dev nD) (W : Valuation τ sig (Elt F)) :
    (held (SparseCore.T d) T3 W : sProp 𝕄) = iprop((a0Loc d ↦{fullShare} W r0) ∗ (a1Loc d ↦{fullShare} W r1) ∗ (v4Loc d ↦{fullShare} W rv4)) := by
  unfold held T3
  rw [SparseCore.bigSep_insert' (by decide), SparseCore.bigSep_insert' (by decide), bigSep_singleton]

/-- The arrays after the first kernel's call: the two it took, at the capped values, beside the rest as before it. -/
theorem held_W2 (d : Dev nD) :
    (held (SparseCore.T d) (Pipeline.ucRefs τ sig) (W2 m d) : sProp 𝕄)
      = iprop(((v0Loc d ↦{fullShare} (val0 m d)) ∗ (v1Loc d ↦{fullShare} (val1 m d))) ∗ held (SparseCore.T d) (Pipeline.ucRefs τ sig \ T01) (W1 m d)) := by
  rw [StableHlo.held_sub_split (SparseCore.T d) T01_sub (W2 m d), held_T01, W2_v1, W2_of_ne m d rv0 (by decide), W1_v0,
    StableHlo.held_congr (SparseCore.T d) (S := Pipeline.ucRefs τ sig \ T01) (V := W2 m d) (V' := W1 m d) fun b hb =>
      W2_of_ne m d b fun e => (Finset.mem_sdiff.mp hb).2 (e ▸ by decide)]

/-- The main core's handshake state after the one call: its `owes` (at nothing: no later call) with the bound on its
    recorded pairs can be taken out for the region, and put back. -/
theorem tcSt_open (d : Dev nD) :
    ((K (F := F)).tcSt EH d ((0 : Fin 1).val + 1) : sProp 𝕄) ⊢ iprop(Rr (F := F) d ∗ (Rr (F := F) d -∗ (K (F := F)).tcSt EH d 1)) := by
  show ((K (F := F)).tcSt EH d 1 : sProp 𝕄) ⊢ _
  unfold SparseCore.Cfg.tcSt
  rw [(K (F := F)).Otc_end d (le_refl 1)]
  iintro ⟨⟨%W, %hW, HO⟩, Hrest⟩
  isplitl [HO]
  · iexists W; isplitr; · ipureintro; exact hW
    iexact HO
  iintro ⟨%W', %hW', HO'⟩
  isplitl [HO']
  · iexists W'; isplitr; · ipureintro; exact hW'
    iexact HO'
  iexact Hrest

omit [FloatOps F] in
theorem G_eq (d : Dev nD) : (G (F := F) d : sProp 𝕄) = iprop(Pipeline.cellsGhost cfgs EPr 0 d ∗ Pipeline.toksInit cfgs EPr 0 d) := by
  unfold G
  rw [show (Finset.univ : Finset (Fin 1)) = {0} from rfl, bigSep_singleton, bigSep_singleton]

/-- The region's entry and exit states, spelt out. -/
theorem reg_pre (hpre : PreOK m) (d : Dev nD) :
    (reg m hpre).pre d = iprop(StableHlo.held (d : Thread nD τ) (Pipeline.ucRefs τ sig) (W3 m d) ∗ Rr (F := F) d) := rfl
theorem reg_post (hpre : PreOK m) (d : Dev nD) :
    (reg m hpre).post d = iprop(StableHlo.held (d : Thread nD τ) (Pipeline.ucRefs τ sig) (W4 m d) ∗ Rr (F := F) d) := rfl

/-! ## @main -/

/-- What @main leaves the claim: the two arguments as launched, the result at `val4`. -/
abbrev FIN (d : Dev nD) : sProp 𝕄 :=
  iprop((a0Loc d ↦{fullShare} m (a0Loc d)) ∗ (a1Loc d ↦{fullShare} m (a1Loc d)) ∗ (v4Loc d ↦{fullShare} (val4 m d)))

/-- After the first re-laying: the two arrays the first kernel takes, beside the rest. -/
theorem held_W1 (d : Dev nD) :
    (held (SparseCore.T d) (Pipeline.ucRefs τ sig) ((op0 (F := F)).result (W0 m d)) : sProp 𝕄)
      = iprop(((v0Loc d ↦{fullShare} (val0 m d)) ∗ (v1Loc d ↦{fullShare} W1 m d rv1)) ∗ held (SparseCore.T d) (Pipeline.ucRefs τ sig \ T01) (W1 m d)) := by
  rw [show (op0 (F := F)).result (W0 m d) = W1 m d from rfl,
    StableHlo.held_sub_split (SparseCore.T d) T01_sub (W1 m d), held_T01, W1_v0]

/-- After the last re-laying: the three arrays the claim reads. -/
theorem held_W5 (d : Dev nD) :
    (held (SparseCore.T d) (Pipeline.ucRefs τ sig) ((op4 (F := F)).result (W4 m d)) : sProp 𝕄) ⊢ FIN m d := by
  rw [show (op4 (F := F)).result (W4 m d) = W5 m d from rfl,
    StableHlo.held_sub_split (SparseCore.T d) T3_sub (W5 m d), held_T3, W5_v4,
    show W5 m d r0 = m (a0Loc d) from W5_arg m d main_arg0 (by decide) (by decide) (by decide) (by decide) (by decide),
    show W5 m d r1 = m (a1Loc d) from W5_arg m d main_arg1 (by decide) (by decide) (by decide) (by decide) (by decide)]
  exact sep_elim_left

set_option backward.isDefEq.respectTransparency.types false in
set_option maxHeartbeats 1600000 in
theorem hmain (hpre : PreOK m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d : Thread nD τ).loc b)) : sProp 𝕄)
      = held (SparseCore.T d) (Pipeline.ucRefs τ sig) (W0 m d) from Pipeline.unscopedBufs_held d (W0 m d)]
  simp only [main, wp_bind, wp_pure]
  iintro ⟨#Hctx, Hst, ⟨Hb, Hheld, Hsems, Hprng⟩, HG⟩
  ihave #Hlv := (SparseCore.Cfg.ctx_levAts κ) $$ Hctx
  -- the index array re-laid
  iapply (wp_hlo_within 𝒱 (SparseCore.T d) none Set.univ (op := op0) (S := Pipeline.ucRefs τ sig) sub0 (V := W0 m d)) $$ [Hb Hheld]
  · isplitl [Hb]; · iexact Hb
    iexact Hheld
  iintro ⟨Hb, Hheld⟩
  rw [wp_ret]; imodintro
  -- the first kernel's call: the two arrays in blocks to the subcores, and back
  ihave Hh := (Entails.of_eq (held_W1 m d)) $$ Hheld
  icases Hh with ⟨⟨Hv0, Hv1⟩, Hrest⟩
  iapply ((K (F := F)).wp_run (D (F := F)) 𝒱 (EH := EH) (P := P m) κ d 0) $$ [Hst Hv0 Hv1 Hb Hrest Hsems Hprng HG]
  isplitr; · iexact Hctx
  isplitl [Hst]; · iexact Hst
  isplitl [Hv0 Hv1]
  · iapply (st_intro m d _)
    isplitl [Hv0]; · iexact Hv0
    iexact Hv1
  iintro ⟨Hst, Hdn⟩
  ihave Hdn' := (dn_elim m d) $$ Hdn
  icases Hdn' with ⟨Hv0, Hv1⟩
  -- the capped array re-laid flat
  iapply (wp_hlo_within 𝒱 (SparseCore.T d) none Set.univ (op := op2) (S := Pipeline.ucRefs τ sig) sub2 (V := W2 m d)) $$ [Hb Hv0 Hv1 Hrest]
  · isplitl [Hb]; · iexact Hb
    rw [held_W2]
    isplitl [Hv0 Hv1]
    · isplitl [Hv0]; · iexact Hv0
      iexact Hv1
    iexact Hrest
  iintro ⟨Hb, Hheld⟩
  rw [wp_ret]; imodintro
  -- the second kernel's region
  ihave Hs := (tcSt_open (F := F) d) $$ Hst
  icases Hs with ⟨HR, Hclose⟩
  ihave HG' := (Entails.of_eq (G_eq (F := F) d)) $$ HG
  icases HG' with ⟨Hcg, Htk⟩
  -- enter the region: the call is the kernel's own table's, lifted
  iapply ((K (F := F)).wp_liftProg (D (F := F)) 𝒱 (SparseCore.T d) Set.univ none
    (Prog.lift (.customCall (Pipeline.entry (0 : Fin 1)) ())) _)
  iapply (Pipeline.RegionSeg.wp (pcfgs (F := F)) adm (pdats m) (none : HIx 1) cellOf_inj (EPr (F := F)) defs₀ 𝒱₀ (LL (F := F)) (lvv (F := F))
      (reg m hpre) d none (fun u hu => by cases hu) (fun u => .ret u) _) $$ [Hb Hheld HR Hcg Htk Hclose]
  isplitl [Hclose]
  · iintro ⟨Hb, Hpost⟩
    ihave Hp := (Entails.of_eq (reg_post m hpre d)) $$ Hpost
    icases Hp with ⟨Hheld, HR⟩
    rw [wp_ret]; imodintro
    -- the output re-laid
    iapply (wp_hlo_within 𝒱 (SparseCore.T d) none Set.univ (op := op4) (S := Pipeline.ucRefs τ sig) sub4 (V := W4 m d)) $$ [Hb Hheld]
    · isplitl [Hb]; · iexact Hb
      iexact Hheld
    iintro ⟨Hb, Hheld⟩
    rw [wp_ret]; imodintro; imodintro
    isplitl [HR Hclose]
    · iapply Hclose; iexact HR
    iapply (held_W5 m d); iexact Hheld
  isplitl [Hb]; · iexact Hb
  isplitl [Hheld HR]
  · iapply (Entails.of_eq (reg_pre m hpre d).symm)
    isplitl [Hheld]; · iexact Hheld
    iexact HR
  isplitr; · iexact Hlv
  isplitl [Hcg]; · iexact Hcg
  iexact Htk

/-! ## The final memory, read -/

def fq (d : Dev nD) (s' : Phys nD τ sig (Elt F)) : Prop :=
  s'.mem.mem (v4Loc d) = val4 m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H4⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v4Loc d) (I := Finset.univ) (q := fullShare) (f := val4 m d)) $$ [HSI H4]
  · isplitl [HSI] <;> iassumption
  icases H with %h4
  ipureintro
  exact ⟨funext fun i => h4 i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (v4Loc c) = val4 m c ∧ r.2.mem (a0Loc c) = m (a0Loc c) ∧ r.2.mem (a1Loc c) = m (a1Loc c)

/-- Every weakly fair execution of the device's threads terminates, nothing faulting, the result array at `val4` of the
    launch memory and the two arguments as launched. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ hpre) (fq m) (hfin m) (QC m) (fun _ h => h)

end Cert.KernelIdeal.Hand

end
-- ==== Proof.KernelIdealHand.Bridge.lean ====
/-
  The result array's value is the lookup. Position `(a, b, e)` of the result is position `(50 a + b, e)` of the
  output [819200, 128]; its row is the table's row at the capped index number `50 a + b`, which sits at position
  `((50 a + b) / 128, (50 a + b) % 128)` of the capped array [6400, 128] and is the cap of the launch index at `(a, b)`:
  the three re-layings keep row-major positions. So the result is the lookup with capped indices, and for nonnegative
  indices that is the lookup.
-/
import proofs.«206731_g35192962023934_cont_8to1_b_663_28_alg».proof.Proof.KernelIdealHand.Common
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Pipeline (Dat)

variable {F : FTy → Type} [FloatOps F]

local notation "𝕄" => MT nD τ sig (HIx 1) (Elt F) ℕ UU ℕ

variable (m : (ℓ : Loc nD τ sig) → Buf (Elt F) ℓ) (ρ : Dev nD → PrngReg)

open Idealize.ShloMosaic.ValueIdx

theorem val0_apply (d : Dev nD) (a : Fin 16384) (b : Fin 50) (q : Fin 6400) (r : Fin 128) (h : q.val * 128 + r.val = a.val * 50 + b.val) :
    (val0 m d : S6400x128.Idx → BitVec 32) (ix2 q r) = (m (a0Loc d) : S16384x50.Idx → BitVec 32) (ix2 a b) := by
  unfold val0
  refine shapeCast_apply _ _ _ _ ?_
  show ((⟨2, ![16384, 50]⟩ : Shape).rowMajor (ix2 a b)).val = ((⟨2, ![6400, 128]⟩ : Shape).rowMajor (ix2 q r)).val
  rw [Shape.rowMajor_val_two, Shape.rowMajor_val_two]
  show a.val * 50 + b.val = q.val * 128 + r.val
  omega

theorem val2_apply (d : Dev nD) (n : Fin 819200) (q : Fin 6400) (r : Fin 128) (h : q.val * 128 + r.val = n.val) :
    (val2 m d : S819200.Idx → BitVec 32) (ix1 n) = IntOp.minsi ((val0 m d : S6400x128.Idx → BitVec 32) (ix2 q r)) 50000#32 := by
  unfold val2
  rw [shapeCast_apply (val1 m d : S6400x128.Idx → BitVec 32) _ (ix1 n) (ix2 q r) (by
    show ((⟨2, ![6400, 128]⟩ : Shape).rowMajor (ix2 q r)).val = ((⟨1, ![819200]⟩ : Shape).rowMajor (ix1 n)).val
    rw [Shape.rowMajor_val_two, Shape.rowMajor_val_one]
    show q.val * 128 + r.val = n.val
    exact h)]
  rfl

theorem val4_apply (d : Dev nD) (a : Fin 16384) (b : Fin 50) (e : Fin 128) :
    (val4 m d : S16384x50x128.Idx → F .f32) (ix3 a b e)
      = Cert.Spec.rowAt (m (a1Loc d) : Cert.Spec.STab.Idx → F .f32) (IntOp.minsi ((m (a0Loc d) : S16384x50.Idx → BitVec 32) (ix2 a b)) 50000#32).toNat e := by
  have hn : a.val * 50 + b.val < 819200 := by have := a.isLt; have := b.isLt; omega
  have hq : (a.val * 50 + b.val) / 128 < 6400 := by omega
  have hr : (a.val * 50 + b.val) % 128 < 128 := Nat.mod_lt _ (by decide)
  unfold val4
  rw [shapeCast_apply (val3 m d : S819200x128.Idx → F .f32) _ (ix3 a b e) (ix2 (n0 := 819200) (n1 := 128) ⟨a.val * 50 + b.val, hn⟩ e) (by
    show ((⟨2, ![819200, 128]⟩ : Shape).rowMajor (ix2 (n0 := 819200) (n1 := 128) ⟨a.val * 50 + b.val, hn⟩ e)).val = ((⟨3, ![16384, 50, 128]⟩ : Shape).rowMajor (ix3 a b e)).val
    rw [Shape.rowMajor_val_two, Shape.rowMajor_val_three]
    show (a.val * 50 + b.val) * 128 + e.val = (a.val * 50 + b.val) * 128 + e.val
    rfl)]
  unfold val3
  show Cert.Spec.rowAt _ ((val2 m d : S819200.Idx → BitVec 32) (ix1 (n := 819200) ⟨a.val * 50 + b.val, hn⟩)).toNat e = _
  rw [val2_apply m d ⟨a.val * 50 + b.val, hn⟩ ⟨_, hq⟩ ⟨_, hr⟩ (by show (a.val * 50 + b.val) / 128 * 128 + (a.val * 50 + b.val) % 128 = a.val * 50 + b.val; omega),
    val0_apply m d a b ⟨_, hq⟩ ⟨_, hr⟩ (by show (a.val * 50 + b.val) / 128 * 128 + (a.val * 50 + b.val) % 128 = a.val * 50 + b.val; omega)]

/-- The result array is the lookup with capped indices; -/
theorem val4_eq_capped (d : Dev nD) :
    (val4 m d : S16384x50x128.Idx → F .f32) = Cert.Spec.lookupCapped (m (a0Loc d) : S16384x50.Idx → BitVec 32) (m (a1Loc d) : Cert.Spec.STab.Idx → F .f32) := by
  refine funext fun (j : S16384x50x128.Idx) => ?_
  obtain ⟨a, b, e, rfl⟩ : ∃ (a : Fin 16384) (b : Fin 50) (e : Fin 128), j = ix3 a b e := ⟨j 0, j 1, j 2, eq_ix3 j⟩
  exact (val4_apply m d a b e).trans rfl

/-- and, the launch indices nonnegative, the lookup. -/
theorem val4_eq (hpre : PreOK m) (d : Dev nD) :
    (val4 m d : S16384x50x128.Idx → F .f32) = Cert.Spec.lookup (m (a0Loc d) : S16384x50.Idx → BitVec 32) (m (a1Loc d) : Cert.Spec.STab.Idx → F .f32) :=
  (val4_eq_capped m d).trans (Cert.Spec.lookupCapped_eq _ _ (hpre d))

end Cert.KernelIdeal.Hand

end
-- ==== Proof.RefOut.lean ====
/-
  The reference program's result as one function of its two argument arrays: the operations of its
  straight line composed, in named stages.

  The index array is shifted by zero; the mask marks the positions whose shifted index is below 50000
  and not negative (both comparisons signed); the masked-out positions are replaced by the row number 2;
  the table rows are taken at the replaced indices (a negative index would first be wrapped by adding
  50000, positions whose index falls outside the table would be filled with a quiet NaN); and the
  masked-out positions of the taken rows are set to zero.
-/
import proofs.«206731_g35192962023934_cont_8to1_b_663_28_alg».proof.ReferenceIdeal

noncomputable section

namespace Cert.RefRun

open Cert.ReferenceIdeal Idealize.ShloMosaic
open Cert.ReferenceIdeal.Facts₀ Cert.ReferenceIdeal.Facts

variable {F : FTy → Type} [FloatOps F] [Cert.ReferenceIdeal.Facts]

/-- The index array minus a zero array. -/
def shifted (idx : IVec S16384x50 32) : IVec S16384x50 32 :=
  subi idx (broadcastInDim S16384x50 ![] bcast_S_S16384x50 (constantI S_ 32 0#32))

/-- Where the shifted index is below 50000 and at least zero, both read signed. -/
def mask (idx : IVec S16384x50 32) : IVec S16384x50 1 :=
  andi (cmpi .slt (shifted idx) (broadcastInDim S16384x50 ![] bcast_S_S16384x50 (constantI S_ 32 50000#32)))
    (cmpi .sge (shifted idx) (broadcastInDim S16384x50 ![] bcast_S_S16384x50 (constantI S_ 32 0#32)))

/-- The shifted index where the mask holds, the row number 2 elsewhere. -/
def safe (idx : IVec S16384x50 32) : IVec S16384x50 32 :=
  select (mask idx) (shifted idx) (broadcastInDim S16384x50 ![] bcast_S_S16384x50 (id (constantI S_ 32 2#32)))

/-- A negative row number counted from the table's end: 50000 added to it. -/
def wrapped (s : IVec S16384x50 32) : IVec S16384x50 32 :=
  select (cmpi .slt s (broadcastInDim S16384x50 ![] bcast_S_S16384x50 (constantI S_ 32 0#32)))
    (addi s (broadcastInDim S16384x50 ![] bcast_S_S16384x50 (constantI S_ 32 50000#32))) s

/-- The wrapped row numbers as a column of one-component index vectors. -/
def col (s : IVec S16384x50 32) : IVec S16384x50x1 32 :=
  broadcastInDim S16384x50x1 ![0, 1] bcast_S16384x50_S16384x50x1_0_1 (wrapped s)

/-- Where the row number lies inside the table: at least zero and at most 49999, conjoined over the
    one component of the index vector. -/
def valid (s : IVec S16384x50 32) : IVec S16384x50 1 :=
  Host.reduce IntOp.andi
    (andi (cmpi .sge (col s) (broadcastInDim S16384x50x1 ![] bcast_S_S16384x50x1 (constantI S_ 32 0#32)))
      (cmpi .sle (col s) (broadcastInDim S16384x50x1 ![0, 1, 2] bcast_S1x1x1_S16384x50x1_0_1_2
        (broadcastInDim S1x1x1 ![2] bcast_S1_S1x1x1_2 (constantI S1 32 49999#32)))))
    (constantI S_ 1 1#1) reducesTo_S16384x50x1_S16384x50_d2 h_S_

/-- The table's rows at the row numbers, a quiet NaN where the row number is outside the table. -/
def taken (w : FVec F S50000x128 .f32) (s : IVec S16384x50 32) : FVec F S16384x50x128 .f32 :=
  select (broadcastInDim S16384x50x128 ![0, 1] bcast_S16384x50_S16384x50x128_0_1 (valid s))
    (Host.gather gather_S50000x128_S16384x50x1_S16384x50x128_2_0_n_n_0_2_1128 w (col s))
    (broadcastInDim S16384x50x128 ![] bcast_S_S16384x50x128 (constant S_ .f32 0x7FC00000#32))

/-- The reference's result: the rows taken at the safe row numbers, zero where the mask fails. -/
def out (idx : IVec S16384x50 32) (w : FVec F S50000x128 .f32) : FVec F S16384x50x128 .f32 :=
  select (broadcastInDim S16384x50x128 ![0, 1, 2] bcast_S16384x50x1_S16384x50x128_0_1_2
      (broadcastInDim S16384x50x1 ![0, 1] bcast_S16384x50_S16384x50x1_0_1 (mask idx)))
    (taken w (safe idx))
    (broadcastInDim S16384x50x128 ![] bcast_S_S16384x50x128 (constant S_ .f32 0x00000000#32))

end Cert.RefRun

end
-- ==== Proof.RefRun.lean ====
/-
  The reference program's run. Its @main is a straight line of forty-two host operations once the
  three functions it calls (and the one the second of them calls) are unfolded at their call sites,
  each callee's operations over the buffers of that call. Every weakly fair execution terminates with
  the result buffer holding the operations' composed term of the two arguments (`out`), the arguments
  unchanged.
-/
import proofs.«206731_g35192962023934_cont_8to1_b_663_28_alg».proof.Proof.RefOut
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- @main's operations in order, the calls unfolded: eleven of its own (the zero shift, the two
    comparisons and their conjunction, the row number 2); the first call's three (the row number
    converted to its own type, broadcast, the select); the second call's twenty-three, the select of
    the call it makes among them; three more of @main's own (the mask as a column, the zero array);
    the third call's two. -/
abbrev ops : List (HloOp τ sig (Elt F)) :=
  [ nullary main_c (constantI S_ 32 0#32),
    unary main_c main_v0 (broadcastInDim S16384x50 ![] bcast_S_S16384x50 : (⟨S_, .i32⟩ : BufTy).Contents (Elt F) → (⟨S16384x50, .i32⟩ : BufTy).Contents (Elt F)),
    binary main_arg0 main_v0 main_v1 (subi : (⟨S16384x50, .i32⟩ : BufTy).Contents (Elt F) → (⟨S16384x50, .i32⟩ : BufTy).Contents (Elt F) → (⟨S16384x50, .i32⟩ : BufTy).Contents (Elt F)),
    nullary main_c_0 (constantI S_ 32 50000#32),
    unary main_c_0 main_v2 (broadcastInDim S16384x50 ![] bcast_S_S16384x50 : (⟨S_, .i32⟩ : BufTy).Contents (Elt F) → (⟨S16384x50, .i32⟩ : BufTy).Contents (Elt F)),
    binary main_v1 main_v2 main_v3 (cmpi .slt : (⟨S16384x50, .i32⟩ : BufTy).Contents (Elt F) → (⟨S16384x50, .i32⟩ : BufTy).Contents (Elt F) → (⟨S16384x50, .i1⟩ : BufTy).Contents (Elt F)),
    nullary main_c_1 (constantI S_ 32 0#32),
    unary main_c_1 main_v4 (broadcastInDim S16384x50 ![] bcast_S_S16384x50 : (⟨S_, .i32⟩ : BufTy).Contents (Elt F) → (⟨S16384x50, .i32⟩ : BufTy).Contents (Elt F)),
    binary main_v1 main_v4 main_v5 (cmpi .sge : (⟨S16384x50, .i32⟩ : BufTy).Contents (Elt F) → (⟨S16384x50, .i32⟩ : BufTy).Contents (Elt F) → (⟨S16384x50, .i1⟩ : BufTy).Contents (Elt F)),
    binary main_v3 main_v5 main_v6 (andi : (⟨S16384x50, .i1⟩ : BufTy).Contents (Elt F) → (⟨S16384x50, .i1⟩ : BufTy).Contents (Elt F) → (⟨S16384x50, .i1⟩ : BufTy).Contents (Elt F)),
    nullary main_c_2 (constantI S_ 32 2#32),
    TRef.unary (.of main_c_2) main_call0.v0 id,
    TRef.unary main_call0.v0 main_call0.v1 (broadcastInDim S16384x50 ![] bcast_S_S16384x50),
    TRef.ternary (.of main_v6) (.of main_v1) main_call0.v1 main_call0.v2 select,
    TRef.nullary main_call1.c (constantI S_ 32 0#32),
    TRef.unary main_call1.c main_call1.v0 (broadcastInDim S16384x50 ![] bcast_S_S16384x50),
    TRef.binary (.of main_v7) main_call1.v0 main_call1.v1 (cmpi .slt),
    TRef.nullary main_call1.c_0 (constantI S_ 32 50000#32),
    TRef.unary main_call1.c_0 main_call1.v2 (broadcastInDim S16384x50 ![] bcast_S_S16384x50),
    TRef.binary (.of main_v7) main_call1.v2 main_call1.v3 addi,
    TRef.ternary main_call1.v1 main_call1.v3 (.of main_v7) main_call1.call0.v0 select,
    TRef.unary main_call1.call0.v0 main_call1.v5 (broadcastInDim S16384x50x1 ![0, 1] bcast_S16384x50_S16384x50x1_0_1),
    TRef.nullary main_call1.c_1 (constantI S1 32 49999#32),
    TRef.nullary main_call1.c_2 (constantI S_ 32 0#32),
    TRef.unary main_call1.c_2 main_call1.v6 (broadcastInDim S16384x50x1 ![] bcast_S_S16384x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x50x1 ![0, 1, 2] bcast_S1x1x1_S16384x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x50x1_S16384x50_d2 h_S_),
    TRef.binary (.of main_arg1) main_call1.v5 main_call1.v13 (fun x i => Host.gather gather_S50000x128_S16384x50x1_S16384x50x128_2_0_n_n_0_2_1128 x i),
    TRef.unary main_call1.v12 main_call1.v14 (broadcastInDim S16384x50x128 ![0, 1] bcast_S16384x50_S16384x50x128_0_1),
    TRef.nullary main_call1.cst (constant S_ .f32 0x7FC00000#32),
    TRef.unary main_call1.cst main_call1.v15 (broadcastInDim S16384x50x128 ![] bcast_S_S16384x50x128),
    TRef.ternary main_call1.v14 main_call1.v13 main_call1.v15 main_call1.v16 select,
    unary main_v6 main_v9 (broadcastInDim S16384x50x1 ![0, 1] bcast_S16384x50_S16384x50x1_0_1 : (⟨S16384x50, .i1⟩ : BufTy).Contents (Elt F) → (⟨S16384x50x1, .i1⟩ : BufTy).Contents (Elt F)),
    nullary main_cst (constant S_ .f32 0x00000000#32),
    unary main_cst main_v10 (broadcastInDim S16384x50x128 ![] bcast_S_S16384x50x128 : (⟨S_, .f32⟩ : BufTy).Contents (Elt F) → (⟨S16384x50x128, .f32⟩ : BufTy).Contents (Elt F)),
    TRef.unary (.of main_v9 : TRef sig ⟨S16384x50x1, .i1⟩) main_call2.v0 (broadcastInDim S16384x50x128 ![0, 1, 2] bcast_S16384x50x1_S16384x50x128_0_1_2),
    TRef.ternary main_call2.v0 (.of main_v8) (.of main_v10) main_call2.v1 select ]

-- forty-two binds re-associated: the rewrite under the chain recurses once per statement
set_option maxRecDepth 1024 in
/-- @main is that straight line: the functions' definitions unfolded at their calls and the records at
    their fields, both sides are one chain of steps once sequencing is reassociated. -/
theorem main_eq (c : Dev nD) : main (F := F) c = seq ops := by
  simp only [main, fn_where.body, fn_where_0.body, fn_take.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., binary_bufs_sub .., binary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., nullary_bufs_sub .., unary_bufs_sub ..,
    unary_bufs_sub .., ternary_bufs_sub ..⟩

attribute [local irreducible] Host.reduce Host.gather in
set_option maxRecDepth 8192 in
/-- The fold at the result buffer is `out` of the arguments' contents: each operation's result at its own
    buffer is its function's value, at any other buffer what was there, and the typed references' casts
    are the identity at these literal references. -/
theorem out_eq (V : Valuation τ sig (Elt F)) :
    after ops V (main_v11 : DevRef τ sig) = out (F := F) (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair
    execution of @main terminates with the result at `out` of the arguments and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (out_eq _),
      (h c main_arg0).trans (arg0_eq _),
      (h c main_arg1).trans (arg1_eq _)⟩)
    (run_seq scopedRefs_eq scopedSems_eq defs main (fun _ => ops) main_eq (fun _ => ops_sub) m ρ)

end Cert.RefRun

end
-- ==== Proof.RefValue.lean ====
/-
  The reference's composed term is the lookup: index by index, `out idx w = Cert.Spec.lookup idx w`.

  Each stage of the term is read at an index. The mask at `(a, b)` is 1 exactly when the index there, read
  unsigned, is below 50000. The safe row numbers are therefore all below 50000, which makes the wrap of
  negative row numbers the identity, the validity mask 1 everywhere, and the clamp of the gather's start
  index the identity: the taken row at `(a, b)` is the table's row `safe[a, b]`. The final select keeps
  it where the mask holds, where the safe row number is the index itself, and puts the zero word elsewhere.
-/
import proofs.«206731_g35192962023934_cont_8to1_b_663_28_alg».proof.Proof.RefOut
import proofs.«206731_g35192962023934_cont_8to1_b_663_28_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.RefRun

open Cert.ReferenceIdeal Idealize.ShloMosaic Idealize.ShloMosaic.ValueIdx
open Cert.ReferenceIdeal.Facts₀ Cert.ReferenceIdeal.Facts

variable {F : FTy → Type} [FloatOps F] [Cert.ReferenceIdeal.Facts]

/-! ## Words -/

/-- Subtracting the zero word changes nothing. -/
theorem subi_zero (x : BitVec 32) : IntOp.subi x 0#32 = x := by
  show x - 0#32 = x
  exact BitVec.sub_zero x

/-- The two signed comparisons together — below 50000 and at least zero — say that the word, read
    unsigned, is below 50000: such a word has its top bit clear, so both readings are the same number,
    and a word with its top bit set reads negative. -/
theorem maskBit_iff (x : BitVec 32) :
    IntOp.andi (IntOp.cmpi .slt x 50000#32) (IntOp.cmpi .sge x 0#32) = 1#1 ↔ x.toNat < 50000 := by
  rw [IntOp.andi_eq_one, IntOp.cmpi_slt, IntOp.cmpi_sge]
  have h5 : (50000#32 : BitVec 32).toInt = 50000 := by decide
  have h0 : (0#32 : BitVec 32).toInt = 0 := by decide
  rw [h5, h0, BitVec.toInt_eq_toNat_cond]
  have := x.isLt
  split <;> omega

/-- A word below 50000 reads the same signed and unsigned. -/
theorem toInt_of_lt {x : BitVec 32} (h : x.toNat < 50000) : x.toInt = x.toNat := by
  rw [BitVec.toInt_eq_toNat_cond, if_pos (by omega)]

/-- The shift by zero, at an index. -/
theorem shifted_apply (idx : IVec S16384x50 32) (k : S16384x50.Idx) : shifted idx k = idx k := by
  show IntOp.subi (idx k) 0#32 = idx k
  exact subi_zero _

/-- The mask at an index: the two comparisons of the index there. -/
theorem mask_apply (idx : IVec S16384x50 32) (k : S16384x50.Idx) :
    mask idx k = IntOp.andi (IntOp.cmpi .slt (idx k) 50000#32) (IntOp.cmpi .sge (idx k) 0#32) := by
  show IntOp.andi (IntOp.cmpi .slt (shifted idx k) 50000#32) (IntOp.cmpi .sge (shifted idx k) 0#32) = _
  rw [shifted_apply]

/-- The gather read at `(a, b, d)`: row `i[a, b, 0]` of the table — read signed and clamped into
    `[0, 49999]` — at column `d`. On the row axis the operand index is the clamped start index alone (the
    axis is collapsed: no offset), on the column axis it is the offset coordinate `d` alone (the start
    index map does not name that axis). -/
theorem gather_apply (w : FVec F S50000x128 .f32) (i : IVec S16384x50x1 32) (a : Fin 16384) (b : Fin 50) (d : Fin 128) :
    Host.gather gather_S50000x128_S16384x50x1_S16384x50x128_2_0_n_n_0_2_1128 w i (ix3 a b d)
      = w (ix2 ⟨min (i (ix3 a b 0)).toInt.toNat (50000 - 1), by omega⟩ d) := by
  unfold Host.gather
  congr 1
  funext c
  refine Fin.ext ?_
  match c with
  | ⟨0, _⟩ =>
    show gather_S50000x128_S16384x50x1_S16384x50x128_2_0_n_n_0_2_1128.start (ix3 a b d) i 0
        + gather_S50000x128_S16384x50x1_S16384x50x128_2_0_n_n_0_2_1128.batchCoord (ix3 a b d) 0
        + gather_S50000x128_S16384x50x1_S16384x50x128_2_0_n_n_0_2_1128.offCoord (ix3 a b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x128_S16384x50x1_S16384x50x128_2_0_n_n_0_2_1128.startIndexMap from List.mem_singleton.mpr rfl)]
    have hsi : gather_S50000x128_S16384x50x1_S16384x50x128_2_0_n_n_0_2_1128.siIdx (ix3 a b d)
        ⟨List.idxOf (0 : Fin 2) gather_S50000x128_S16384x50x1_S16384x50x128_2_0_n_n_0_2_1128.startIndexMap,
          List.idxOf_lt_length_iff.2 (List.mem_singleton.mpr rfl)⟩ = ix3 a b 0 := by
      funext e; refine Fin.ext ?_
      match e with
      | ⟨0, _⟩ => rfl
      | ⟨1, _⟩ => rfl
      | ⟨2, _⟩ => rfl
    rw [hsi]
    rfl
  | ⟨1, _⟩ =>
    show gather_S50000x128_S16384x50x1_S16384x50x128_2_0_n_n_0_2_1128.start (ix3 a b d) i 1
        + gather_S50000x128_S16384x50x1_S16384x50x128_2_0_n_n_0_2_1128.batchCoord (ix3 a b d) 1
        + gather_S50000x128_S16384x50x1_S16384x50x128_2_0_n_n_0_2_1128.offCoord (ix3 a b d) 1 = _
    rw [GatherDims.batchCoord_eq_zero _ _ _ List.not_mem_nil]
    unfold GatherDims.start
    rw [dif_neg (show ¬ (1 : Fin 2) ∈ gather_S50000x128_S16384x50x1_S16384x50x128_2_0_n_n_0_2_1128.startIndexMap from fun h => absurd (List.mem_singleton.mp h) (by decide))]
    simp only [Nat.add_zero, Nat.zero_add]
    unfold GatherDims.offCoord
    rw [dif_pos (show (1 : Fin 2) ∈ gather_S50000x128_S16384x50x1_S16384x50x128_2_0_n_n_0_2_1128.sKept from (GatherDims.mem_sKept _ _).mpr ⟨fun h => absurd (List.mem_singleton.mp h) (by decide), List.not_mem_nil⟩)]
    rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | n :: l, h => by
    rw [List.foldl_cons, h n List.mem_cons_self, show IntOp.andi 1#1 1#1 = (1#1 : BitVec 1) from by decide]
    exact foldl_andi_one f l fun k hk => h k (List.mem_cons_of_mem _ hk)

/-- A reduction by `and` from 1 of an array that is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun i _ => hx i

/-- The safe row number at an index: the index there where the mask holds, 2 elsewhere. -/
theorem safe_apply (idx : IVec S16384x50 32) (k : S16384x50.Idx) :
    safe idx k = Scalar.select (mask idx k) (idx k) 2#32 := by
  show Scalar.select (mask idx k) (shifted idx k) 2#32 = _
  rw [shifted_apply]

/-- Every safe row number is below 50000: where the mask holds that is what the mask says, and 2 is. -/
theorem safe_lt (idx : IVec S16384x50 32) (k : S16384x50.Idx) : (safe idx k).toNat < 50000 := by
  rw [safe_apply]
  by_cases h : mask idx k = 1#1
  · rw [h, select_one]
    exact (maskBit_iff _).mp (by rw [← mask_apply]; exact h)
  · rw [eq_zero_of_ne_one h, select_zero]
    decide

/-- A row number below 50000 is not negative, so the wrap leaves it. -/
theorem wrapped_apply (s : IVec S16384x50 32) (k : S16384x50.Idx) (h : (s k).toNat < 50000) : wrapped s k = s k := by
  show Scalar.select (IntOp.cmpi .slt (s k) 0#32) (IntOp.addi (s k) 50000#32) (s k) = s k
  have hc : IntOp.cmpi .slt (s k) 0#32 = 0#1 := eq_zero_of_ne_one fun e => by
    have e' := IntOp.cmpi_slt.mp e
    rw [toInt_of_lt h, show (0#32 : BitVec 32).toInt = 0 from by decide] at e'
    omega
  rw [hc, select_zero]

/-- The column of index vectors at `(a, b, c)`: the wrapped row number at `(a, b)`. -/
theorem col_apply (s : IVec S16384x50 32) (i : S16384x50x1.Idx) : col s i = wrapped s (ix2 (i 0) (i 1)) := by
  unfold col
  exact broadcastInDim_apply _ _ _ i (ix2 (i 0) (i 1)) fun a => match a with
    | ⟨0, _⟩ => rfl
    | ⟨1, _⟩ => rfl

/-- Row numbers all below 50000 are all valid: each is at least zero and at most 49999, so the
    conjunction over the index vector's one component is 1. -/
theorem valid_apply (s : IVec S16384x50 32) (hs : ∀ k, (s k).toNat < 50000) (j : S16384x50.Idx) : valid s j = 1#1 := by
  unfold valid
  refine reduce_andi_of_all _ _ _ _ j rfl fun i => ?_
  show IntOp.andi (IntOp.cmpi .sge (col s i) 0#32) (IntOp.cmpi .sle (col s i) 49999#32) = 1#1
  rw [col_apply, wrapped_apply s _ (hs _), IntOp.andi_eq_one, IntOp.cmpi_sge, IntOp.cmpi_sle, toInt_of_lt (hs _),
    show (0#32 : BitVec 32).toInt = 0 from by decide, show (49999#32 : BitVec 32).toInt = 49999 from by decide]
  have := hs (ix2 (i 0) (i 1))
  omega

/-- The rows taken at row numbers all below 50000, at `(a, b, d)`: the table at row `s[a, b]`, column `d`
    (the validity bit is 1, so the NaN fill is not selected; the clamp and the signed reading leave a
    number below 50000 as it is). -/
theorem taken_apply (w : FVec F S50000x128 .f32) (s : IVec S16384x50 32) (hs : ∀ k, (s k).toNat < 50000)
    (a : Fin 16384) (b : Fin 50) (d : Fin 128) :
    taken w s (ix3 a b d) = w (ix2 ⟨(s (ix2 a b)).toNat, hs _⟩ d) := by
  unfold taken
  rw [select_apply]
  have hv : broadcastInDim S16384x50x128 ![0, 1] bcast_S16384x50_S16384x50x128_0_1 (valid s) (ix3 a b d) = 1#1 := by
    rw [broadcastInDim_apply _ _ _ (ix3 a b d) (ix2 a b) fun c => match c with
      | ⟨0, _⟩ => rfl
      | ⟨1, _⟩ => rfl]
    exact valid_apply s hs _
  rw [hv, select_one, gather_apply]
  have hc : col s (ix3 a b 0) = s (ix2 a b) := by
    rw [col_apply]
    exact wrapped_apply s _ (hs _)
  have hm : min (col s (ix3 a b 0)).toInt.toNat (50000 - 1) = (s (ix2 a b)).toNat := by
    rw [hc, toInt_of_lt (hs _), Int.toNat_natCast]
    have := hs (ix2 a b)
    omega
  exact congrArg (fun r : Fin 50000 => w (ix2 r d)) (Fin.ext hm)

/-- THE VALUE: the reference's composed term is the lookup. At `(a, b, d)`, where the index is below 50000
    (unsigned) the mask holds, the safe row number is the index, and the result is the table's entry;
    elsewhere the mask fails and the result is the zero word, as is the lookup's row of zeros. -/
theorem out_eq_lookup (idx : IVec S16384x50 32) (w : FVec F S50000x128 .f32) :
    out idx w = Cert.Spec.lookup idx w := by
  funext j
  obtain ⟨a, b, d, rfl⟩ : ∃ a b d, j = ix3 a b d := ⟨_, _, _, eq_ix3 j⟩
  show _ = Cert.Spec.rowAt w (idx (ix2 a b)).toNat d
  unfold out
  rw [select_apply, taken_apply w (safe idx) (safe_lt idx) a b d,
    broadcastInDim_apply _ _ _ (ix3 a b d) (ix3 a b 0) fun c => match c with
      | ⟨0, _⟩ => rfl
      | ⟨1, _⟩ => rfl
      | ⟨2, _⟩ => rfl,
    broadcastInDim_apply _ _ _ (ix3 a b 0) (ix2 a b) fun c => match c with
      | ⟨0, _⟩ => rfl
      | ⟨1, _⟩ => rfl]
  by_cases h : mask idx (ix2 a b) = 1#1
  · have hlt : (idx (ix2 a b)).toNat < 50000 := (maskBit_iff _).mp (by rw [← mask_apply]; exact h)
    rw [h, select_one, Cert.Spec.rowAt_lt w hlt]
    refine congrArg (fun r : Fin 50000 => w (ix2 r d)) (Fin.ext ?_)
    show (safe idx (ix2 a b)).toNat = (idx (ix2 a b)).toNat
    rw [safe_apply, h, select_one]
  · have hge : 50000 ≤ (idx (ix2 a b)).toNat := Nat.not_lt.mp fun hlt =>
      h (by rw [mask_apply]; exact (maskBit_iff _).mpr hlt)
    rw [eq_zero_of_ne_one h, select_zero, Cert.Spec.rowAt_ge w hge]
    rfl

end Cert.RefRun

end
-- ==== Proof.RefLookup.lean ====
/-
  The reference's run, stated against the lookup: every weakly fair execution of the reference
  terminates with its result buffer holding `Cert.Spec.lookup` of the two argument arrays and the
  arguments unchanged — the run's composed term (`run_out`) rewritten by `out_eq_lookup`.
-/
import proofs.«206731_g35192962023934_cont_8to1_b_663_28_alg».proof.Proof.RefRun
import proofs.«206731_g35192962023934_cont_8to1_b_663_28_alg».proof.Proof.RefValue

noncomputable section

namespace Cert.RefRun

open Idealize.ShloMosaic Idealize.ShloMosaic.TcCoe Idealize.SL.Sem

variable [Cert.ReferenceIdeal.Facts]

/-- For any float values: the reference runs to the lookup of its arguments, the arguments unchanged. -/
theorem run_lookup {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v11)
            = Cert.Spec.lookup (F := F) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run _ _ _).mono (fun _ h c => ⟨(h c).1.trans (out_eq_lookup _ _), (h c).2⟩) (run_out m ρ)

/-- The same at the ideal values. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v11)
            = Cert.Spec.lookup (F := Ideal) (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  run_lookup m ρ

end Cert.RefRun

end
-- ==== Proof.PreDecode.lean ====
/-
  The precondition read: the input builder's predicate is the conjunction of "every weight is finite" and
  "every index is at least 0 and at most 99999" (signed), each reduced over its whole array. When it holds, every
  index is nonnegative as a signed word: its unsigned value is below 2^31.
-/
import proofs.«206731_g35192962023934_cont_8to1_b_663_28_alg».proof.Pre_input_domain
import Idealize.ShloMosaic.Lib.ReduceAll
import Idealize.ShloMosaic.Lib.Affine
import Idealize.ShloMosaic.Lib.ValueIdx

noncomputable section

namespace Cert.PreDecode

open Idealize.ShloMosaic Cert.Pre_input_domain

variable {F : FTy → Type} [FloatOps F] [Cert.Pre_input_domain.Facts]

instance : Subsingleton S_.Idx := ⟨fun a b => funext fun d => d.elim0⟩

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

/-- A word that is at least 0 and at most 99999, signed, has its top bit clear. -/
theorem key (v : BitVec 32) (e : IntOp.andi (IntOp.cmpi .sge v 0#32) (IntOp.cmpi .sle v 99999#32) = 1#1) : v.toNat < 2 ^ 31 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The predicate all ones: every index nonnegative. -/
theorem nonneg (idx : IVec S16384x50 32) (w : FVec F S50000x128 .f32) (h : Cert.Pre_input_domain.fn (F := F) idx w = fun _ => 1#1)
    (i : S16384x50.Idx) : (idx i).toNat < 2 ^ 31 := by
  have e := congrFun h ValueIdx.ix0
  dsimp only [Cert.Pre_input_domain.fn] at e
  have e2 := ((IntOp.andi_eq_one).mp e).2
  have e3 := Host.reduce_andi_all _ _ _ _ ValueIdx.ix0 e2 i
  simp only [andi, cmpi, broadcastInDim, constantI] at e3
  exact key _ e3

end Cert.PreDecode

end
-- ==== Proof.lean ====
/-
  The certificate's five claims, assembled.

  The kernel computes the lookup in two steps: a first kernel on the vector subcores caps every index at 50000, a
  second one on the main core copies, for every capped index, that row of a table made of the 50000 weight rows and
  eight rows of zeros. For a nonnegative index this is the weight row when the index is below 50000 and a row of
  zeros otherwise — the reference's masked lookup, whose mask "0 ≤ index < 50000" is the single unsigned comparison.
  No float arithmetic is involved: both sides move weight words or the zero word, so the two results are equal word
  for word at either instance, and the equality at the ideal instance needs nothing of the weights' finiteness.

  The frames of the two kernel programs are the launch theorem's run with the values dropped (the same text at the
  word-level and at the ideal instance); the reference's frame is its run with the value dropped; the idealization
  rewrote nothing; the algebraic claim pairs the kernel's run at the ideal instance with the reference's run, both
  results being the lookup of the same arguments.
-/
import proofs.«206731_g35192962023934_cont_8to1_b_663_28_alg».proof.Defs
import proofs.«206731_g35192962023934_cont_8to1_b_663_28_alg».proof.Proof.Gen.Kernel
import proofs.«206731_g35192962023934_cont_8to1_b_663_28_alg».proof.Proof.Gen.KernelIdeal
import proofs.«206731_g35192962023934_cont_8to1_b_663_28_alg».proof.Proof.Gen.ReferenceIdeal
import proofs.«206731_g35192962023934_cont_8to1_b_663_28_alg».proof.Proof.Gen.Pre_input_domain
import proofs.«206731_g35192962023934_cont_8to1_b_663_28_alg».proof.Proof.KernelHand.Main
import proofs.«206731_g35192962023934_cont_8to1_b_663_28_alg».proof.Proof.KernelIdealHand.Main
import proofs.«206731_g35192962023934_cont_8to1_b_663_28_alg».proof.Proof.KernelIdealHand.Bridge
import proofs.«206731_g35192962023934_cont_8to1_b_663_28_alg».proof.Proof.RefLookup
import proofs.«206731_g35192962023934_cont_8to1_b_663_28_alg».proof.Proof.PreDecode
import Idealize.ShloMosaic.Adequacy
import Idealize.ShloMosaic.Init

noncomputable section

namespace Cert.Proof

open Idealize.ShloMosaic Idealize.SL.Sem

section
variable [Cert.Pre_input_domain.Facts]

/-- The precondition gives what the kernel's proof asks of the launch memory, at either program. -/
theorem preOK_kernel (m : (ℓ : Loc Cert.Kernel.nD Cert.Kernel.τ Cert.Kernel.sig) → Buf (Elt Bits) ℓ) (h : Cert.Pre_Kernel m) :
    Cert.Kernel.Hand.PreOK (F := Bits) m :=
  fun d i => Cert.PreDecode.nonneg (F := Bits) _ _ (h d) i
theorem preOK_kernelIdeal (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m :=
  fun d i => Cert.PreDecode.nonneg (F := Ideal) _ _ (h d) i

theorem frame_k : Cert.frame_Kernel := fun m ρ h =>
  (θ_run Cert.Kernel.defs _ _).mono (fun _ hr c => ⟨(hr c).2.1, (hr c).2.2⟩) (Cert.Kernel.Hand.run_main (F := Bits) m ρ (preOK_kernel m h))
theorem frame_ki : Cert.frame_KernelIdeal := fun m ρ h =>
  (θ_run Cert.KernelIdeal.defs _ _).mono (fun _ hr c => ⟨(hr c).2.1, (hr c).2.2⟩) (Cert.KernelIdeal.Hand.run_main (F := Ideal) m ρ (preOK_kernelIdeal m h))
theorem frame_ri : Cert.frame_ReferenceIdeal := fun m ρ _ =>
  (θ_run Cert.ReferenceIdeal.defs _ _).mono (fun _ hr c => (hr c).2) (Cert.RefRun.run m ρ)

theorem algebraic : Cert.algebraic_KernelIdeal_ReferenceIdeal := by
  intro m ρ m' ρ' hpre hagree
  refine ⟨fun c => Cert.KernelIdeal.Hand.val4 m c, Cert.KernelIdeal.Hand.run_main (F := Ideal) m ρ (preOK_kernelIdeal m hpre), ?_⟩
  refine (θ_run Cert.ReferenceIdeal.defs _ _).mono (fun _ hr c => ⟨(hr c).1.trans ?_, (hr c).2.1, (hr c).2.2⟩) (Cert.RefRun.run m' ρ')
  rw [(hagree c).1, (hagree c).2]
  exact (Cert.KernelIdeal.Hand.val4_eq m (preOK_kernelIdeal m hpre) c).symm

end

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
